-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v29_0)) (v2 : (c : Dev Cert.KernelIdeal.nD) → Buf (Elt Ideal) ((c.tc : Thread Cert.KernelIdeal.nD Cert.KernelIdeal.τ).loc Cert.KernelIdeal.main_v29_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v29_0) = v1 c
          ∧ r.2.mem ((c.tc : Thread Cert.KernelIdeal.nD Cert.KernelIdeal.τ).loc Cert.KernelIdeal.main_v29_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x2048 : Shape := ⟨2, ![2048, 2048]⟩
abbrev S50257x2048 : Shape := ⟨2, ![50257, 2048]⟩
abbrev S4096x2048 : Shape := ⟨2, ![4096, 2048]⟩
abbrev S2048x50257 : Shape := ⟨2, ![2048, 50257]⟩
abbrev S50257 : Shape := ⟨1, ![50257]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S50257x2048 : S_.BroadcastsInDim S50257x2048 (![] : Fin 0 → Fin S50257x2048.rank)
  reducesTo_S50257x2048_S_d0_1 : S50257x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S2048x50257 : S_.BroadcastsInDim S2048x50257 (![] : Fin 0 → Fin S2048x50257.rank)
  reducesTo_S2048x50257_S_d0_1 : S2048x50257.ReducesTo [0, 1] S_
  bcast_S_S50257 : S_.BroadcastsInDim S50257 (![] : Fin 0 → Fin S50257.rank)
  reducesTo_S50257_S_d0 : S50257.ReducesTo [0] S_

variable [Facts]

def fn_part3 {F : FTy → Type} [FloatOps F] (main_arg12 : FVec F S2048x50257 .f32) (main_arg13 : FVec F S50257 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x50257 .f32 := Host.absf main_arg12
  let main_cst_20 : FVec F S_ .f32 := constant S_ .f32 0x7F800000#32
  let main_v55 : FVec F S2048x50257 .f32 := broadcastInDim S2048x50257 ![] bcast_S_S2048x50257 main_cst_20
  let main_v56 : IVec S2048x50257 1 := cmpf .olt main_v54 main_v55
  let main_c_21 : IVec S_ 1 := constantI S_ 1 1#1
  let main_v57 : IVec S_ 1 := (fun x v => Host.reduce IntOp.andi x v reducesTo_S2048x50257_S_d0_1 h_S_) main_v56 main_c_21
  let main_v58 : IVec S_ 1 := andi main_v53 main_v57
  let main_v59 : FVec F S50257 .f32 := Host.absf main_arg13
  let main_cst_22 : FVec F S_ .f32 := constant S_ .f32 0x7F800000#32
  let main_v60 : FVec F S50257 .f32 := broadcastInDim S50257 ![] bcast_S_S50257 main_cst_22
  let main_v61 : IVec S50257 1 := cmpf .olt main_v59 main_v60
  let main_c_23 : IVec S_ 1 := constantI S_ 1 1#1
  let main_v62 : IVec S_ 1 := (fun x v => Host.reduce IntOp.andi x v reducesTo_S50257_S_d0 h_S_) main_v61 main_c_23
  let main_v63 : IVec S_ 1 := andi main_v58 main_v62
  main_v63

def fn_part2 {F : FTy → Type} [FloatOps F] (main_arg8 : FVec F S4096x2048 .f32) (main_arg9 : FVec F S2048 .f32) (main_arg10 : FVec F S4096x2048 .f32) (main_arg11 : FVec F S2048 .f32) (main_arg12 : FVec F S2048x50257 .f32) (main_arg13 : FVec F S50257 .f32) (main_v33 : IVec S_ 1) : IVec S_ 1 :=
  let main_v34 : FVec F S4096x2048 .f32 := Host.absf main_arg8
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S2048 .f32 := Host.absf main_arg9
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x2048 .f32 := Host.absf main_arg10
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S2048 .f32 := Host.absf main_arg11
  let main_cst_18 : FVec F S_ .f32 := constant S_ .f32 0x7F800000#32
  let main_v50 : FVec F S2048 .f32 := broadcastInDim S2048 ![] bcast_S_S2048 main_cst_18
  fn_part3 (F := F) main_arg12 main_arg13 main_v48 main_v49 main_v50

def fn_part1 {F : FTy → Type} [FloatOps F] (main_arg5 : FVec F S2048 .f32) (main_arg6 : FVec F S4096x2048 .f32) (main_arg7 : FVec F S2048 .f32) (main_arg8 : FVec F S4096x2048 .f32) (main_arg9 : FVec F S2048 .f32) (main_arg10 : FVec F S4096x2048 .f32) (main_arg11 : FVec F S2048 .f32) (main_arg12 : FVec F S2048x50257 .f32) (main_arg13 : FVec F S50257 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S4096x2048 .f32 := Host.absf main_arg6
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S2048 32) (main_arg1 : FVec F S2048x2048 .f32) (main_arg2 : FVec F S2048x2048 .f32) (main_arg3 : FVec F S50257x2048 .f32) (main_arg4 : FVec F S4096x2048 .f32) (main_arg5 : FVec F S2048 .f32) (main_arg6 : FVec F S4096x2048 .f32) (main_arg7 : FVec F S2048 .f32) (main_arg8 : FVec F S4096x2048 .f32) (main_arg9 : FVec F S2048 .f32) (main_arg10 : FVec F S4096x2048 .f32) (main_arg11 : FVec F S2048 .f32) (main_arg12 : FVec F S2048x50257 .f32) (main_arg13 : FVec F S50257 .f32) : IVec S_ 1 :=
  let main_v0 : FVec F S2048x2048 .f32 := Host.absf main_arg1
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S50257x2048 .f32 := Host.absf main_arg3
  let main_cst_2 : FVec F S_ .f32 := constant S_ .f32 0x7F800000#32
  let main_v10 : FVec F S50257x2048 .f32 := broadcastInDim S50257x2048 ![] bcast_S_S50257x2048 main_cst_2
  let main_v11 : IVec S50257x2048 1 := cmpf .olt main_v9 main_v10
  let main_c_3 : IVec S_ 1 := constantI S_ 1 1#1
  let main_v12 : IVec S_ 1 := (fun x v => Host.reduce IntOp.andi x v reducesTo_S50257x2048_S_d0_1 h_S_) main_v11 main_c_3
  let main_v13 : IVec S_ 1 := andi main_v8 main_v12
  let main_v14 : FVec F S4096x2048 .f32 := Host.absf main_arg4
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg5 main_arg6 main_arg7 main_arg8 main_arg9 main_arg10 main_arg11 main_arg12 main_arg13 main_v13 main_v16
-- ==== Kernel.lean ====
abbrev S2048 : Shape := ⟨1, ![2048]⟩
abbrev S2048x2048 : Shape := ⟨2, ![2048, 2048]⟩
abbrev S50257x2048 : Shape := ⟨2, ![50257, 2048]⟩
abbrev S4096x2048 : Shape := ⟨2, ![4096, 2048]⟩
abbrev S2048x50257 : Shape := ⟨2, ![2048, 50257]⟩
abbrev S50257 : Shape := ⟨1, ![50257]⟩
abbrev S_ : Shape := ⟨0, ![]⟩
abbrev S2048x1 : Shape := ⟨2, ![2048, 1]⟩
abbrev S1x2048 : Shape := ⟨2, ![1, 2048]⟩
abbrev S512x2048 : Shape := ⟨2, ![512, 2048]⟩
abbrev S512x256 : Shape := ⟨2, ![512, 256]⟩
abbrev S2048x256 : Shape := ⟨2, ![2048, 256]⟩
abbrev S1x256 : Shape := ⟨2, ![1, 256]⟩
abbrev S1x50257 : Shape := ⟨2, ![1, 50257]⟩
abbrev S2048x512 : Shape := ⟨2, ![2048, 512]⟩
abbrev S1x512 : Shape := ⟨2, ![1, 512]⟩

abbrev nBuf : Space → Nat
  | .hbm => 51
  | .vmem => 43
  | .smem => 0
  | _ => 0

abbrev bufTy : (tb : Table) → Fin (tcTables nBuf tb) → BufTy
  | .hbm, ⟨0, _⟩ => ⟨S2048, .i32⟩
  | .hbm, ⟨1, _⟩ => ⟨S2048x2048, .f32⟩
  | .hbm, ⟨2, _⟩ => ⟨S2048x2048, .f32⟩
  | .hbm, ⟨3, _⟩ => ⟨S50257x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S2048, .f32⟩
  | .hbm, ⟨8, _⟩ => ⟨S4096x2048, .f32⟩
  | .hbm, ⟨9, _⟩ => ⟨S2048, .f32⟩
  | .hbm, ⟨10, _⟩ => ⟨S4096x2048, .f32⟩
  | .hbm, ⟨11, _⟩ => ⟨S2048, .f32⟩
  | .hbm, ⟨12, _⟩ => ⟨S2048x50257, .f32⟩
  | .hbm, ⟨13, _⟩ => ⟨S50257, .f32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S2048x2048, .f32⟩
  | .hbm, ⟨23, _⟩ => ⟨S2048x2048, .bf16⟩
  | .hbm, ⟨24, _⟩ => ⟨S2048x2048, .bf16⟩
  | .hbm, ⟨25, _⟩ => ⟨S2048x2048, .f32⟩
  | .hbm, ⟨26, _⟩ => ⟨S2048x2048, .bf16⟩
  | .hbm, ⟨27, _⟩ => ⟨S2048x2048, .f32⟩
  | .hbm, ⟨28, _⟩ => ⟨S2048x2048, .bf16⟩
  | .hbm, ⟨29, _⟩ => ⟨S2048x2048, .f32⟩
  | .hbm, ⟨30, _⟩ => ⟨S2048x2048, .bf16⟩
  | .hbm, ⟨31, _⟩ => ⟨S2048x2048, .f32⟩
  | .hbm, ⟨32, _⟩ => ⟨S2048x2048, .bf16⟩
  | .hbm, ⟨33, _⟩ => ⟨S2048x2048, .f32⟩
  | .hbm, ⟨34, _⟩ => ⟨S2048x2048, .bf16⟩
  | .hbm, ⟨35, _⟩ => ⟨S2048x2048, .f32⟩
  | .hbm, ⟨36, _⟩ => ⟨S2048x2048, .bf16⟩
  | .hbm, ⟨37, _⟩ => ⟨S2048x2048, .f32⟩
  | .hbm, ⟨38, _⟩ => ⟨S2048x2048, .bf16⟩
  | .hbm, ⟨39, _⟩ => ⟨S2048x2048, .f32⟩
  | .hbm, ⟨40, _⟩ => ⟨S2048x2048, .bf16⟩
  | .hbm, ⟨41, _⟩ => ⟨S1x2048, .f32⟩
  | .hbm, ⟨42, _⟩ => ⟨S1x2048, .f32⟩
  | .hbm, ⟨43, _⟩ => ⟨S1x2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | .hbm, ⟨48, _⟩ => ⟨S2048x50257, .bf16⟩
  | .hbm, ⟨49, _⟩ => ⟨S1x50257, .f32⟩
  | .hbm, ⟨50, _⟩ => ⟨S2048x50257, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S1x256, .f32⟩
  | .local _ .vmem, ⟨17, _⟩ => ⟨S1x256, .f32⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S1x256, .f32⟩
  | .local _ .vmem, ⟨23, _⟩ => ⟨S1x256, .f32⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S1x256, .f32⟩
  | .local _ .vmem, ⟨29, _⟩ => ⟨S1x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x256, .bf16⟩
  | .local _ .vmem, ⟨35, _⟩ => ⟨S512x256, .bf16⟩
  | .local _ .vmem, ⟨36, _⟩ => ⟨S2048x2048, .bf16⟩
  | .local _ .vmem, ⟨37, _⟩ => ⟨S2048x512, .bf16⟩
  | .local _ .vmem, ⟨38, _⟩ => ⟨S2048x512, .bf16⟩
  | .local _ .vmem, ⟨39, _⟩ => ⟨S1x512, .f32⟩
  | .local _ .vmem, ⟨40, _⟩ => ⟨S1x512, .f32⟩
  | .local _ .vmem, ⟨41, _⟩ => ⟨S2048x512, .f32⟩
  | .local _ .vmem, ⟨42, _⟩ => ⟨S2048x512, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc1_stg0_0 : Ref sig .tc := ⟨.vmem, 36, rfl⟩
abbrev cc1_stg1_0 : Ref sig .tc := ⟨.vmem, 37, rfl⟩
abbrev cc1_stg1_1 : Ref sig .tc := ⟨.vmem, 38, rfl⟩
abbrev cc1_stg2_0 : Ref sig .tc := ⟨.vmem, 39, rfl⟩
abbrev cc1_stg2_1 : Ref sig .tc := ⟨.vmem, 40, rfl⟩
abbrev cc1_stg3_0 : Ref sig .tc := ⟨.vmem, 41, rfl⟩
abbrev cc1_stg3_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc1_sem0_0 : DmaSem sig := 36
abbrev cc1_sem1_0 : DmaSem sig := 37
abbrev cc1_sem1_1 : DmaSem sig := 38
abbrev cc1_sem2_0 : DmaSem sig := 39
abbrev cc1_sem2_1 : DmaSem sig := 40
abbrev cc1_sem3_0 : DmaSem sig := 41
abbrev cc1_sem3_1 : DmaSem sig := 42

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev grid1 : Pipeline.Grid := ⟨2, ![1, 99], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bitsLt_bf16_f32 : FTy.bits .bf16 < FTy.bits .f32
  slices_S4096x2048_S2048x2048_0_0 : S4096x2048.Slices ![0, 0] S2048x2048
  slices_S4096x2048_S2048x2048_2048_0 : S4096x2048.Slices ![2048, 0] S2048x2048
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  shapeCasts_S50257_S1x50257 : S50257.ShapeCasts S1x50257
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  gather_S50257x2048_S2048x1_S2048x2048_1_0_n_n_0_1_12048_wf : GatherDims.WF S50257x2048 S2048x1 S2048x2048 [1] [0] [] [0] [] 1 ![1, 2048]
  dot_S512x2048_S2048x256_S512x256_1_0_0_1_n_n_wf : DotDims.WF S512x2048 S2048x256 S512x256 [1] [0] [0] [1] [] []
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .bf16 = 32 ∨ (Rect.block (s := S2048x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x2048.size a
  hwx0_2 : ∀ i : grid0.Coords, EltTy.bits .f32 = 32 ∨ (Rect.block (s := S2048x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x2048.size a
  hwx0_3 : ∀ i : grid0.Coords, EltTy.bits .bf16 = 32 ∨ (Rect.block (s := S2048x2048) S2048x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x2048.size a
  hwx0_4 : ∀ i : grid0.Coords, EltTy.bits .bf16 = 32 ∨ (Rect.block (s := S2048x2048) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S2048x2048.size a
  hwx0_6 : ∀ i : grid0.Coords, EltTy.bits .bf16 = 32 ∨ (Rect.block (s := S2048x2048) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .bf16 = 32 ∨ (Rect.block (s := S2048x2048) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .bf16 = 32 ∨ (Rect.block (s := S2048x2048) S2048x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .bf16 = 32 ∨ (Rect.block (s := S2048x2048) S2048x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2048x256.size a ≤ S2048x2048.size a
  hwx0_12 : ∀ i : grid0.Coords, EltTy.bits .bf16 = 32 ∨ (Rect.block (s := S2048x2048) S2048x256.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x256.size a ≤ S2048x2048.size a
  hwx0_13 : ∀ i : grid0.Coords, EltTy.bits .bf16 = 32 ∨ (Rect.block (s := S2048x2048) S2048x256.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S2048x2048.size a
  hwx0_15 : ∀ i : grid0.Coords, EltTy.bits .f32 = 32 ∨ (Rect.block (s := S2048x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S2048x2048.size a
  hwx0_16 : ∀ i : grid0.Coords, EltTy.bits .f32 = 32 ∨ (Rect.block (s := S2048x2048) S512x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x256.size a ≤ S2048x2048.size a
  hwx0_17 : ∀ i : grid0.Coords, EltTy.bits .bf16 = 32 ∨ (Rect.block (s := S2048x2048) S512x256.size (cc0_transform_17 i) (hinb0_17 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S2048x2048.size a
  hwx1_0 : ∀ i : grid1.Coords, EltTy.bits .bf16 = 32 ∨ (Rect.block (s := S2048x2048) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S2048x512.size a < S2048x50257.size a
  hwx1_1 : ∀ i : grid1.Coords, EltTy.bits .bf16 = 32 ∨ (Rect.unit (s := S2048x50257) (fun a => cc1_transform_1 i a * S2048x512.size a) (fun a => (Pipeline.Clip.of (cc1_transform_1 i a) (S2048x512.size a) (S2048x50257.size a)).extent (S2048x512.size a)) fun a => Pipeline.Clip.inb (Pipeline.Clip.ok_of (hstart1_1 i a))).WholeWords (EltTy.packing .bf16)
  hwxs1_1 : ∀ i : grid1.Coords, EltTy.bits .bf16 = 32 ∨ (Rect.unit (s := S2048x512) (fun _ => 0) (fun a => (Pipeline.Clip.of (cc1_transform_1 i a) (S2048x512.size a) (S2048x50257.size a)).extent (S2048x512.size a)) fun a => (Nat.zero_add _).trans_le (Pipeline.Clip.extent_le (Pipeline.Clip.ok_of (hstart1_1 i a)))).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x512.size a < S1x50257.size a
  hwx1_2 : ∀ i : grid1.Coords, EltTy.bits .f32 = 32 ∨ (Rect.unit (s := S1x50257) (fun a => cc1_transform_2 i a * S1x512.size a) (fun a => (Pipeline.Clip.of (cc1_transform_2 i a) (S1x512.size a) (S1x50257.size a)).extent (S1x512.size a)) fun a => Pipeline.Clip.inb (Pipeline.Clip.ok_of (hstart1_2 i a))).WholeWords (EltTy.packing .f32)
  hwxs1_2 : ∀ i : grid1.Coords, EltTy.bits .f32 = 32 ∨ (Rect.unit (s := S1x512) (fun _ => 0) (fun a => (Pipeline.Clip.of (cc1_transform_2 i a) (S1x512.size a) (S1x50257.size a)).extent (S1x512.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S2048x512.size a < S2048x50257.size a
  hwx1_3 : ∀ i : grid1.Coords, EltTy.bits .f32 = 32 ∨ (Rect.unit (s := S2048x50257) (fun a => cc1_transform_3 i a * S2048x512.size a) (fun a => (Pipeline.Clip.of (cc1_transform_3 i a) (S2048x512.size a) (S2048x50257.size a)).extent (S2048x512.size a)) fun a => Pipeline.Clip.inb (Pipeline.Clip.ok_of (hstart1_3 i a))).WholeWords (EltTy.packing .f32)
  hwxs1_3 : ∀ i : grid1.Coords, EltTy.bits .f32 = 32 ∨ (Rect.unit (s := S2048x512) (fun _ => 0) (fun a => (Pipeline.Clip.of (cc1_transform_3 i a) (S2048x512.size a) (S2048x50257.size a)).extent (S2048x512.size a)) fun a => (Nat.zero_add _).trans_le (Pipeline.Clip.extent_le (Pipeline.Clip.ok_of (hstart1_3 i a)))).WholeWords (EltTy.packing .f32)

variable [Facts₀]

def gather_S50257x2048_S2048x1_S2048x2048_1_0_n_n_0_1_12048 : GatherDims S50257x2048 S2048x1 S2048x2048 where
  offsetDims := [1]
  collapsedSliceDims := [0]
  operandBatchingDims := []
  startIndicesBatchingDims := []
  startIndexMap := [0]
  indexVectorDim := 1
  sliceSizes := ![1, 2048]
  wf := gather_S50257x2048_S2048x1_S2048x2048_1_0_n_n_0_1_12048_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_v7) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2048x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v20) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v27) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v22) S2048x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v24) S2048x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v28) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v29_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v29_1) S512x256.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v29_2) S512x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_v29_2) S2048x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_v30) S2048x512.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v31) S1x512.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v32) S2048x512.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048 : Shape := ⟨1, ![2048]⟩
abbrev S2048x2048 : Shape := ⟨2, ![2048, 2048]⟩
abbrev S50257x2048 : Shape := ⟨2, ![50257, 2048]⟩
abbrev S4096x2048 : Shape := ⟨2, ![4096, 2048]⟩
abbrev S2048x50257 : Shape := ⟨2, ![2048, 50257]⟩
abbrev S50257 : Shape := ⟨1, ![50257]⟩
abbrev S_ : Shape := ⟨0, ![]⟩
abbrev S2048x1 : Shape := ⟨2, ![2048, 1]⟩
abbrev S2048x4096 : Shape := ⟨2, ![2048, 4096]⟩
abbrev S4096x8192 : Shape := ⟨2, ![4096, 8192]⟩
abbrev S8192 : Shape := ⟨1, ![8192]⟩
abbrev S2048x8192 : Shape := ⟨2, ![2048, 8192]⟩
abbrev S1x8192 : Shape := ⟨2, ![1, 8192]⟩
abbrev S1x50257 : Shape := ⟨2, ![1, 50257]⟩

abbrev nBuf : Space → Nat
  | .hbm => 68
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048x2048, .f32⟩
  | .hbm, ⟨2, _⟩ => ⟨S2048x2048, .f32⟩
  | .hbm, ⟨3, _⟩ => ⟨S50257x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S2048, .f32⟩
  | .hbm, ⟨8, _⟩ => ⟨S4096x2048, .f32⟩
  | .hbm, ⟨9, _⟩ => ⟨S2048, .f32⟩
  | .hbm, ⟨10, _⟩ => ⟨S4096x2048, .f32⟩
  | .hbm, ⟨11, _⟩ => ⟨S2048, .f32⟩
  | .hbm, ⟨12, _⟩ => ⟨S2048x50257, .f32⟩
  | .hbm, ⟨13, _⟩ => ⟨S50257, .f32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S2048x1, .i32⟩
  | .hbm, ⟨22, _⟩ => ⟨S2048x2048, .f32⟩
  | .hbm, ⟨23, _⟩ => ⟨S2048x4096, .f32⟩
  | .hbm, ⟨24, _⟩ => ⟨S4096x8192, .f32⟩
  | .hbm, ⟨25, _⟩ => ⟨S8192, .f32⟩
  | .hbm, ⟨26, _⟩ => ⟨S2048x8192, .f32⟩
  | .hbm, ⟨27, _⟩ => ⟨S1x8192, .f32⟩
  | .hbm, ⟨28, _⟩ => ⟨S2048x8192, .f32⟩
  | .hbm, ⟨29, _⟩ => ⟨S2048x8192, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048x2048, .f32⟩
  | .hbm, ⟨54, _⟩ => ⟨S2048x2048, .f32⟩
  | .hbm, ⟨55, _⟩ => ⟨S_, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x50257, .f32⟩
  | .hbm, ⟨65, _⟩ => ⟨S1x50257, .f32⟩
  | .hbm, ⟨66, _⟩ => ⟨S2048x50257, .f32⟩
  | .hbm, ⟨67, _⟩ => ⟨S2048x50257, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  concatenates_S2048x2048_S2048x2048_S2048x4096_d1 : Shape.Concatenates [S2048x2048, S2048x2048] S2048x4096 1
  concatenates_S4096x2048_S4096x2048_S4096x2048_S4096x2048_S4096x8192_d1 : Shape.Concatenates [S4096x2048, S4096x2048, S4096x2048, S4096x2048] S4096x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S2048x8192_0_1 : S1x8192.BroadcastsInDim S2048x8192 (![0, 1] : Fin 2 → Fin S2048x8192.rank)
  slices_S2048x8192_S2048x2048_0_0 : S2048x8192.Slices ![0, 0] S2048x2048
  slices_S2048x8192_S2048x2048_0_2048 : S2048x8192.Slices ![0, 2048] S2048x2048
  slices_S2048x8192_S2048x2048_0_4096 : S2048x8192.Slices ![0, 4096] S2048x2048
  slices_S2048x8192_S2048x2048_0_6144 : S2048x8192.Slices ![0, 6144] S2048x2048
  bcast_S_S2048x2048 : S_.BroadcastsInDim S2048x2048 (![] : Fin 0 → Fin S2048x2048.rank)
  bcast_S50257_S1x50257_1 : S50257.BroadcastsInDim S1x50257 (![1] : Fin 1 → Fin S1x50257.rank)
  bcast_S1x50257_S2048x50257_0_1 : S1x50257.BroadcastsInDim S2048x50257 (![0, 1] : Fin 2 → Fin S2048x50257.rank)
  gather_S50257x2048_S2048x1_S2048x2048_1_0_n_n_0_1_12048_wf : GatherDims.WF S50257x2048 S2048x1 S2048x2048 [1] [0] [] [0] [] 1 ![1, 2048]
  dot_S2048x4096_S4096x8192_S2048x8192_1_0_0_1_n_n_wf : DotDims.WF S2048x4096 S4096x8192 S2048x8192 [1] [0] [0] [1] [] []
  dot_S2048x2048_S2048x50257_S2048x50257_1_0_0_1_n_n_wf : DotDims.WF S2048x2048 S2048x50257 S2048x50257 [1] [0] [0] [1] [] []

variable [Facts₀]

def gather_S50257x2048_S2048x1_S2048x2048_1_0_n_n_0_1_12048 : GatherDims S50257x2048 S2048x1 S2048x2048 where
  offsetDims := [1]
  collapsedSliceDims := [0]
  operandBatchingDims := []
  startIndicesBatchingDims := []
  startIndexMap := [0]
  indexVectorDim := 1
  sliceSizes := ![1, 2048]
  wf := gather_S50257x2048_S2048x1_S2048x2048_1_0_n_n_0_1_12048_wf
def dot_S2048x4096_S4096x8192_S2048x8192_1_0_0_1_n_n : DotDims S2048x4096 S4096x8192 S2048x8192 where
  lhsContracting := [1]
  rhsContracting := [0]
  lhsNonContracting := [0]
  rhsNonContracting := [1]
  lhsBatch := []
  rhsBatch := []
  wf := dot_S2048x4096_S4096x8192_S2048x8192_1_0_0_1_n_n_wf
def dot_S2048x2048_S2048x50257_S2048x50257_1_0_0_1_n_n : DotDims S2048x2048 S2048x50257 S2048x50257 where
  lhsContracting := [1]
  rhsContracting := [0]
  lhsNonContracting := [0]
  rhsNonContracting := [1]
  lhsBatch := []
  rhsBatch := []
  wf := dot_S2048x2048_S2048x50257_S2048x50257_1_0_0_1_n_n_wf

class Facts : Prop extends Facts₀ where

variable [Facts]
-- ==== Proof.Region0A.lean ====
/- The first region of @main (the recurrent cell, grid 8 × 4, eighteen windows), at the buffer contents `V` the region is
   entered with: each window's block at a grid point, and that every input window's current buffer holds its block at
   every grid point. Symbolic in the extents and generic in the float type. -/
import proofs.«135622_j82282983457014_2_alg».proof.Proof.Gen.KernelIdeal.Launch
import proofs.«135622_j82282983457014_2_alg».proof.Proof.Gen.KernelIdeal.Skeleton
import proofs.«135622_j82282983457014_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at grid point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (its block index moves with the second grid axis only; no block is cut and the window is never idle): its current buffer
    holds its block at every grid point, fetched there or not — where it is not fetched the block index has not moved —,
    for any proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (its block index moves with the second grid axis only; no block is cut and the window is never idle): its current buffer
    holds its block at every grid point, fetched there or not — where it is not fetched the block index has not moved —,
    for any proof data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (its block index moves with both grid axes; no block is cut and the window is never idle): its current buffer
    holds its block at every grid point, fetched there or not — where it is not fetched the block index has not moved —,
    for any proof data whose array is `V`'s (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (its block index moves with the first grid axis only; no block is cut and the window is never idle): its current buffer
    holds its block at every grid point, fetched there or not — where it is not fetched the block index has not moved —,
    for any proof data whose array is `V`'s (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (its block index moves with the first grid axis only; no block is cut and the window is never idle): its current buffer
    holds its block at every grid point, fetched there or not — where it is not fetched the block index has not moved —,
    for any proof data whose array is `V`'s (`hA`) and whose body leaves the block in place (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (its block index moves with the first grid axis only; no block is cut and the window is never idle): its current buffer
    holds its block at every grid point, fetched there or not — where it is not fetched the block index has not moved —,
    for any proof data whose array is `V`'s (`hA`) and whose body leaves the block in place (`hafter`). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (its block index moves with the first grid axis only; no block is cut and the window is never idle): its current buffer
    holds its block at every grid point, fetched there or not — where it is not fetched the block index has not moved —,
    for any proof data whose array is `V`'s (`hA`) and whose body leaves the block in place (`hafter`). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7 (its block index moves with the first grid axis only; no block is cut and the window is never idle): its current buffer
    holds its block at every grid point, fetched there or not — where it is not fetched the block index has not moved —,
    for any proof data whose array is `V`'s (`hA`) and whose body leaves the block in place (`hafter`). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8 (its block index moves with the first grid axis only; no block is cut and the window is never idle): its current buffer
    holds its block at every grid point, fetched there or not — where it is not fetched the block index has not moved —,
    for any proof data whose array is `V`'s (`hA`) and whose body leaves the block in place (`hafter`). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9 (its block index moves with the first grid axis only; no block is cut and the window is never idle): its current buffer
    holds its block at every grid point, fetched there or not — where it is not fetched the block index has not moved —,
    for any proof data whose array is `V`'s (`hA`) and whose body leaves the block in place (`hafter`). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10 (its block index moves with the first grid axis only; no block is cut and the window is never idle): its current buffer
    holds its block at every grid point, fetched there or not — where it is not fetched the block index has not moved —,
    for any proof data whose array is `V`'s (`hA`) and whose body leaves the block in place (`hafter`). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11 (its block index moves with the first grid axis only; no block is cut and the window is never idle): its current buffer
    holds its block at every grid point, fetched there or not — where it is not fetched the block index has not moved —,
    for any proof data whose array is `V`'s (`hA`) and whose body leaves the block in place (`hafter`). -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12 (its block index moves with the first grid axis only; no block is cut and the window is never idle): its current buffer
    holds its block at every grid point, fetched there or not — where it is not fetched the block index has not moved —,
    for any proof data whose array is `V`'s (`hA`) and whose body leaves the block in place (`hafter`). -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13 (its block index moves with the first grid axis only; no block is cut and the window is never idle): its current buffer
    holds its block at every grid point, fetched there or not — where it is not fetched the block index has not moved —,
    for any proof data whose array is `V`'s (`hA`) and whose body leaves the block in place (`hafter`). -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-- Input window 14 (its block index moves with the first grid axis only; no block is cut and the window is never idle): its current buffer
    holds its block at every grid point, fetched there or not — where it is not fetched the block index has not moved —,
    for any proof data whose array is `V`'s (`hA`) and whose body leaves the block in place (`hafter`). -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

end Cert.KernelIdeal.Hand

end
-- ==== Proof.Region0B.lean ====
/- The first region of @main (the recurrent cell): what one run of the cell body leaves in the three output blocks as a
   function of the fifteen input blocks, and the body's specification on whole buffers. Symbolic in the extents and
   generic in the float type. -/
import proofs.«135622_j82282983457014_2_alg».proof.Proof.Gen.KernelIdeal.Launch
import proofs.«135622_j82282983457014_2_alg».proof.Proof.Gen.KernelIdeal.Skeleton
import proofs.«135622_j82282983457014_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The body's accesses: every load and every store is of a whole buffer -/

/-- The whole 512 × 2048 block of an activation window (windows 0, 1). -/
abbrev rAct : Rect S512x2048 := Rect.unit (s := S512x2048) ![0, 0] S512x2048.size inb_S512x2048_S512x2048_0_0
/-- The whole 2048 × 256 block of a weight window (windows 3, 4, 6, 7, 9, 10, 12, 13). -/
abbrev rWt : Rect S2048x256 := Rect.unit (s := S2048x256) ![0, 0] S2048x256.size inb_S2048x256_S2048x256_0_0
/-- The whole 1 × 256 row of a bias window (windows 5, 8, 11, 14). -/
abbrev rBias : Rect S1x256 := Rect.unit (s := S1x256) ![0, 0] S1x256.size inb_S1x256_S1x256_0_0
/-- The whole 512 × 256 block of the cell-state window 2 and of the three output windows. -/
abbrev rCell : Rect S512x256 := Rect.unit (s := S512x256) ![0, 0] S512x256.size inb_S512x256_S512x256_0_0

/-! ## What the body leaves in each output window's buffer

With a = window 0's block and b = window 1's block (both 512 × 2048), the four gate pre-activations of the block are
a·W + b·W' + bias over the weight pairs and bias rows of windows (3, 4, 5), (6, 7, 8), (9, 10, 11), (12, 13, 14); writing
p, q, r, s for them in that order and c for window 2's block, the body stores
  c' = σ(p)·c + σ(q)·tanh(s)     (window 16),
  h' = σ(r)·tanh(c')             (window 15),
  h' narrowed to 16 bits         (window 17),
each as ONE store of the whole buffer. -/

/-- Window 15's buffer after the body, from the fifteen input blocks: the new hidden state h' = σ(r)·tanh(c'), its one store as the one piece. -/
noncomputable def out0_15 (x0 : Vec F S512x2048 .bf16) (x1 : Vec F S512x2048 .bf16) (x2 : Vec F S512x256 .f32) (x3 : Vec F S2048x256 .bf16) (x4 : Vec F S2048x256 .bf16) (x5 : Vec F S1x256 .f32) (x6 : Vec F S2048x256 .bf16) (x7 : Vec F S2048x256 .bf16) (x8 : Vec F S1x256 .f32) (x9 : Vec F S2048x256 .bf16) (x10 : Vec F S2048x256 .bf16) (x11 : Vec F S1x256 .f32) (x12 : Vec F S2048x256 .bf16) (x13 : Vec F S2048x256 .bf16) (x14 : Vec F S1x256 .f32) : Vec F S512x256 .f32 :=
  View.canon [⟨rCell, k0_pay2 (k0_pay4 (View.ld x0 rAct)) (k0_pay5 (View.ld x1 rAct)) (k0_pay6 (View.ld x0 rAct) (View.ld x1 rAct) (View.ld x3 rWt) (View.ld x4 rWt) (View.ld x5 rBias)) (k0_pay7 (View.ld x0 rAct) (View.ld x1 rAct) (View.ld x6 rWt) (View.ld x7 rWt) (View.ld x8 rBias)) (k0_pay8 (View.ld x0 rAct) (View.ld x9 rWt)) (k0_pay9 (View.ld x1 rAct) (View.ld x10 rWt)) (View.ld x11 rBias) (View.ld x12 rWt) (View.ld x13 rWt) (View.ld x14 rBias) (View.ld x2 rCell)⟩]

/-- The one store is of the whole buffer (a tiling of sizes, not of indices), so it covers it. -/
theorem cover0_15 (p0 : Vec F S512x256 .f32) (y : S512x256.Idx) :
    ∃ pc ∈ ([⟨rCell, p0⟩] : List (View.Piece (Elt F) S512x256 .f32)), y ∈ pc.1.set :=
  View.cover_of_tiled [⟨rCell, p0⟩] S512x256.size (by rfl) y

/-- Window 16's buffer after the body, from the fifteen input blocks: the new cell state c' = σ(p)·c + σ(q)·tanh(s), its one store as the one piece. -/
noncomputable def out0_16 (x0 : Vec F S512x2048 .bf16) (x1 : Vec F S512x2048 .bf16) (x2 : Vec F S512x256 .f32) (x3 : Vec F S2048x256 .bf16) (x4 : Vec F S2048x256 .bf16) (x5 : Vec F S1x256 .f32) (x6 : Vec F S2048x256 .bf16) (x7 : Vec F S2048x256 .bf16) (x8 : Vec F S1x256 .f32) (x9 : Vec F S2048x256 .bf16) (x10 : Vec F S2048x256 .bf16) (x11 : Vec F S1x256 .f32) (x12 : Vec F S2048x256 .bf16) (x13 : Vec F S2048x256 .bf16) (x14 : Vec F S1x256 .f32) : Vec F S512x256 .f32 :=
  View.canon [⟨rCell, k0_pay1 (k0_pay4 (View.ld x0 rAct)) (k0_pay5 (View.ld x1 rAct)) (k0_pay6 (View.ld x0 rAct) (View.ld x1 rAct) (View.ld x3 rWt) (View.ld x4 rWt) (View.ld x5 rBias)) (k0_pay7 (View.ld x0 rAct) (View.ld x1 rAct) (View.ld x6 rWt) (View.ld x7 rWt) (View.ld x8 rBias)) (View.ld x12 rWt) (View.ld x13 rWt) (View.ld x14 rBias) (View.ld x2 rCell)⟩]

/-- The one store is of the whole buffer (a tiling of sizes, not of indices), so it covers it. -/
theorem cover0_16 (p0 : Vec F S512x256 .f32) (y : S512x256.Idx) :
    ∃ pc ∈ ([⟨rCell, p0⟩] : List (View.Piece (Elt F) S512x256 .f32)), y ∈ pc.1.set :=
  View.cover_of_tiled [⟨rCell, p0⟩] S512x256.size (by rfl) y

/-- Window 17's buffer after the body, from the fifteen input blocks: the new hidden state h' narrowed to 16 bits, its one store as the one piece. -/
noncomputable def out0_17 (x0 : Vec F S512x2048 .bf16) (x1 : Vec F S512x2048 .bf16) (x2 : Vec F S512x256 .f32) (x3 : Vec F S2048x256 .bf16) (x4 : Vec F S2048x256 .bf16) (x5 : Vec F S1x256 .f32) (x6 : Vec F S2048x256 .bf16) (x7 : Vec F S2048x256 .bf16) (x8 : Vec F S1x256 .f32) (x9 : Vec F S2048x256 .bf16) (x10 : Vec F S2048x256 .bf16) (x11 : Vec F S1x256 .f32) (x12 : Vec F S2048x256 .bf16) (x13 : Vec F S2048x256 .bf16) (x14 : Vec F S1x256 .f32) : Vec F S512x256 .bf16 :=
  View.canon [⟨rCell, k0_pay3 (k0_pay4 (View.ld x0 rAct)) (k0_pay5 (View.ld x1 rAct)) (k0_pay6 (View.ld x0 rAct) (View.ld x1 rAct) (View.ld x3 rWt) (View.ld x4 rWt) (View.ld x5 rBias)) (k0_pay7 (View.ld x0 rAct) (View.ld x1 rAct) (View.ld x6 rWt) (View.ld x7 rWt) (View.ld x8 rBias)) (k0_pay8 (View.ld x0 rAct) (View.ld x9 rWt)) (k0_pay9 (View.ld x1 rAct) (View.ld x10 rWt)) (View.ld x11 rBias) (View.ld x12 rWt) (View.ld x13 rWt) (View.ld x14 rBias) (View.ld x2 rCell)⟩]

/-- The one store is of the whole buffer (a tiling of sizes, not of indices), so it covers it. -/
theorem cover0_17 (p0 : Vec F S512x256 .bf16) (y : S512x256.Idx) :
    ∃ pc ∈ ([⟨rCell, p0⟩] : List (View.Piece (Elt F) S512x256 .bf16)), y ∈ pc.1.set :=
  View.cover_of_tiled [⟨rCell, p0⟩] S512x256.size (by rfl) y

/-! ## The body's specification -/

set_option maxHeartbeats 1000000 in
/-- The cell body on whole buffers, the inputs' at contents `xW` and the outputs' at anything, runs to the continuation
    holding the inputs' as they were and each output's at `out0_W` of the inputs': the printed body and its one part are
    their skeletons (fifteen whole-buffer loads, three loads of the outputs whose values nothing reads, three whole-buffer
    stores), run operation by operation. -/
theorem sound_kernel0 (c : Dev nD) (E : Set ℕ) (i : grid0.Coords) (arg2 : Memref sig .tc .vmem S512x2048 .bf16) (harg2 : arg2.IsWhole) (arg3 : Memref sig .tc .vmem S512x2048 .bf16) (harg3 : arg3.IsWhole) (arg4 : Memref sig .tc .vmem S512x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S1x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x256 .f32) (harg16 : arg16.IsWhole) (arg17 : Memref sig .tc .vmem S512x256 .f32) (harg17 : arg17.IsWhole) (arg18 : Memref sig .tc .vmem S512x256 .f32) (harg18 : arg18.IsWhole) (arg19 : Memref sig .tc .vmem S512x256 .bf16) (harg19 : arg19.IsWhole)
    (x0 : Vec F S512x2048 .bf16) (x1 : Vec F S512x2048 .bf16) (x2 : Vec F S512x256 .f32) (x3 : Vec F S2048x256 .bf16) (x4 : Vec F S2048x256 .bf16) (x5 : Vec F S1x256 .f32) (x6 : Vec F S2048x256 .bf16) (x7 : Vec F S2048x256 .bf16) (x8 : Vec F S1x256 .f32) (x9 : Vec F S2048x256 .bf16) (x10 : Vec F S2048x256 .bf16) (x11 : Vec F S1x256 .f32) (x12 : Vec F S2048x256 .bf16) (x13 : Vec F S2048x256 .bf16) (x14 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare (out0_15 x0 x1 x2 x3 x4 x5 x6 x7 x8 x9 x10 x11 x12 x13 x14) ∗ owns (c : Thread nD τ) arg18 fullShare (out0_16 x0 x1 x2 x3 x4 x5 x6 x7 x8 x9 x10 x11 x12 x13 x14) ∗ owns (c : Thread nD τ) arg19 fullShare (out0_17 x0 x1 x2 x3 x4 x5 x6 x7 x8 x9 x10 x11 x12 x13 x14)) -∗ K ⟨⟩))
      ⊢ wp frame (wpE (defs₀ (F := F)) Variants.none c none) E (cc0__cell_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    exact View.read_writes_eq_canon _ _ _ (cover0_15 _)
  isplitl [H16]
  · iexists _; isplitr
    swap; · iexact H16
    ipureintro
    try dsimp only
    exact View.read_writes_eq_canon _ _ _ (cover0_16 _)
  iexists _; isplitr
  swap; · iexact H17
  ipureintro
  try dsimp only
  exact View.read_writes_eq_canon _ _ _ (cover0_17 _)

end Cert.KernelIdeal.Hand

end
-- ==== Proof.Region0.lean ====
/- The first region of @main (the recurrent cell, grid 8 × 4, eighteen windows), at the buffer contents `V` the region is
   entered with: the per-core proof data (inputs at their blocks, outputs at what the body leaves of the input blocks) and
   the obligation that the body meets it at every grid point. Symbolic in the extents and generic in the float type. -/
import proofs.«135622_j82282983457014_2_alg».proof.Proof.Gen.KernelIdeal.Launch
import proofs.«135622_j82282983457014_2_alg».proof.Proof.Gen.KernelIdeal.Skeleton
import proofs.«135622_j82282983457014_2_alg».proof.Proof.Gen.KernelIdeal.Points
import proofs.«135622_j82282983457014_2_alg».proof.Proof.Region0A
import proofs.«135622_j82282983457014_2_alg».proof.Proof.Region0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The region's proof data -/

/-- The proof data of the region on core `c`: the arrays as the region finds them (`V`); after the body at grid point `t`
    each input's buffer at its block and each output's at `out0_W` of the fifteen input blocks; the invariant the scoped
    rest and the generator register, untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 18, h⟩ => absurd h (Nat.not_lt.2 (Nat.le_add_left _ _))
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]

/-- Each input's current buffer holds its block at every grid point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d

/-! ## The body obligation, at a generic grid point -/

/-- What the body is called with at grid point `t` (the obligation's precondition, the windows one by one), -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t))

/-- The body at any grid point: the inputs' buffers hold their blocks (`before0_W`), so `sound_kernel0` applies; the
    invariant and the core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel0 c Set.univ (grid0.coords t) _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The region's body obligation, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KRegion0A.lean ====
/- The first region of @main (the recurrent cell, grid 8 × 4, eighteen windows), at the buffer contents `V` the region is
   entered with: each window's block at a grid point, and that every input window's current buffer holds its block at
   every grid point. Symbolic in the extents and generic in the float type. -/
import proofs.«135622_j82282983457014_2_alg».proof.Proof.Gen.Kernel.Launch
import proofs.«135622_j82282983457014_2_alg».proof.Proof.Gen.Kernel.Skeleton
import proofs.«135622_j82282983457014_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at grid point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (its block index moves with the second grid axis only; no block is cut and the window is never idle): its current buffer
    holds its block at every grid point, fetched there or not — where it is not fetched the block index has not moved —,
    for any proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (its block index moves with the second grid axis only; no block is cut and the window is never idle): its current buffer
    holds its block at every grid point, fetched there or not — where it is not fetched the block index has not moved —,
    for any proof data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (its block index moves with both grid axes; no block is cut and the window is never idle): its current buffer
    holds its block at every grid point, fetched there or not — where it is not fetched the block index has not moved —,
    for any proof data whose array is `V`'s (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (its block index moves with the first grid axis only; no block is cut and the window is never idle): its current buffer
    holds its block at every grid point, fetched there or not — where it is not fetched the block index has not moved —,
    for any proof data whose array is `V`'s (`hA`) and whose body leaves the block in place (`hafter`). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4 (its block index moves with the first grid axis only; no block is cut and the window is never idle): its current buffer
    holds its block at every grid point, fetched there or not — where it is not fetched the block index has not moved —,
    for any proof data whose array is `V`'s (`hA`) and whose body leaves the block in place (`hafter`). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5 (its block index moves with the first grid axis only; no block is cut and the window is never idle): its current buffer
    holds its block at every grid point, fetched there or not — where it is not fetched the block index has not moved —,
    for any proof data whose array is `V`'s (`hA`) and whose body leaves the block in place (`hafter`). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6 (its block index moves with the first grid axis only; no block is cut and the window is never idle): its current buffer
    holds its block at every grid point, fetched there or not — where it is not fetched the block index has not moved —,
    for any proof data whose array is `V`'s (`hA`) and whose body leaves the block in place (`hafter`). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7 (its block index moves with the first grid axis only; no block is cut and the window is never idle): its current buffer
    holds its block at every grid point, fetched there or not — where it is not fetched the block index has not moved —,
    for any proof data whose array is `V`'s (`hA`) and whose body leaves the block in place (`hafter`). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8 (its block index moves with the first grid axis only; no block is cut and the window is never idle): its current buffer
    holds its block at every grid point, fetched there or not — where it is not fetched the block index has not moved —,
    for any proof data whose array is `V`'s (`hA`) and whose body leaves the block in place (`hafter`). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9 (its block index moves with the first grid axis only; no block is cut and the window is never idle): its current buffer
    holds its block at every grid point, fetched there or not — where it is not fetched the block index has not moved —,
    for any proof data whose array is `V`'s (`hA`) and whose body leaves the block in place (`hafter`). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10 (its block index moves with the first grid axis only; no block is cut and the window is never idle): its current buffer
    holds its block at every grid point, fetched there or not — where it is not fetched the block index has not moved —,
    for any proof data whose array is `V`'s (`hA`) and whose body leaves the block in place (`hafter`). -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-- Input window 11 (its block index moves with the first grid axis only; no block is cut and the window is never idle): its current buffer
    holds its block at every grid point, fetched there or not — where it is not fetched the block index has not moved —,
    for any proof data whose array is `V`'s (`hA`) and whose body leaves the block in place (`hafter`). -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-- Input window 12 (its block index moves with the first grid axis only; no block is cut and the window is never idle): its current buffer
    holds its block at every grid point, fetched there or not — where it is not fetched the block index has not moved —,
    for any proof data whose array is `V`'s (`hA`) and whose body leaves the block in place (`hafter`). -/
theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-- Input window 13 (its block index moves with the first grid axis only; no block is cut and the window is never idle): its current buffer
    holds its block at every grid point, fetched there or not — where it is not fetched the block index has not moved —,
    for any proof data whose array is `V`'s (`hA`) and whose body leaves the block in place (`hafter`). -/
theorem before0_13_of {c : Dev nD} (dat : Dat τ (Elt F) Unit ℕ (UR sig nD τ) ℕ cfg0 c) (hA : dat.A 13 = V c (Pipeline.arrRef spec0 13))
    (hafter : ∀ t, dat.after 13 t = iblk0 V c 13 t) (t : Fin cfg0.N) (d) : dat.before 13 t d = iblk0 V c 13 t :=
  (dat.before_in_eq_fetched 13 rfl (fun _ => rfl) (fun _ _ _ => rfl) (fun t => by rw [hafter]; unfold Dat.blockOf iblk0; rw [hA]; try rfl) t d).trans
    (by unfold Dat.fetched Dat.blockOf iblk0; rw [hA]; try rfl)

/-- Input window 14 (its block index moves with the first grid axis only; no block is cut and the window is never idle): its current buffer
    holds its block at every grid point, fetched there or not — where it is not fetched the block index has not moved —,
    for any proof data whose array is `V`'s (`hA`) and whose body leaves the block in place (`hafter`). -/
theorem before0_14_of {c : Dev nD} (dat : Dat τ (Elt F) Unit ℕ (UR sig nD τ) ℕ cfg0 c) (hA : dat.A 14 = V c (Pipeline.arrRef spec0 14))
    (hafter : ∀ t, dat.after 14 t = iblk0 V c 14 t) (t : Fin cfg0.N) (d) : dat.before 14 t d = iblk0 V c 14 t :=
  (dat.before_in_eq_fetched 14 rfl (fun _ => rfl) (fun _ _ _ => rfl) (fun t => by rw [hafter]; unfold Dat.blockOf iblk0; rw [hA]; try rfl) t d).trans
    (by unfold Dat.fetched Dat.blockOf iblk0; rw [hA]; try rfl)

end Cert.Kernel.Hand

end
-- ==== Proof.KRegion0B.lean ====
/- The first region of @main (the recurrent cell): what one run of the cell body leaves in the three output blocks as a
   function of the fifteen input blocks, and the body's specification on whole buffers. Symbolic in the extents and
   generic in the float type. -/
import proofs.«135622_j82282983457014_2_alg».proof.Proof.Gen.Kernel.Launch
import proofs.«135622_j82282983457014_2_alg».proof.Proof.Gen.Kernel.Skeleton
import proofs.«135622_j82282983457014_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The body's accesses: every load and every store is of a whole buffer -/

/-- The whole 512 × 2048 block of an activation window (windows 0, 1). -/
abbrev rAct : Rect S512x2048 := Rect.unit (s := S512x2048) ![0, 0] S512x2048.size inb_S512x2048_S512x2048_0_0
/-- The whole 2048 × 256 block of a weight window (windows 3, 4, 6, 7, 9, 10, 12, 13). -/
abbrev rWt : Rect S2048x256 := Rect.unit (s := S2048x256) ![0, 0] S2048x256.size inb_S2048x256_S2048x256_0_0
/-- The whole 1 × 256 row of a bias window (windows 5, 8, 11, 14). -/
abbrev rBias : Rect S1x256 := Rect.unit (s := S1x256) ![0, 0] S1x256.size inb_S1x256_S1x256_0_0
/-- The whole 512 × 256 block of the cell-state window 2 and of the three output windows. -/
abbrev rCell : Rect S512x256 := Rect.unit (s := S512x256) ![0, 0] S512x256.size inb_S512x256_S512x256_0_0

/-! ## What the body leaves in each output window's buffer

With a = window 0's block and b = window 1's block (both 512 × 2048), the four gate pre-activations of the block are
a·W + b·W' + bias over the weight pairs and bias rows of windows (3, 4, 5), (6, 7, 8), (9, 10, 11), (12, 13, 14); writing
p, q, r, s for them in that order and c for window 2's block, the body stores
  c' = σ(p)·c + σ(q)·tanh(s)     (window 16),
  h' = σ(r)·tanh(c')             (window 15),
  h' narrowed to 16 bits         (window 17),
each as ONE store of the whole buffer. -/

/-- Window 15's buffer after the body, from the fifteen input blocks: the new hidden state h' = σ(r)·tanh(c'), its one store as the one piece. -/
noncomputable def out0_15 (x0 : Vec F S512x2048 .bf16) (x1 : Vec F S512x2048 .bf16) (x2 : Vec F S512x256 .f32) (x3 : Vec F S2048x256 .bf16) (x4 : Vec F S2048x256 .bf16) (x5 : Vec F S1x256 .f32) (x6 : Vec F S2048x256 .bf16) (x7 : Vec F S2048x256 .bf16) (x8 : Vec F S1x256 .f32) (x9 : Vec F S2048x256 .bf16) (x10 : Vec F S2048x256 .bf16) (x11 : Vec F S1x256 .f32) (x12 : Vec F S2048x256 .bf16) (x13 : Vec F S2048x256 .bf16) (x14 : Vec F S1x256 .f32) : Vec F S512x256 .f32 :=
  View.canon [⟨rCell, k0_pay2 (k0_pay4 (View.ld x0 rAct)) (k0_pay5 (View.ld x1 rAct)) (k0_pay6 (View.ld x0 rAct) (View.ld x1 rAct) (View.ld x3 rWt) (View.ld x4 rWt) (View.ld x5 rBias)) (k0_pay7 (View.ld x0 rAct) (View.ld x1 rAct) (View.ld x6 rWt) (View.ld x7 rWt) (View.ld x8 rBias)) (k0_pay8 (View.ld x0 rAct) (View.ld x9 rWt)) (k0_pay9 (View.ld x1 rAct) (View.ld x10 rWt)) (View.ld x11 rBias) (View.ld x12 rWt) (View.ld x13 rWt) (View.ld x14 rBias) (View.ld x2 rCell)⟩]

/-- The one store is of the whole buffer (a tiling of sizes, not of indices), so it covers it. -/
theorem cover0_15 (p0 : Vec F S512x256 .f32) (y : S512x256.Idx) :
    ∃ pc ∈ ([⟨rCell, p0⟩] : List (View.Piece (Elt F) S512x256 .f32)), y ∈ pc.1.set :=
  View.cover_of_tiled [⟨rCell, p0⟩] S512x256.size (by rfl) y

/-- Window 16's buffer after the body, from the fifteen input blocks: the new cell state c' = σ(p)·c + σ(q)·tanh(s), its one store as the one piece. -/
noncomputable def out0_16 (x0 : Vec F S512x2048 .bf16) (x1 : Vec F S512x2048 .bf16) (x2 : Vec F S512x256 .f32) (x3 : Vec F S2048x256 .bf16) (x4 : Vec F S2048x256 .bf16) (x5 : Vec F S1x256 .f32) (x6 : Vec F S2048x256 .bf16) (x7 : Vec F S2048x256 .bf16) (x8 : Vec F S1x256 .f32) (x9 : Vec F S2048x256 .bf16) (x10 : Vec F S2048x256 .bf16) (x11 : Vec F S1x256 .f32) (x12 : Vec F S2048x256 .bf16) (x13 : Vec F S2048x256 .bf16) (x14 : Vec F S1x256 .f32) : Vec F S512x256 .f32 :=
  View.canon [⟨rCell, k0_pay1 (k0_pay4 (View.ld x0 rAct)) (k0_pay5 (View.ld x1 rAct)) (k0_pay6 (View.ld x0 rAct) (View.ld x1 rAct) (View.ld x3 rWt) (View.ld x4 rWt) (View.ld x5 rBias)) (k0_pay7 (View.ld x0 rAct) (View.ld x1 rAct) (View.ld x6 rWt) (View.ld x7 rWt) (View.ld x8 rBias)) (View.ld x12 rWt) (View.ld x13 rWt) (View.ld x14 rBias) (View.ld x2 rCell)⟩]

/-- The one store is of the whole buffer (a tiling of sizes, not of indices), so it covers it. -/
theorem cover0_16 (p0 : Vec F S512x256 .f32) (y : S512x256.Idx) :
    ∃ pc ∈ ([⟨rCell, p0⟩] : List (View.Piece (Elt F) S512x256 .f32)), y ∈ pc.1.set :=
  View.cover_of_tiled [⟨rCell, p0⟩] S512x256.size (by rfl) y

/-- Window 17's buffer after the body, from the fifteen input blocks: the new hidden state h' narrowed to 16 bits, its one store as the one piece. -/
noncomputable def out0_17 (x0 : Vec F S512x2048 .bf16) (x1 : Vec F S512x2048 .bf16) (x2 : Vec F S512x256 .f32) (x3 : Vec F S2048x256 .bf16) (x4 : Vec F S2048x256 .bf16) (x5 : Vec F S1x256 .f32) (x6 : Vec F S2048x256 .bf16) (x7 : Vec F S2048x256 .bf16) (x8 : Vec F S1x256 .f32) (x9 : Vec F S2048x256 .bf16) (x10 : Vec F S2048x256 .bf16) (x11 : Vec F S1x256 .f32) (x12 : Vec F S2048x256 .bf16) (x13 : Vec F S2048x256 .bf16) (x14 : Vec F S1x256 .f32) : Vec F S512x256 .bf16 :=
  View.canon [⟨rCell, k0_pay3 (k0_pay4 (View.ld x0 rAct)) (k0_pay5 (View.ld x1 rAct)) (k0_pay6 (View.ld x0 rAct) (View.ld x1 rAct) (View.ld x3 rWt) (View.ld x4 rWt) (View.ld x5 rBias)) (k0_pay7 (View.ld x0 rAct) (View.ld x1 rAct) (View.ld x6 rWt) (View.ld x7 rWt) (View.ld x8 rBias)) (k0_pay8 (View.ld x0 rAct) (View.ld x9 rWt)) (k0_pay9 (View.ld x1 rAct) (View.ld x10 rWt)) (View.ld x11 rBias) (View.ld x12 rWt) (View.ld x13 rWt) (View.ld x14 rBias) (View.ld x2 rCell)⟩]

/-- The one store is of the whole buffer (a tiling of sizes, not of indices), so it covers it. -/
theorem cover0_17 (p0 : Vec F S512x256 .bf16) (y : S512x256.Idx) :
    ∃ pc ∈ ([⟨rCell, p0⟩] : List (View.Piece (Elt F) S512x256 .bf16)), y ∈ pc.1.set :=
  View.cover_of_tiled [⟨rCell, p0⟩] S512x256.size (by rfl) y

/-! ## The body's specification -/

set_option maxHeartbeats 1000000 in
/-- The cell body on whole buffers, the inputs' at contents `xW` and the outputs' at anything, runs to the continuation
    holding the inputs' as they were and each output's at `out0_W` of the inputs': the printed body and its one part are
    their skeletons (fifteen whole-buffer loads, three loads of the outputs whose values nothing reads, three whole-buffer
    stores), run operation by operation. -/
theorem sound_kernel0 (c : Dev nD) (E : Set ℕ) (i : grid0.Coords) (arg2 : Memref sig .tc .vmem S512x2048 .bf16) (harg2 : arg2.IsWhole) (arg3 : Memref sig .tc .vmem S512x2048 .bf16) (harg3 : arg3.IsWhole) (arg4 : Memref sig .tc .vmem S512x256 .f32) (harg4 : arg4.IsWhole) (arg5 : Memref sig .tc .vmem S2048x256 .bf16) (harg5 : arg5.IsWhole) (arg6 : Memref sig .tc .vmem S2048x256 .bf16) (harg6 : arg6.IsWhole) (arg7 : Memref sig .tc .vmem S1x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S1x256 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S1x256 .f32) (harg13 : arg13.IsWhole) (arg14 : Memref sig .tc .vmem S2048x256 .bf16) (harg14 : arg14.IsWhole) (arg15 : Memref sig .tc .vmem S2048x256 .bf16) (harg15 : arg15.IsWhole) (arg16 : Memref sig .tc .vmem S1x256 .f32) (harg16 : arg16.IsWhole) (arg17 : Memref sig .tc .vmem S512x256 .f32) (harg17 : arg17.IsWhole) (arg18 : Memref sig .tc .vmem S512x256 .f32) (harg18 : arg18.IsWhole) (arg19 : Memref sig .tc .vmem S512x256 .bf16) (harg19 : arg19.IsWhole)
    (x0 : Vec F S512x2048 .bf16) (x1 : Vec F S512x2048 .bf16) (x2 : Vec F S512x256 .f32) (x3 : Vec F S2048x256 .bf16) (x4 : Vec F S2048x256 .bf16) (x5 : Vec F S1x256 .f32) (x6 : Vec F S2048x256 .bf16) (x7 : Vec F S2048x256 .bf16) (x8 : Vec F S1x256 .f32) (x9 : Vec F S2048x256 .bf16) (x10 : Vec F S2048x256 .bf16) (x11 : Vec F S1x256 .f32) (x12 : Vec F S2048x256 .bf16) (x13 : Vec F S2048x256 .bf16) (x14 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare (out0_15 x0 x1 x2 x3 x4 x5 x6 x7 x8 x9 x10 x11 x12 x13 x14) ∗ owns (c : Thread nD τ) arg18 fullShare (out0_16 x0 x1 x2 x3 x4 x5 x6 x7 x8 x9 x10 x11 x12 x13 x14) ∗ owns (c : Thread nD τ) arg19 fullShare (out0_17 x0 x1 x2 x3 x4 x5 x6 x7 x8 x9 x10 x11 x12 x13 x14)) -∗ K ⟨⟩))
      ⊢ wp frame (wpE (defs₀ (F := F)) Variants.none c none) E (cc0__cell_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__cell_kernel_eq_skeleton]; unfold cc0__cell_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    try dsimp only
    exact View.read_writes_eq_canon _ _ _ (cover0_15 _)
  isplitl [H16]
  · iexists _; isplitr
    swap; · iexact H16
    ipureintro
    try dsimp only
    exact View.read_writes_eq_canon _ _ _ (cover0_16 _)
  iexists _; isplitr
  swap; · iexact H17
  ipureintro
  try dsimp only
  exact View.read_writes_eq_canon _ _ _ (cover0_17 _)

end Cert.Kernel.Hand

end
-- ==== Proof.KRegion0.lean ====
/- The first region of @main (the recurrent cell, grid 8 × 4, eighteen windows), at the buffer contents `V` the region is
   entered with: the per-core proof data (inputs at their blocks, outputs at what the body leaves of the input blocks) and
   the obligation that the body meets it at every grid point. Symbolic in the extents and generic in the float type. -/
import proofs.«135622_j82282983457014_2_alg».proof.Proof.Gen.Kernel.Launch
import proofs.«135622_j82282983457014_2_alg».proof.Proof.Gen.Kernel.Skeleton
import proofs.«135622_j82282983457014_2_alg».proof.Proof.Gen.Kernel.Points
import proofs.«135622_j82282983457014_2_alg».proof.Proof.KRegion0A
import proofs.«135622_j82282983457014_2_alg».proof.Proof.KRegion0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The region's proof data -/

/-- The proof data of the region on core `c`: the arrays as the region finds them (`V`); after the body at grid point `t`
    each input's buffer at its block and each output's at `out0_W` of the fifteen input blocks; the invariant the scoped
    rest and the generator register, untouched; nothing owed; full shares. -/
noncomputable def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => iblk0 V c 13 t
    | ⟨14, _⟩ => iblk0 V c 14 t
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t)
    | ⟨_ + 18, h⟩ => absurd h (Nat.not_lt.2 (Nat.le_add_left _ _))
  Φ _ := Pipeline.ΦA spec0 c
  q _ := fullShare
  owed _ := 0

/-- The proof data's arrays are the region-entry contents (the definition projected). -/
theorem A_eq0 (c : Dev nD) (w : Fin cfg0.W) : (dat0 V c).A w = V c (Pipeline.arrRef spec0 w) := by
  dsimp only [dat0]

/-- What the body leaves, window by window (the definition's case split reduced at each literal window). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t = iblk0 V c 13 t := by dsimp only [dat0]
theorem after0_14 (c : Dev nD) (t : Fin cfg0.N) : (dat0 V c).after 14 t = iblk0 V c 14 t := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) := by dsimp only [dat0]

/-- Each input's current buffer holds its block at every grid point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d
theorem before0_13 (c : Dev nD) (t : Fin cfg0.N) (d) : (dat0 V c).before 13 t d = iblk0 V c 13 t :=
  before0_13_of V (dat0 V c) (A_eq0 V c 13) (after0_13 V c) t d
theorem before0_14 (c : Dev nD) (t : Fin cfg0.N) (d) : (dat0 V c).before 14 t d = iblk0 V c 14 t :=
  before0_14_of V (dat0 V c) (A_eq0 V c 14) (after0_14 V c) t d

/-! ## The body obligation, at a generic grid point -/

/-- What the body is called with at grid point `t` (the obligation's precondition, the windows one by one), -/
noncomputable def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d)))

/-- and what it returns. -/
noncomputable def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t))

/-- The body at any grid point: the inputs' buffers hold their blocks (`before0_W`), so `sound_kernel0` applies; the
    invariant and the core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11, before0_12, before0_13, before0_14]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel0 c Set.univ (grid0.coords t) _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The region's body obligation, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Region1Body.lean ====
/-
  The classifier kernel's body on whole staging buffers: three loads, the product of the hidden block with the weight
  block plus the broadcast bias row, one store of the whole result block. What the result's staging buffer holds
  afterwards is named as one function of what the three input buffers held.
-/
import proofs.«135622_j82282983457014_2_alg».proof.Proof.Gen.KernelIdeal.Launch
import proofs.«135622_j82282983457014_2_alg».proof.Proof.Gen.KernelIdeal.Skeleton
import proofs.«135622_j82282983457014_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's accesses: each is the whole buffer -/

abbrev r1_h : Rect S2048x2048 := Rect.unit (s := S2048x2048) ![0, 0] S2048x2048.size inb_S2048x2048_S2048x2048_0_0
abbrev r1_w : Rect S2048x512 := Rect.unit (s := S2048x512) ![0, 0] S2048x512.size inb_S2048x512_S2048x512_0_0
abbrev r1_b : Rect S1x512 := Rect.unit (s := S1x512) ![0, 0] S1x512.size inb_S1x512_S1x512_0_0

/-- The result block's staging buffer after the body, from what the three input buffers hold: its one store as a piece. -/
def out1_3 (x0 : Vec F S2048x2048 .bf16) (x1 : Vec F S2048x512 .bf16) (x2 : Vec F S1x512 .f32) : Vec F S2048x512 .f32 :=
  View.canon [⟨r1_w, k1_pay1 (View.ld x0 r1_h) (View.ld x1 r1_w) (View.ld x2 r1_b)⟩]

/-- The one store covers the buffer. -/
theorem cover1_3 (p0 : Vec F S2048x512 .f32) (y : S2048x512.Idx) :
    ∃ pc ∈ ([⟨r1_w, p0⟩] : List (View.Piece (Elt F) S2048x512 .f32)), y ∈ pc.1.set :=
  View.cover_of_tiled [⟨r1_w, p0⟩] S2048x512.size (by rfl) y

set_option maxHeartbeats 1000000 in
/-- The body on whole staging memrefs: the inputs' at contents `x0`, `x1`, `x2` and the result's at anything run to
    the inputs' unchanged and the result's at `out1_3 x0 x1 x2`. -/
theorem sound_kernel1 (c : Dev nD) (E : Set ℕ) (i : grid1.Coords)
    (arg2 : Memref sig .tc .vmem S2048x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S2048x512 .f32) (harg5 : arg5.IsWhole)
    (x0 : Vec F S2048x2048 .bf16) (x1 : Vec F S2048x512 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__cls_kernel i arg2 harg2 arg3 harg3 arg4 harg4 arg5 harg5) K := by
  simp only [cc1__cls_kernel_eq_skeleton]; unfold cc1__cls_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.KernelIdeal.Hand

end
-- ==== Proof.Region1.lean ====
/-
  The classifier pipeline's proof data, relationally. Its last column block overhangs the 50257-wide arrays, so a
  fetched weight block and bias block arrive filled out, past the array's end, with words nothing names; what the
  body leaves in the result's staging buffer is therefore stated as a relation: it is the body's function of SOME
  contents the three input buffers may hold at that point. The three input buffers are left as found.
-/
import proofs.«135622_j82282983457014_2_alg».proof.Proof.Region1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The data with the result window's relation left open: arrays as the region finds them, every input buffer left as
    found, the class invariant (the scoped rest and the generator register), nothing owed, full shares. -/
def rdat1in (c : Dev nD) : RDat τ (Elt F) Unit ℕ (UR sig nD τ) ℕ cfg1 c where
  A w := V c (Pipeline.arrRef spec1 w)
  after w _ Y X := w = 3 ∨ X = Y
  Φ _ := Pipeline.ΦA spec1 c
  q _ := fullShare
  owed _ := 0

/-- What the body may leave in the result's staging buffer at point `t`: its function of contents the three input
    buffers may hold there. -/
def leaves1_3 (c : Dev nD) (t : Fin cfg1.N) (X : S2048x512.Idx → Elt F .f32) : Prop :=
  ∃ (Y0 : S2048x2048.Idx → Elt F .bf16) (Y1 : S2048x512.Idx → Elt F .bf16) (Y2 : S1x512.Idx → Elt F .f32),
    (rdat1in V c).Finds 0 t Y0 ∧ (rdat1in V c).Finds 1 t Y1 ∧ (rdat1in V c).Finds 2 t Y2 ∧ X = out1_3 Y0 Y1 Y2

/-- The classifier pipeline's relational proof data. -/
def rdat1 (c : Dev nD) : RDat τ (Elt F) Unit ℕ (UR sig nD τ) ℕ cfg1 c :=
  (rdat1in V c).override fun w => match w with
    | ⟨3, _⟩ => some fun t _ X => leaves1_3 V c t X
    | _ => none

theorem rdat1_A (c : Dev nD) (w : Fin cfg1.W) : (rdat1 V c).A w = V c (Pipeline.arrRef spec1 w) := rfl

/-- An input buffer may hold, under the full data, what it may hold under the data with the result's relation open. -/
theorem finds1_0 (c : Dev nD) (t : Fin cfg1.N) (X) : (rdat1 V c).Finds 0 t X ↔ (rdat1in V c).Finds 0 t X :=
  (rdat1in V c).override_finds (w := 0) rfl t X
theorem finds1_1 (c : Dev nD) (t : Fin cfg1.N) (X) : (rdat1 V c).Finds 1 t X ↔ (rdat1in V c).Finds 1 t X :=
  (rdat1in V c).override_finds (w := 1) rfl t X
theorem finds1_2 (c : Dev nD) (t : Fin cfg1.N) (X) : (rdat1 V c).Finds 2 t X ↔ (rdat1in V c).Finds 2 t X :=
  (rdat1in V c).override_finds (w := 2) rfl t X

theorem after1_0 (c : Dev nD) (t : Fin cfg1.N) (Y X) : (rdat1 V c).after 0 t Y X ↔ X = Y := by
  rw [show (rdat1 V c).after 0 = (rdat1in V c).after 0 from (rdat1in V c).override_after_of_eq_none (w := 0) rfl]
  exact ⟨fun h => h.resolve_left (by decide), .inr⟩
theorem after1_1 (c : Dev nD) (t : Fin cfg1.N) (Y X) : (rdat1 V c).after 1 t Y X ↔ X = Y := by
  rw [show (rdat1 V c).after 1 = (rdat1in V c).after 1 from (rdat1in V c).override_after_of_eq_none (w := 1) rfl]
  exact ⟨fun h => h.resolve_left (by decide), .inr⟩
theorem after1_2 (c : Dev nD) (t : Fin cfg1.N) (Y X) : (rdat1 V c).after 2 t Y X ↔ X = Y := by
  rw [show (rdat1 V c).after 2 = (rdat1in V c).after 2 from (rdat1in V c).override_after_of_eq_none (w := 2) rfl]
  exact ⟨fun h => h.resolve_left (by decide), .inr⟩
theorem after1_3 (c : Dev nD) (t : Fin cfg1.N) (Y X) : (rdat1 V c).after 3 t Y X ↔ leaves1_3 V c t X := by
  rw [show (rdat1 V c).after 3 = fun t _ X => leaves1_3 V c t X from (rdat1in V c).override_after_of_eq_some (w := 3) rfl]

/-- What the body is handed at point `t`, window by window, -/
def bodyPre1 (c : Dev nD) (t : Fin cfg1.N) (Y : (w : Fin cfg1.W) → (cfg1.win w).block.Idx → Elt F (cfg1.win w).elt) : sProp 𝕄 :=
  iprop((rdat1 V c).Φ t.castSucc ∗ (rdat1 V c).owesAt () t.castSucc
    ∗ owns (c : Thread nD τ) (st1_0 t) fullShare (Y 0)
    ∗ owns (c : Thread nD τ) (st1_1 t) fullShare (Y 1)
    ∗ owns (c : Thread nD τ) (st1_2 t) fullShare (Y 2)
    ∗ owns (c : Thread nD τ) (st1_3 t) fullShare (Y 3))

/-- and what it hands back. -/
def bodyPost1 (c : Dev nD) (t : Fin cfg1.N) (Y : (w : Fin cfg1.W) → (cfg1.win w).block.Idx → Elt F (cfg1.win w).elt) : sProp 𝕄 :=
  iprop((rdat1 V c).Φ t.succ ∗ (rdat1 V c).owesAt () t.succ
    ∗ (∃ X, ⌜(rdat1 V c).after 0 t (Y 0) X⌝ ∗ owns (c : Thread nD τ) (st1_0 t) fullShare X)
    ∗ (∃ X, ⌜(rdat1 V c).after 1 t (Y 1) X⌝ ∗ owns (c : Thread nD τ) (st1_1 t) fullShare X)
    ∗ (∃ X, ⌜(rdat1 V c).after 2 t (Y 2) X⌝ ∗ owns (c : Thread nD τ) (st1_2 t) fullShare X)
    ∗ (∃ X, ⌜(rdat1 V c).after 3 t (Y 3) X⌝ ∗ owns (c : Thread nD τ) (st1_3 t) fullShare X))

/-- The body at any point: whatever the four current buffers may hold, it runs, leaves the three inputs' as found and
    the result's at its function of the inputs'; the invariant and the core's dues pass through unread. -/
theorem sound_body1 (c : Dev nD) (t : Fin cfg1.N) (Y : (w : Fin cfg1.W) → (cfg1.win w).block.Idx → Elt F (cfg1.win w).elt)
    (hY : ∀ w, (rdat1 V c).Finds w t (Y w)) :
    bodyPre1 V c t Y ⊢ wp frame (wpE (defs₀ (F := F)) Variants.none c none) Set.univ (bodyAt1 t) (fun _ => bodyPost1 V c t Y) := by
  unfold bodyPre1 bodyPost1 bodyAt1
  rw [show (rdat1 V c).Φ t.succ = (rdat1 V c).Φ t.castSucc from rfl,
    show (rdat1 V c).owesAt () t.succ = (rdat1 V c).owesAt () t.castSucc from rfl]
  iintro ⟨HΦ, Ho, H0, H1, H2, H3⟩
  iapply (sound_kernel1 (F := F) c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists _; isplitr; · ipureintro; exact (after1_0 V c t _ _).mpr rfl
    iexact H0
  isplitl [H1]
  · iexists _; isplitr; · ipureintro; exact (after1_1 V c t _ _).mpr rfl
    iexact H1
  isplitl [H2]
  · iexists _; isplitr; · ipureintro; exact (after1_2 V c t _ _).mpr rfl
    iexact H2
  iexists _; isplitr
  · ipureintro
    exact (after1_3 V c t _ _).mpr ⟨Y 0, Y 1, Y 2, (finds1_0 V c t _).mp (hY 0), (finds1_1 V c t _).mp (hY 1), (finds1_2 V c t _).mp (hY 2), rfl⟩
  iexact H3

/-- The library's body obligation, at every point. -/
theorem body_obligation1 (c : Dev nD) : (rdat1 (F := F) V c).BodyObligation (defs₀ (F := F)) Variants.none () Set.univ := fun t Y hY => by
  rw [bigSep_W1, bigSep_W1]
  exact sound_body1 V c t Y hY

end Cert.KernelIdeal.Hand

end
-- ==== Proof.Run.lean ====
/-
  The run of the whole program: the host lines before the cell kernel, the cell kernel's pipeline, the host lines
  between, the classifier's pipeline. The buffer contents at each boundary are a fold from the launch memory; the
  cell kernel's three result arrays end at what its write-backs leave (named by its exact proof data), the classifier's
  result array at SOME contents its write-backs may leave (its proof data are relational: the last column block
  overhangs the arrays), and every other buffer — the arguments among them — is read back through the fold.
-/
import proofs.«135622_j82282983457014_2_alg».proof.Proof.Region1
import proofs.«135622_j82282983457014_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Pipeline (Seg HostSeg)

variable (m : (ℓ : Loc nD τ sig) → Buf (Elt F) ℓ) (ρ : Dev nD → PrngReg)

/-! ## The cell pipeline's exact proof data, over a parameter: what its body leaves in each staging buffer -/

variable (aft : ((c : Dev nD) → (b : Ref sig .tc) → Buf (Elt F) ((c : Thread nD τ).loc b)) → (c : Dev nD) →
  (w : Fin cfg0.W) → Fin cfg0.N → (cfg0.win w).block.Idx → Elt F (cfg0.win w).elt)

/-- The cell pipeline's proof data at entry contents `V`: the arrays as found, after the body what `aft` names, the class
    invariant, nothing owed, full shares. -/
def cellDat (V : (c : Dev nD) → (b : Ref sig .tc) → Buf (Elt F) ((c : Thread nD τ).loc b)) (c : Dev nD) :
    Dat τ (Elt F) Unit ℕ (UR sig nD τ) ℕ cfg0 c where
  A w := V c (Pipeline.arrRef spec0 w)
  after := aft V c
  Φ _ := Pipeline.ΦA spec0 c
  q _ := fullShare
  owed _ := 0

variable (hbody0 : ∀ V c, BodyObligation (cellDat (F := F) aft V c) (defs₀ (F := F)) Variants.none () Set.univ)

/-! ## The buffer contents at each boundary -/

/-- Core `c`'s buffers at launch. -/
abbrev W0 : Dev nD → Valuation τ sig (Elt F) := fun c b => m ((c : Dev nD), b)
/-- After the host lines before the cell kernel. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the cell kernel: its arrays at what the pipeline leaves, every other buffer as entered. -/
def W2 (c : Dev nD) : Valuation τ sig (Elt F) :=
  Pipeline.withArrays spec0 c (W1 m c) fun w => (cellDat aft (V1 m) c).arrAt w cfg0.N
theorem W2_arr (c : Dev nD) (w : Fin cfg0.W) :
    W2 m aft c (Proc.devRef .tc (Pipeline.arrRef spec0 w)) = (cellDat aft (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m aft c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m aft c b
theorem hF0 (c : Dev nD) (w : Fin cfg0.W) : (cellDat aft (V1 m) c).arrAt w cfg0.N = V2 m aft c (Pipeline.arrRef spec0 w) :=
  (W2_arr m aft c w).symm
theorem hrest0 (c : Dev nD) : ∀ b, b ∉ Finset.univ.image (Pipeline.arrRef spec0) → V2 m aft c b = V1 m c b :=
  fun b hb => W2_of_ne m aft c b fun w e => hb (Finset.mem_image.mpr ⟨w, Finset.mem_univ _, e⟩)
/-- After the host lines between the two kernels (the classifier's entry). -/
abbrev W3 : Dev nD → Valuation τ sig (Elt F) := fun c => StableHlo.after hostOps1 (W2 m aft c)
abbrev V3 : (c : Dev nD) → (b : Ref sig .tc) → Buf (Elt F) ((c : Thread nD τ).loc b) := fun c b => W3 m aft c b

/-! ## The proof data family and the thread states -/

abbrev adm : (p : Fin 2) → (pcfgs (F := F) p).Adm := fun p => (cfgs p).toPCfg_adm
/-- Every pipeline's proof data, each at its region's entry contents: the cell's exact data read relationally, the
    classifier's relational data. -/
def rdats : (p : Fin 2) → (c : Dev nD) → RDat τ (Elt F) Unit ℕ (UR sig nD τ) ℕ (Pipeline.pin (pcfgs (F := F)) adm p) c
  | ⟨0, _⟩ => fun c => (cellDat aft (V1 m) c).toR
  | ⟨1, _⟩ => fun c => rdat1 (V3 m aft) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the dues: the classifier's arrays at some contents its write-backs may leave, every
    other unscoped buffer as the classifier was entered, the generator register at some state. -/
abbrev Tₙ (c : Dev nD) : sProp 𝕄 :=
  iprop((rdats m aft 1 c).arraysAt cfg1.N
    ∗ Pipeline.unscopedRest (Ix := Unit) (Name := ℕ) (U := UR sig nD τ) (Lvl := ℕ) spec1 c (V3 m aft c) ∗ ∃ r, prngReg c r)

/-- Exact proof data of the classifier's configuration that name nothing the run reads: they stand in the second
    place of a family whose first place the library reads. -/
def dat1x (c : Dev nD) : Dat τ (Elt F) Unit ℕ (UR sig nD τ) ℕ cfg1 c where
  A w := V3 m aft c (Pipeline.arrRef spec1 w)
  after _ _ := fun _ => Classical.arbitrary _
  Φ _ := iprop(emp)
  q _ := fullShare
  owed _ := 0

/-! ## The regions as segments -/

set_option backward.isDefEq.respectTransparency.types false in
/-- The cell kernel's region: entered from every unscoped buffer at `W1`, left at `W2`. -/
def reg0 : Pipeline.RDat.RegionSeg (pcfgs (F := F)) adm (rdats m aft) () defs₀ 𝒱₀ L lv 0 where
  win := launch0.win.to₀
  block_pos := launch0.block_pos
  stage_whole := launch0.stage_whole
  K := PEmpty
  osem k := k.elim
  ho := Pipeline.OwnSemFacts.none _
  hbody c := ((hbody0 (V1 m) c).loose).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m aft c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m aft) launch0.win launch0.arr_whole c
      ((cellDat aft (V1 m) c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m aft 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m aft 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (fun p c => match p with | ⟨0, _⟩ => cellDat aft (V1 m) c | ⟨1, _⟩ => dat1x m aft c) ((cellDat aft (V1 m) c).share_full fun _ => rfl)
      (V1 m c) (V2 m aft c) ((cellDat aft (V1 m) c).arrAt · cfg0.N) (hF0 m aft c) (hrest0 m aft c)
    rw [Pipeline.unscopedBufs_held] at hjoin
    refine (sep_mono (Entails.of_eq ((cellDat aft (V1 m) c).toR_arraysAt_eq _)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The classifier's region: entered from every unscoped buffer at `W3`, left with its arrays at some contents their
    write-backs may leave and the other unscoped buffers as entered. -/
def reg1 : Pipeline.RDat.RegionSeg (pcfgs (F := F)) adm (rdats m aft) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m aft) c
  hwaits := Pipeline.RDat.hwaits_of_owed_zero _ _ _ _ L lv 1 fun _ _ => rfl
  pre c := iprop(StableHlo.held (c : Thread nD τ) (Pipeline.ucRefs τ sig) (W3 m aft c) ∗ R c)
  post c := iprop(Tₙ m aft c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m aft c)
  hentry c := by
    rw [Pipeline.ownSems0_none]
    have hsplit := Pipeline.RDat.arrays_of_unscopedBufs (p := 1) (pcfgs (F := F)) adm (rdats m aft) launch1.win launch1.arr_whole c
      (fun w => by unfold Pipeline.RDat.share; split <;> rfl) (V3 m aft c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m aft 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m aft 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## The program as segments, and the launch -/

abbrev segs : List (Pipeline.RDat.Seg (pcfgs (F := F)) adm (rdats m aft) () defs₀ 𝒱₀ L lv) :=
  [ .host (hseg hostOps0 hostOps0_sub hostOps0_fresh (W0 m)),
    .region (reg0 m aft hbody0),
    .host (hseg hostOps1 hostOps1_sub hostOps1_fresh (W2 m aft)),
    .region (reg1 m aft) ]

theorem main_run (c : Dev nD) : main (F := F) c = Pipeline.RDat.Seg.run (segs m aft hbody0) := (main_chain c).trans (by chain_rfl)

/-- The unscoped buffers that are no array of the classifier's. -/
abbrev rest1 : Finset (Ref sig .tc) := (Finset.univ.filter fun b : Ref sig .tc => ¬ b.isScoped) \ Finset.univ.image (Pipeline.arrRef spec1)

include hbody0 in
set_option backward.isDefEq.respectTransparency.types false in
/-- THE RUN, at any float instance: from any memory with zero counters every weakly fair execution of the program
    terminates, nothing faulting; in every final memory each array of the classifier's holds contents its write-backs
    may leave, and every other unscoped buffer what it held when the classifier was entered. -/
theorem run_main : θ_run defs (onTc (τ := τ) (main (F := F))) ⟨m, fun _ => 0, ρ⟩ (fun r => ∀ c : Dev nD,
      (∀ w, (rdat1 (V3 m aft) c).ArrAt w cfg1.N (r.2.mem (((cfg1.win w).arr.view.loc (c : Thread nD τ)))))
      ∧ ∀ b ∈ rest1, r.2.mem ((c : Thread nD τ).loc b) = V3 m aft c b) :=
  Pipeline.RDat.θ_run_regions_kit (pcfgs (F := F)) adm (rdats m aft) () cellOf_inj emb₁ defs₀ 𝒱₀ L lv m ρ main (segs m aft hbody0)
    (fun c Q => by rw [main_run m aft hbody0 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m aft)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => (∀ w, (rdat1 (V3 m aft) c).ArrAt w cfg1.N (s.mem (((cfg1.win w).arr.view.loc (c : Thread nD τ)))))
      ∧ ∀ b ∈ rest1, s.mem ((c : Thread nD τ).loc b) = V3 m aft c b)
    (hfin := fun c s' => by
      iintro ⟨⟨Ha, Hrest, -⟩, HSI⟩
      ihave H1 := (Pipeline.RDat.arrays_read (pcfgs (F := F)) adm (rdats m aft) (p := 1) launch1.arr_whole c cfg1.N s') $$ [Ha HSI]
      · isplitl [Ha] <;> iassumption
      icases H1 with ⟨%h1, HSI⟩
      unfold Pipeline.unscopedRest
      ihave H2 := (pointsTo_read_all rest1 (fun b => (c : Thread nD τ).loc b) (V3 m aft c) s') $$ [Hrest HSI]
      · isplitl [Hrest] <;> iassumption
      icases H2 with ⟨%h2, HSI⟩
      imodintro
      isplitr
      · ipureintro; exact ⟨h1, h2⟩
      iexact HSI)
    (hQ := fun s h c => h c)

end Cert.KernelIdeal.Hand

end
-- ==== Proof.RunRead.lean ====
/-
  What the run leaves, buffer by buffer: every argument array as launched (no host line writes one, the cell kernel
  reads the cell state through an input window and writes only its three results, the classifier writes only the
  logits), the cell kernel's two float results at what its write-backs leave, the logits at contents the classifier's
  write-backs may leave.
-/
import proofs.«135622_j82282983457014_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (aft : ((c : Dev nD) → (b : Ref sig .tc) → Buf (Elt F) ((c : Thread nD τ).loc b)) → (c : Dev nD) →
  (w : Fin cfg0.W) → Fin cfg0.N → (cfg0.win w).block.Idx → Elt F (cfg0.win w).elt)
variable (hbody0 : ∀ V c, BodyObligation (cellDat (F := F) aft V c) (defs₀ (F := F)) Variants.none () Set.univ)

/-- A buffer no host line writes and no array of the cell kernel's keeps its launch contents up to the classifier's entry. -/
theorem W3_keep (c : Dev nD) (b : Ref sig .tc) (h0 : b ∉ hostOps0_W) (h1 : b ∉ hostOps1_W) (hne : ∀ w, Pipeline.arrRef spec0 w ≠ b) :
    W3 m aft c (Proc.devRef .tc b) = m ((c : Thread nD τ).loc b) :=
  (StableHlo.after_of_writes_sub hostOps1 _ hostOps1_writes h1).trans
    ((W2_of_ne m aft c b hne).trans ((StableHlo.after_of_writes_sub hostOps0 _ hostOps0_writes h0).trans rfl))

/-- A buffer no host line before the cell kernel writes holds its launch contents when the cell kernel is entered. -/
theorem W1_of (c : Dev nD) (r : Ref sig .tc) (h : r ∉ hostOps0_W) : W1 m c (Proc.devRef .tc r) = m ((c : Thread nD τ).loc r) :=
  (StableHlo.after_of_writes_sub hostOps0 _ hostOps0_writes h).trans rfl

/-- The cell state `c` is an input array of the cell kernel: never written. -/
theorem W3_main_arg2 (c : Dev nD) : W3 m aft c (Proc.devRef .tc main_arg2) = m ((c : Thread nD τ).loc main_arg2) :=
  (StableHlo.after_of_writes_sub hostOps1 _ hostOps1_writes (by decide)).trans
    ((W2_arr m aft c 2).trans (((cellDat aft (V1 m) c).arrAt_in 2 rfl _).trans
      (show (cellDat aft (V1 m) c).A 2 = m ((c : Thread nD τ).loc main_arg2) from W1_of m c main_arg2 (by decide))))

/-- The cell kernel's results reach the classifier's entry as its write-backs left them. -/
theorem W3_main_v29_0 (c : Dev nD) : W3 m aft c (Proc.devRef .tc main_v29_0) = (cellDat aft (V1 m) c).arrAt 15 cfg0.N :=
  (StableHlo.after_of_writes_sub hostOps1 _ hostOps1_writes (by decide)).trans (W2_arr m aft c 15)
theorem W3_main_v29_1 (c : Dev nD) : W3 m aft c (Proc.devRef .tc main_v29_1) = (cellDat aft (V1 m) c).arrAt 16 cfg0.N :=
  (StableHlo.after_of_writes_sub hostOps1 _ hostOps1_writes (by decide)).trans (W2_arr m aft c 16)
theorem W3_main_v29_2 (c : Dev nD) : W3 m aft c (Proc.devRef .tc main_v29_2) = (cellDat aft (V1 m) c).arrAt 17 cfg0.N :=
  (StableHlo.after_of_writes_sub hostOps1 _ hostOps1_writes (by decide)).trans (W2_arr m aft c 17)

theorem mem_rest1 (b : Ref sig .tc) (hs : ¬ b.isScoped) (hn : b ∉ Finset.univ.image (Pipeline.arrRef spec1)) : b ∈ rest1 :=
  Finset.mem_sdiff.mpr ⟨Finset.mem_filter.mpr ⟨Finset.mem_univ _, hs⟩, hn⟩

include hbody0 in
/-- THE RUN, read: the logits at contents the classifier's write-backs may leave, the two float results of the cell
    kernel at what its write-backs leave, every argument as launched. -/
theorem run_read : θ_run defs (onTc (τ := τ) (main (F := F))) ⟨m, fun _ => 0, ρ⟩ (fun r => ∀ c : Dev nD,
      (rdat1 (V3 m aft) c).ArrAt 3 cfg1.N (r.2.mem ((c.tc : Thread nD τ).loc main_v32))
      ∧ r.2.mem ((c.tc : Thread nD τ).loc main_v29_0) = (cellDat aft (V1 m) c).arrAt 15 cfg0.N
      ∧ r.2.mem ((c.tc : Thread nD τ).loc main_v29_1) = (cellDat aft (V1 m) c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1 3,
      ((h c).2 main_v29_0 (mem_rest1 _ (by decide) (by decide))).trans (W3_main_v29_0 m aft c),
      ((h c).2 main_v29_1 (mem_rest1 _ (by decide) (by decide))).trans (W3_main_v29_1 m aft c),
      ((h c).2 main_arg0 (mem_rest1 _ (by decide) (by decide))).trans (W3_keep m aft c main_arg0 (by decide) (by decide) (by decide)),
      ((h c).2 main_arg1 (mem_rest1 _ (by decide) (by decide))).trans (W3_keep m aft c main_arg1 (by decide) (by decide) (by decide)),
      ((h c).2 main_arg2 (mem_rest1 _ (by decide) (by decide))).trans (W3_main_arg2 m aft c),
      ((h c).2 main_arg3 (mem_rest1 _ (by decide) (by decide))).trans (W3_keep m aft c main_arg3 (by decide) (by decide) (by decide)),
      ((h c).2 main_arg4 (mem_rest1 _ (by decide) (by decide))).trans (W3_keep m aft c main_arg4 (by decide) (by decide) (by decide)),
      ((h c).2 main_arg5 (mem_rest1 _ (by decide) (by decide))).trans (W3_keep m aft c main_arg5 (by decide) (by decide) (by decide)),
      ((h c).2 main_arg6 (mem_rest1 _ (by decide) (by decide))).trans (W3_keep m aft c main_arg6 (by decide) (by decide) (by decide)),
      ((h c).2 main_arg7 (mem_rest1 _ (by decide) (by decide))).trans (W3_keep m aft c main_arg7 (by decide) (by decide) (by decide)),
      ((h c).2 main_arg8 (mem_rest1 _ (by decide) (by decide))).trans (W3_keep m aft c main_arg8 (by decide) (by decide) (by decide)),
      ((h c).2 main_arg9 (mem_rest1 _ (by decide) (by decide))).trans (W3_keep m aft c main_arg9 (by decide) (by decide) (by decide)),
      ((h c).2 main_arg10 (mem_rest1 _ (by decide) (by decide))).trans (W3_keep m aft c main_arg10 (by decide) (by decide) (by decide)),
      ((h c).2 main_arg11 (mem_rest1 _ (by decide) (by decide))).trans (W3_keep m aft c main_arg11 (by decide) (by decide) (by decide)),
      ((h c).2 main_arg12 (mem_rest1 _ (by decide) (by decide))).trans (W3_keep m aft c main_arg12 (by decide) (by decide) (by decide)),
      ((h c).2 main_arg13 (mem_rest1 _ (by decide) (by decide))).trans (W3_keep m aft c main_arg13 (by decide) (by decide) (by decide))⟩)
    (run_main m ρ aft hbody0)

end Cert.KernelIdeal.Hand

end
-- ==== Proof.KRegion1Body.lean ====
/-
  The classifier kernel's body on whole staging buffers: three loads, the product of the hidden block with the weight
  block plus the broadcast bias row, one store of the whole result block. What the result's staging buffer holds
  afterwards is named as one function of what the three input buffers held.
-/
import proofs.«135622_j82282983457014_2_alg».proof.Proof.Gen.Kernel.Launch
import proofs.«135622_j82282983457014_2_alg».proof.Proof.Gen.Kernel.Skeleton
import proofs.«135622_j82282983457014_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-! ## The body's accesses: each is the whole buffer -/

abbrev r1_h : Rect S2048x2048 := Rect.unit (s := S2048x2048) ![0, 0] S2048x2048.size inb_S2048x2048_S2048x2048_0_0
abbrev r1_w : Rect S2048x512 := Rect.unit (s := S2048x512) ![0, 0] S2048x512.size inb_S2048x512_S2048x512_0_0
abbrev r1_b : Rect S1x512 := Rect.unit (s := S1x512) ![0, 0] S1x512.size inb_S1x512_S1x512_0_0

/-- The result block's staging buffer after the body, from what the three input buffers hold: its one store as a piece. -/
def out1_3 (x0 : Vec F S2048x2048 .bf16) (x1 : Vec F S2048x512 .bf16) (x2 : Vec F S1x512 .f32) : Vec F S2048x512 .f32 :=
  View.canon [⟨r1_w, k1_pay1 (View.ld x0 r1_h) (View.ld x1 r1_w) (View.ld x2 r1_b)⟩]

/-- The one store covers the buffer. -/
theorem cover1_3 (p0 : Vec F S2048x512 .f32) (y : S2048x512.Idx) :
    ∃ pc ∈ ([⟨r1_w, p0⟩] : List (View.Piece (Elt F) S2048x512 .f32)), y ∈ pc.1.set :=
  View.cover_of_tiled [⟨r1_w, p0⟩] S2048x512.size (by rfl) y

set_option maxHeartbeats 1000000 in
/-- The body on whole staging memrefs: the inputs' at contents `x0`, `x1`, `x2` and the result's at anything run to
    the inputs' unchanged and the result's at `out1_3 x0 x1 x2`. -/
theorem sound_kernel1 (c : Dev nD) (E : Set ℕ) (i : grid1.Coords)
    (arg2 : Memref sig .tc .vmem S2048x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S2048x512 .f32) (harg5 : arg5.IsWhole)
    (x0 : Vec F S2048x2048 .bf16) (x1 : Vec F S2048x512 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__cls_kernel i arg2 harg2 arg3 harg3 arg4 harg4 arg5 harg5) K := by
  simp only [cc1__cls_kernel_eq_skeleton]; unfold cc1__cls_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

end Cert.Kernel.Hand

end
-- ==== Proof.KRegion1.lean ====
/-
  The classifier pipeline's proof data, relationally. Its last column block overhangs the 50257-wide arrays, so a
  fetched weight block and bias block arrive filled out, past the array's end, with words nothing names; what the
  body leaves in the result's staging buffer is therefore stated as a relation: it is the body's function of SOME
  contents the three input buffers may hold at that point. The three input buffers are left as found.
-/
import proofs.«135622_j82282983457014_2_alg».proof.Proof.KRegion1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The data with the result window's relation left open: arrays as the region finds them, every input buffer left as
    found, the class invariant (the scoped rest and the generator register), nothing owed, full shares. -/
def rdat1in (c : Dev nD) : RDat τ (Elt F) Unit ℕ (UR sig nD τ) ℕ cfg1 c where
  A w := V c (Pipeline.arrRef spec1 w)
  after w _ Y X := w = 3 ∨ X = Y
  Φ _ := Pipeline.ΦA spec1 c
  q _ := fullShare
  owed _ := 0

/-- What the body may leave in the result's staging buffer at point `t`: its function of contents the three input
    buffers may hold there. -/
def leaves1_3 (c : Dev nD) (t : Fin cfg1.N) (X : S2048x512.Idx → Elt F .f32) : Prop :=
  ∃ (Y0 : S2048x2048.Idx → Elt F .bf16) (Y1 : S2048x512.Idx → Elt F .bf16) (Y2 : S1x512.Idx → Elt F .f32),
    (rdat1in V c).Finds 0 t Y0 ∧ (rdat1in V c).Finds 1 t Y1 ∧ (rdat1in V c).Finds 2 t Y2 ∧ X = out1_3 Y0 Y1 Y2

/-- The classifier pipeline's relational proof data. -/
def rdat1 (c : Dev nD) : RDat τ (Elt F) Unit ℕ (UR sig nD τ) ℕ cfg1 c :=
  (rdat1in V c).override fun w => match w with
    | ⟨3, _⟩ => some fun t _ X => leaves1_3 V c t X
    | _ => none

theorem rdat1_A (c : Dev nD) (w : Fin cfg1.W) : (rdat1 V c).A w = V c (Pipeline.arrRef spec1 w) := rfl

/-- An input buffer may hold, under the full data, what it may hold under the data with the result's relation open. -/
theorem finds1_0 (c : Dev nD) (t : Fin cfg1.N) (X) : (rdat1 V c).Finds 0 t X ↔ (rdat1in V c).Finds 0 t X :=
  (rdat1in V c).override_finds (w := 0) rfl t X
theorem finds1_1 (c : Dev nD) (t : Fin cfg1.N) (X) : (rdat1 V c).Finds 1 t X ↔ (rdat1in V c).Finds 1 t X :=
  (rdat1in V c).override_finds (w := 1) rfl t X
theorem finds1_2 (c : Dev nD) (t : Fin cfg1.N) (X) : (rdat1 V c).Finds 2 t X ↔ (rdat1in V c).Finds 2 t X :=
  (rdat1in V c).override_finds (w := 2) rfl t X

theorem after1_0 (c : Dev nD) (t : Fin cfg1.N) (Y X) : (rdat1 V c).after 0 t Y X ↔ X = Y := by
  rw [show (rdat1 V c).after 0 = (rdat1in V c).after 0 from (rdat1in V c).override_after_of_eq_none (w := 0) rfl]
  exact ⟨fun h => h.resolve_left (by decide), .inr⟩
theorem after1_1 (c : Dev nD) (t : Fin cfg1.N) (Y X) : (rdat1 V c).after 1 t Y X ↔ X = Y := by
  rw [show (rdat1 V c).after 1 = (rdat1in V c).after 1 from (rdat1in V c).override_after_of_eq_none (w := 1) rfl]
  exact ⟨fun h => h.resolve_left (by decide), .inr⟩
theorem after1_2 (c : Dev nD) (t : Fin cfg1.N) (Y X) : (rdat1 V c).after 2 t Y X ↔ X = Y := by
  rw [show (rdat1 V c).after 2 = (rdat1in V c).after 2 from (rdat1in V c).override_after_of_eq_none (w := 2) rfl]
  exact ⟨fun h => h.resolve_left (by decide), .inr⟩
theorem after1_3 (c : Dev nD) (t : Fin cfg1.N) (Y X) : (rdat1 V c).after 3 t Y X ↔ leaves1_3 V c t X := by
  rw [show (rdat1 V c).after 3 = fun t _ X => leaves1_3 V c t X from (rdat1in V c).override_after_of_eq_some (w := 3) rfl]

/-- What the body is handed at point `t`, window by window, -/
def bodyPre1 (c : Dev nD) (t : Fin cfg1.N) (Y : (w : Fin cfg1.W) → (cfg1.win w).block.Idx → Elt F (cfg1.win w).elt) : sProp 𝕄 :=
  iprop((rdat1 V c).Φ t.castSucc ∗ (rdat1 V c).owesAt () t.castSucc
    ∗ owns (c : Thread nD τ) (st1_0 t) fullShare (Y 0)
    ∗ owns (c : Thread nD τ) (st1_1 t) fullShare (Y 1)
    ∗ owns (c : Thread nD τ) (st1_2 t) fullShare (Y 2)
    ∗ owns (c : Thread nD τ) (st1_3 t) fullShare (Y 3))

/-- and what it hands back. -/
def bodyPost1 (c : Dev nD) (t : Fin cfg1.N) (Y : (w : Fin cfg1.W) → (cfg1.win w).block.Idx → Elt F (cfg1.win w).elt) : sProp 𝕄 :=
  iprop((rdat1 V c).Φ t.succ ∗ (rdat1 V c).owesAt () t.succ
    ∗ (∃ X, ⌜(rdat1 V c).after 0 t (Y 0) X⌝ ∗ owns (c : Thread nD τ) (st1_0 t) fullShare X)
    ∗ (∃ X, ⌜(rdat1 V c).after 1 t (Y 1) X⌝ ∗ owns (c : Thread nD τ) (st1_1 t) fullShare X)
    ∗ (∃ X, ⌜(rdat1 V c).after 2 t (Y 2) X⌝ ∗ owns (c : Thread nD τ) (st1_2 t) fullShare X)
    ∗ (∃ X, ⌜(rdat1 V c).after 3 t (Y 3) X⌝ ∗ owns (c : Thread nD τ) (st1_3 t) fullShare X))

/-- The body at any point: whatever the four current buffers may hold, it runs, leaves the three inputs' as found and
    the result's at its function of the inputs'; the invariant and the core's dues pass through unread. -/
theorem sound_body1 (c : Dev nD) (t : Fin cfg1.N) (Y : (w : Fin cfg1.W) → (cfg1.win w).block.Idx → Elt F (cfg1.win w).elt)
    (hY : ∀ w, (rdat1 V c).Finds w t (Y w)) :
    bodyPre1 V c t Y ⊢ wp frame (wpE (defs₀ (F := F)) Variants.none c none) Set.univ (bodyAt1 t) (fun _ => bodyPost1 V c t Y) := by
  unfold bodyPre1 bodyPost1 bodyAt1
  rw [show (rdat1 V c).Φ t.succ = (rdat1 V c).Φ t.castSucc from rfl,
    show (rdat1 V c).owesAt () t.succ = (rdat1 V c).owesAt () t.castSucc from rfl]
  iintro ⟨HΦ, Ho, H0, H1, H2, H3⟩
  iapply (sound_kernel1 (F := F) c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists _; isplitr; · ipureintro; exact (after1_0 V c t _ _).mpr rfl
    iexact H0
  isplitl [H1]
  · iexists _; isplitr; · ipureintro; exact (after1_1 V c t _ _).mpr rfl
    iexact H1
  isplitl [H2]
  · iexists _; isplitr; · ipureintro; exact (after1_2 V c t _ _).mpr rfl
    iexact H2
  iexists _; isplitr
  · ipureintro
    exact (after1_3 V c t _ _).mpr ⟨Y 0, Y 1, Y 2, (finds1_0 V c t _).mp (hY 0), (finds1_1 V c t _).mp (hY 1), (finds1_2 V c t _).mp (hY 2), rfl⟩
  iexact H3

/-- The library's body obligation, at every point. -/
theorem body_obligation1 (c : Dev nD) : (rdat1 (F := F) V c).BodyObligation (defs₀ (F := F)) Variants.none () Set.univ := fun t Y hY => by
  rw [bigSep_W1, bigSep_W1]
  exact sound_body1 V c t Y hY

end Cert.Kernel.Hand

end
-- ==== Proof.KRun.lean ====
/-
  The run of the whole program: the host lines before the cell kernel, the cell kernel's pipeline, the host lines
  between, the classifier's pipeline. The buffer contents at each boundary are a fold from the launch memory; the
  cell kernel's three result arrays end at what its write-backs leave (named by its exact proof data), the classifier's
  result array at SOME contents its write-backs may leave (its proof data are relational: the last column block
  overhangs the arrays), and every other buffer — the arguments among them — is read back through the fold.
-/
import proofs.«135622_j82282983457014_2_alg».proof.Proof.KRegion1
import proofs.«135622_j82282983457014_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

open Idealize.ShloMosaic.Pipeline (Seg HostSeg)

variable (m : (ℓ : Loc nD τ sig) → Buf (Elt F) ℓ) (ρ : Dev nD → PrngReg)

/-! ## The cell pipeline's exact proof data, over a parameter: what its body leaves in each staging buffer -/

variable (aft : ((c : Dev nD) → (b : Ref sig .tc) → Buf (Elt F) ((c : Thread nD τ).loc b)) → (c : Dev nD) →
  (w : Fin cfg0.W) → Fin cfg0.N → (cfg0.win w).block.Idx → Elt F (cfg0.win w).elt)

/-- The cell pipeline's proof data at entry contents `V`: the arrays as found, after the body what `aft` names, the class
    invariant, nothing owed, full shares. -/
def cellDat (V : (c : Dev nD) → (b : Ref sig .tc) → Buf (Elt F) ((c : Thread nD τ).loc b)) (c : Dev nD) :
    Dat τ (Elt F) Unit ℕ (UR sig nD τ) ℕ cfg0 c where
  A w := V c (Pipeline.arrRef spec0 w)
  after := aft V c
  Φ _ := Pipeline.ΦA spec0 c
  q _ := fullShare
  owed _ := 0

variable (hbody0 : ∀ V c, BodyObligation (cellDat (F := F) aft V c) (defs₀ (F := F)) Variants.none () Set.univ)

/-! ## The buffer contents at each boundary -/

/-- Core `c`'s buffers at launch. -/
abbrev W0 : Dev nD → Valuation τ sig (Elt F) := fun c b => m ((c : Dev nD), b)
/-- After the host lines before the cell kernel. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the cell kernel: its arrays at what the pipeline leaves, every other buffer as entered. -/
def W2 (c : Dev nD) : Valuation τ sig (Elt F) :=
  Pipeline.withArrays spec0 c (W1 m c) fun w => (cellDat aft (V1 m) c).arrAt w cfg0.N
theorem W2_arr (c : Dev nD) (w : Fin cfg0.W) :
    W2 m aft c (Proc.devRef .tc (Pipeline.arrRef spec0 w)) = (cellDat aft (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m aft c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m aft c b
theorem hF0 (c : Dev nD) (w : Fin cfg0.W) : (cellDat aft (V1 m) c).arrAt w cfg0.N = V2 m aft c (Pipeline.arrRef spec0 w) :=
  (W2_arr m aft c w).symm
theorem hrest0 (c : Dev nD) : ∀ b, b ∉ Finset.univ.image (Pipeline.arrRef spec0) → V2 m aft c b = V1 m c b :=
  fun b hb => W2_of_ne m aft c b fun w e => hb (Finset.mem_image.mpr ⟨w, Finset.mem_univ _, e⟩)
/-- After the host lines between the two kernels (the classifier's entry). -/
abbrev W3 : Dev nD → Valuation τ sig (Elt F) := fun c => StableHlo.after hostOps1 (W2 m aft c)
abbrev V3 : (c : Dev nD) → (b : Ref sig .tc) → Buf (Elt F) ((c : Thread nD τ).loc b) := fun c b => W3 m aft c b

/-! ## The proof data family and the thread states -/

abbrev adm : (p : Fin 2) → (pcfgs (F := F) p).Adm := fun p => (cfgs p).toPCfg_adm
/-- Every pipeline's proof data, each at its region's entry contents: the cell's exact data read relationally, the
    classifier's relational data. -/
def rdats : (p : Fin 2) → (c : Dev nD) → RDat τ (Elt F) Unit ℕ (UR sig nD τ) ℕ (Pipeline.pin (pcfgs (F := F)) adm p) c
  | ⟨0, _⟩ => fun c => (cellDat aft (V1 m) c).toR
  | ⟨1, _⟩ => fun c => rdat1 (V3 m aft) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without the dues: the classifier's arrays at some contents its write-backs may leave, every
    other unscoped buffer as the classifier was entered, the generator register at some state. -/
abbrev Tₙ (c : Dev nD) : sProp 𝕄 :=
  iprop((rdats m aft 1 c).arraysAt cfg1.N
    ∗ Pipeline.unscopedRest (Ix := Unit) (Name := ℕ) (U := UR sig nD τ) (Lvl := ℕ) spec1 c (V3 m aft c) ∗ ∃ r, prngReg c r)

/-- Exact proof data of the classifier's configuration that name nothing the run reads: they stand in the second
    place of a family whose first place the library reads. -/
def dat1x (c : Dev nD) : Dat τ (Elt F) Unit ℕ (UR sig nD τ) ℕ cfg1 c where
  A w := V3 m aft c (Pipeline.arrRef spec1 w)
  after _ _ := fun _ => Classical.arbitrary _
  Φ _ := iprop(emp)
  q _ := fullShare
  owed _ := 0

/-! ## The regions as segments -/

set_option backward.isDefEq.respectTransparency.types false in
/-- The cell kernel's region: entered from every unscoped buffer at `W1`, left at `W2`. -/
def reg0 : Pipeline.RDat.RegionSeg (pcfgs (F := F)) adm (rdats m aft) () defs₀ 𝒱₀ L lv 0 where
  win := launch0.win.to₀
  block_pos := launch0.block_pos
  stage_whole := launch0.stage_whole
  K := PEmpty
  osem k := k.elim
  ho := Pipeline.OwnSemFacts.none _
  hbody c := ((hbody0 (V1 m) c).loose).toR
  hwaits := Pipeline.RDat.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m aft c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.RDat.arrays_of_unscopedBufs (p := 0) (pcfgs (F := F)) adm (rdats m aft) launch0.win launch0.arr_whole c
      ((cellDat aft (V1 m) c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m aft 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m aft 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (fun p c => match p with | ⟨0, _⟩ => cellDat aft (V1 m) c | ⟨1, _⟩ => dat1x m aft c) ((cellDat aft (V1 m) c).share_full fun _ => rfl)
      (V1 m c) (V2 m aft c) ((cellDat aft (V1 m) c).arrAt · cfg0.N) (hF0 m aft c) (hrest0 m aft c)
    rw [Pipeline.unscopedBufs_held] at hjoin
    refine (sep_mono (Entails.of_eq ((cellDat aft (V1 m) c).toR_arraysAt_eq _)) .rfl).trans ?_
    iintro ⟨Ha, HO, HY, Hrest⟩
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The classifier's region: entered from every unscoped buffer at `W3`, left with its arrays at some contents their
    write-backs may leave and the other unscoped buffers as entered. -/
def reg1 : Pipeline.RDat.RegionSeg (pcfgs (F := F)) adm (rdats m aft) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m aft) c
  hwaits := Pipeline.RDat.hwaits_of_owed_zero _ _ _ _ L lv 1 fun _ _ => rfl
  pre c := iprop(StableHlo.held (c : Thread nD τ) (Pipeline.ucRefs τ sig) (W3 m aft c) ∗ R c)
  post c := iprop(Tₙ m aft c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m aft c)
  hentry c := by
    rw [Pipeline.ownSems0_none]
    have hsplit := Pipeline.RDat.arrays_of_unscopedBufs (p := 1) (pcfgs (F := F)) adm (rdats m aft) launch1.win launch1.arr_whole c
      (fun w => by unfold Pipeline.RDat.share; split <;> rfl) (V3 m aft c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m aft 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m aft 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha]; · iexact Ha
      isplitl [Hrest]; · iexact Hrest
      iexact HY
    unfold Pipeline.RDat.owesAt Pipeline.owesWithin
    icases HO with ⟨%W, -, HO⟩; iexists W; iexact HO

/-! ## The program as segments, and the launch -/

abbrev segs : List (Pipeline.RDat.Seg (pcfgs (F := F)) adm (rdats m aft) () defs₀ 𝒱₀ L lv) :=
  [ .host (hseg hostOps0 hostOps0_sub hostOps0_fresh (W0 m)),
    .region (reg0 m aft hbody0),
    .host (hseg hostOps1 hostOps1_sub hostOps1_fresh (W2 m aft)),
    .region (reg1 m aft) ]

theorem main_run (c : Dev nD) : main (F := F) c = Pipeline.RDat.Seg.run (segs m aft hbody0) := (main_chain c).trans (by chain_rfl)

/-- The unscoped buffers that are no array of the classifier's. -/
abbrev rest1 : Finset (Ref sig .tc) := (Finset.univ.filter fun b : Ref sig .tc => ¬ b.isScoped) \ Finset.univ.image (Pipeline.arrRef spec1)

include hbody0 in
set_option backward.isDefEq.respectTransparency.types false in
/-- THE RUN, at any float instance: from any memory with zero counters every weakly fair execution of the program
    terminates, nothing faulting; in every final memory each array of the classifier's holds contents its write-backs
    may leave, and every other unscoped buffer what it held when the classifier was entered. -/
theorem run_main : θ_run defs (onTc (τ := τ) (main (F := F))) ⟨m, fun _ => 0, ρ⟩ (fun r => ∀ c : Dev nD,
      (∀ w, (rdat1 (V3 m aft) c).ArrAt w cfg1.N (r.2.mem (((cfg1.win w).arr.view.loc (c : Thread nD τ)))))
      ∧ ∀ b ∈ rest1, r.2.mem ((c : Thread nD τ).loc b) = V3 m aft c b) :=
  Pipeline.RDat.θ_run_regions_kit (pcfgs (F := F)) adm (rdats m aft) () cellOf_inj emb₁ defs₀ 𝒱₀ L lv m ρ main (segs m aft hbody0)
    (fun c Q => by rw [main_run m aft hbody0 c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m aft)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => (∀ w, (rdat1 (V3 m aft) c).ArrAt w cfg1.N (s.mem (((cfg1.win w).arr.view.loc (c : Thread nD τ)))))
      ∧ ∀ b ∈ rest1, s.mem ((c : Thread nD τ).loc b) = V3 m aft c b)
    (hfin := fun c s' => by
      iintro ⟨⟨Ha, Hrest, -⟩, HSI⟩
      ihave H1 := (Pipeline.RDat.arrays_read (pcfgs (F := F)) adm (rdats m aft) (p := 1) launch1.arr_whole c cfg1.N s') $$ [Ha HSI]
      · isplitl [Ha] <;> iassumption
      icases H1 with ⟨%h1, HSI⟩
      unfold Pipeline.unscopedRest
      ihave H2 := (pointsTo_read_all rest1 (fun b => (c : Thread nD τ).loc b) (V3 m aft c) s') $$ [Hrest HSI]
      · isplitl [Hrest] <;> iassumption
      icases H2 with ⟨%h2, HSI⟩
      imodintro
      isplitr
      · ipureintro; exact ⟨h1, h2⟩
      iexact HSI)
    (hQ := fun s h c => h c)

end Cert.Kernel.Hand

end
-- ==== Proof.KRunRead.lean ====
/-
  What the run leaves, buffer by buffer: every argument array as launched (no host line writes one, the cell kernel
  reads the cell state through an input window and writes only its three results, the classifier writes only the
  logits), the cell kernel's two float results at what its write-backs leave, the logits at contents the classifier's
  write-backs may leave.
-/
import proofs.«135622_j82282983457014_2_alg».proof.Proof.KRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (aft : ((c : Dev nD) → (b : Ref sig .tc) → Buf (Elt F) ((c : Thread nD τ).loc b)) → (c : Dev nD) →
  (w : Fin cfg0.W) → Fin cfg0.N → (cfg0.win w).block.Idx → Elt F (cfg0.win w).elt)
variable (hbody0 : ∀ V c, BodyObligation (cellDat (F := F) aft V c) (defs₀ (F := F)) Variants.none () Set.univ)

/-- A buffer no host line writes and no array of the cell kernel's keeps its launch contents up to the classifier's entry. -/
theorem W3_keep (c : Dev nD) (b : Ref sig .tc) (h0 : b ∉ hostOps0_W) (h1 : b ∉ hostOps1_W) (hne : ∀ w, Pipeline.arrRef spec0 w ≠ b) :
    W3 m aft c (Proc.devRef .tc b) = m ((c : Thread nD τ).loc b) :=
  (StableHlo.after_of_writes_sub hostOps1 _ hostOps1_writes h1).trans
    ((W2_of_ne m aft c b hne).trans ((StableHlo.after_of_writes_sub hostOps0 _ hostOps0_writes h0).trans rfl))

/-- A buffer no host line before the cell kernel writes holds its launch contents when the cell kernel is entered. -/
theorem W1_of (c : Dev nD) (r : Ref sig .tc) (h : r ∉ hostOps0_W) : W1 m c (Proc.devRef .tc r) = m ((c : Thread nD τ).loc r) :=
  (StableHlo.after_of_writes_sub hostOps0 _ hostOps0_writes h).trans rfl

/-- The cell state `c` is an input array of the cell kernel: never written. -/
theorem W3_main_arg2 (c : Dev nD) : W3 m aft c (Proc.devRef .tc main_arg2) = m ((c : Thread nD τ).loc main_arg2) :=
  (StableHlo.after_of_writes_sub hostOps1 _ hostOps1_writes (by decide)).trans
    ((W2_arr m aft c 2).trans (((cellDat aft (V1 m) c).arrAt_in 2 rfl _).trans
      (show (cellDat aft (V1 m) c).A 2 = m ((c : Thread nD τ).loc main_arg2) from W1_of m c main_arg2 (by decide))))

/-- The cell kernel's results reach the classifier's entry as its write-backs left them. -/
theorem W3_main_v29_0 (c : Dev nD) : W3 m aft c (Proc.devRef .tc main_v29_0) = (cellDat aft (V1 m) c).arrAt 15 cfg0.N :=
  (StableHlo.after_of_writes_sub hostOps1 _ hostOps1_writes (by decide)).trans (W2_arr m aft c 15)
theorem W3_main_v29_1 (c : Dev nD) : W3 m aft c (Proc.devRef .tc main_v29_1) = (cellDat aft (V1 m) c).arrAt 16 cfg0.N :=
  (StableHlo.after_of_writes_sub hostOps1 _ hostOps1_writes (by decide)).trans (W2_arr m aft c 16)
theorem W3_main_v29_2 (c : Dev nD) : W3 m aft c (Proc.devRef .tc main_v29_2) = (cellDat aft (V1 m) c).arrAt 17 cfg0.N :=
  (StableHlo.after_of_writes_sub hostOps1 _ hostOps1_writes (by decide)).trans (W2_arr m aft c 17)

theorem mem_rest1 (b : Ref sig .tc) (hs : ¬ b.isScoped) (hn : b ∉ Finset.univ.image (Pipeline.arrRef spec1)) : b ∈ rest1 :=
  Finset.mem_sdiff.mpr ⟨Finset.mem_filter.mpr ⟨Finset.mem_univ _, hs⟩, hn⟩

include hbody0 in
/-- THE RUN, read: the logits at contents the classifier's write-backs may leave, the two float results of the cell
    kernel at what its write-backs leave, every argument as launched. -/
theorem run_read : θ_run defs (onTc (τ := τ) (main (F := F))) ⟨m, fun _ => 0, ρ⟩ (fun r => ∀ c : Dev nD,
      (rdat1 (V3 m aft) c).ArrAt 3 cfg1.N (r.2.mem ((c.tc : Thread nD τ).loc main_v32))
      ∧ r.2.mem ((c.tc : Thread nD τ).loc main_v29_0) = (cellDat aft (V1 m) c).arrAt 15 cfg0.N
      ∧ r.2.mem ((c.tc : Thread nD τ).loc main_v29_1) = (cellDat aft (V1 m) c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1 3,
      ((h c).2 main_v29_0 (mem_rest1 _ (by decide) (by decide))).trans (W3_main_v29_0 m aft c),
      ((h c).2 main_v29_1 (mem_rest1 _ (by decide) (by decide))).trans (W3_main_v29_1 m aft c),
      ((h c).2 main_arg0 (mem_rest1 _ (by decide) (by decide))).trans (W3_keep m aft c main_arg0 (by decide) (by decide) (by decide)),
      ((h c).2 main_arg1 (mem_rest1 _ (by decide) (by decide))).trans (W3_keep m aft c main_arg1 (by decide) (by decide) (by decide)),
      ((h c).2 main_arg2 (mem_rest1 _ (by decide) (by decide))).trans (W3_main_arg2 m aft c),
      ((h c).2 main_arg3 (mem_rest1 _ (by decide) (by decide))).trans (W3_keep m aft c main_arg3 (by decide) (by decide) (by decide)),
      ((h c).2 main_arg4 (mem_rest1 _ (by decide) (by decide))).trans (W3_keep m aft c main_arg4 (by decide) (by decide) (by decide)),
      ((h c).2 main_arg5 (mem_rest1 _ (by decide) (by decide))).trans (W3_keep m aft c main_arg5 (by decide) (by decide) (by decide)),
      ((h c).2 main_arg6 (mem_rest1 _ (by decide) (by decide))).trans (W3_keep m aft c main_arg6 (by decide) (by decide) (by decide)),
      ((h c).2 main_arg7 (mem_rest1 _ (by decide) (by decide))).trans (W3_keep m aft c main_arg7 (by decide) (by decide) (by decide)),
      ((h c).2 main_arg8 (mem_rest1 _ (by decide) (by decide))).trans (W3_keep m aft c main_arg8 (by decide) (by decide) (by decide)),
      ((h c).2 main_arg9 (mem_rest1 _ (by decide) (by decide))).trans (W3_keep m aft c main_arg9 (by decide) (by decide) (by decide)),
      ((h c).2 main_arg10 (mem_rest1 _ (by decide) (by decide))).trans (W3_keep m aft c main_arg10 (by decide) (by decide) (by decide)),
      ((h c).2 main_arg11 (mem_rest1 _ (by decide) (by decide))).trans (W3_keep m aft c main_arg11 (by decide) (by decide) (by decide)),
      ((h c).2 main_arg12 (mem_rest1 _ (by decide) (by decide))).trans (W3_keep m aft c main_arg12 (by decide) (by decide) (by decide)),
      ((h c).2 main_arg13 (mem_rest1 _ (by decide) (by decide))).trans (W3_keep m aft c main_arg13 (by decide) (by decide) (by decide))⟩)
    (run_main m ρ aft hbody0)

end Cert.Kernel.Hand

end
-- ==== Proof.Frames.lean ====
/-
  The three frame claims. The kernel's program, at the word level and at the extended reals alike: the run of its four
  segments (host lines, the cell kernel's pipeline, host lines, the classifier's pipeline) ends with every argument
  array as launched. The reference: its run with the results dropped.
-/
import proofs.«135622_j82282983457014_2_alg».proof.Defs
import proofs.«135622_j82282983457014_2_alg».proof.Proof.Region0
import proofs.«135622_j82282983457014_2_alg».proof.Proof.KRegion0
import proofs.«135622_j82282983457014_2_alg».proof.Proof.RunRead
import proofs.«135622_j82282983457014_2_alg».proof.Proof.KRunRead
import proofs.«135622_j82282983457014_2_alg».proof.Proof.Gen.ReferenceIdeal.Run
import proofs.«135622_j82282983457014_2_alg».proof.Proof.Gen.Pre_finite_inputs

noncomputable section

namespace Cert.Proof.Claims

open Idealize.ShloMosaic Idealize.ShloMosaic.TcCoe Idealize.SL.Sem

/-- The word-level program runs and leaves its arguments as launched. -/
theorem frame_k : Cert.frame_Kernel := fun m ρ _ =>
  (θ_run (Cert.Kernel.defs (F := Bits)) _ _).mono (fun _ h c => (h c).2.2.2)
    (Cert.Kernel.Hand.run_read (F := Bits) m ρ (fun V c => (Cert.Kernel.Hand.dat0 V c).after)
      (fun V c => Cert.Kernel.Hand.body_obligation0 V c))

/-- So does the idealized program. -/
theorem frame_ki : Cert.frame_KernelIdeal := fun m ρ _ =>
  (θ_run (Cert.KernelIdeal.defs (F := Ideal)) _ _).mono (fun _ h c => (h c).2.2.2)
    (Cert.KernelIdeal.Hand.run_read (F := Ideal) m ρ (fun V c => (Cert.KernelIdeal.Hand.dat0 V c).after)
      (fun V c => Cert.KernelIdeal.Hand.body_obligation0 V c))

/-- The reference is host lines only: its run, the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

end Cert.Proof.Claims

end
-- ==== Proof.HostReads.lean ====
/-
  What the host lines leave in the arrays the two kernels read. Before the cell kernel: the embedding rows the token
  indices select (the gather, kept as one value), the hidden state, the upper and lower halves of each gate's weight —
  all narrowed to bf16 — and each bias as a one-row matrix. Before the classifier: the classifier's weight narrowed to
  bf16 and its bias as a one-row matrix.
-/
import proofs.«135622_j82282983457014_2_alg».proof.Proof.RunRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)
variable (aft : ((c : Dev nD) → (b : Ref sig .tc) → Buf (Elt F) ((c : Thread nD τ).loc b)) → (c : Dev nD) →
  (w : Fin cfg0.W) → Fin cfg0.N → (cfg0.win w).block.Idx → Elt F (cfg0.win w).elt)

/-- The embedding rows the token indices select: a negative index wrapped by the table's height, then the host's gather. -/
def xEmb (X : (⟨S2048, .i32⟩ : BufTy).Contents (Elt F)) (emb : (⟨S50257x2048, .f32⟩ : BufTy).Contents (Elt F)) :
    (⟨S2048x2048, .f32⟩ : BufTy).Contents (Elt F) :=
  Host.gather gather_S50257x2048_S2048x1_S2048x2048_1_0_n_n_0_1_12048 emb
    (broadcastInDim S2048x1 ![0] bcast_S2048_S2048x1_0
      (select (cmpi .slt X (broadcastInDim S2048 ![] bcast_S_S2048 (constantI S_ 32 0#32)))
        (addi X (broadcastInDim S2048 ![] bcast_S_S2048 (constantI S_ 32 50257#32))) X))

theorem W1_main_v7 (c : Dev nD) : W1 m c (Proc.devRef .tc main_v7)
    = truncf .bf16 (xEmb (W0 m c (Proc.devRef .tc main_arg0)) (W0 m c (Proc.devRef .tc main_arg3))) bitsLt_bf16_f32 := by
  after_results_simp <;> rfl
theorem W1_main_v8 (c : Dev nD) : W1 m c (Proc.devRef .tc main_v8)
    = truncf .bf16 (W0 m c (Proc.devRef .tc main_arg1)) bitsLt_bf16_f32 := by
  after_results_simp <;> rfl
theorem W1_main_v10 (c : Dev nD) : W1 m c (Proc.devRef .tc main_v10)
    = truncf .bf16 (extractStridedSlice S2048x2048 ![0, 0] (W0 m c (Proc.devRef .tc main_arg4)) slices_S4096x2048_S2048x2048_0_0) bitsLt_bf16_f32 := by
  after_results_simp <;> rfl
theorem W1_main_v12 (c : Dev nD) : W1 m c (Proc.devRef .tc main_v12)
    = truncf .bf16 (extractStridedSlice S2048x2048 ![2048, 0] (W0 m c (Proc.devRef .tc main_arg4)) slices_S4096x2048_S2048x2048_2048_0) bitsLt_bf16_f32 := by
  after_results_simp <;> rfl
theorem W1_main_v14 (c : Dev nD) : W1 m c (Proc.devRef .tc main_v14)
    = truncf .bf16 (extractStridedSlice S2048x2048 ![0, 0] (W0 m c (Proc.devRef .tc main_arg8)) slices_S4096x2048_S2048x2048_0_0) bitsLt_bf16_f32 := by
  after_results_simp <;> rfl
theorem W1_main_v16 (c : Dev nD) : W1 m c (Proc.devRef .tc main_v16)
    = truncf .bf16 (extractStridedSlice S2048x2048 ![2048, 0] (W0 m c (Proc.devRef .tc main_arg8)) slices_S4096x2048_S2048x2048_2048_0) bitsLt_bf16_f32 := by
  after_results_simp <;> rfl
theorem W1_main_v18 (c : Dev nD) : W1 m c (Proc.devRef .tc main_v18)
    = truncf .bf16 (extractStridedSlice S2048x2048 ![0, 0] (W0 m c (Proc.devRef .tc main_arg10)) slices_S4096x2048_S2048x2048_0_0) bitsLt_bf16_f32 := by
  after_results_simp <;> rfl
theorem W1_main_v20 (c : Dev nD) : W1 m c (Proc.devRef .tc main_v20)
    = truncf .bf16 (extractStridedSlice S2048x2048 ![2048, 0] (W0 m c (Proc.devRef .tc main_arg10)) slices_S4096x2048_S2048x2048_2048_0) bitsLt_bf16_f32 := by
  after_results_simp <;> rfl
theorem W1_main_v22 (c : Dev nD) : W1 m c (Proc.devRef .tc main_v22)
    = truncf .bf16 (extractStridedSlice S2048x2048 ![0, 0] (W0 m c (Proc.devRef .tc main_arg6)) slices_S4096x2048_S2048x2048_0_0) bitsLt_bf16_f32 := by
  after_results_simp <;> rfl
theorem W1_main_v24 (c : Dev nD) : W1 m c (Proc.devRef .tc main_v24)
    = truncf .bf16 (extractStridedSlice S2048x2048 ![2048, 0] (W0 m c (Proc.devRef .tc main_arg6)) slices_S4096x2048_S2048x2048_2048_0) bitsLt_bf16_f32 := by
  after_results_simp <;> rfl
theorem W1_main_v25 (c : Dev nD) : W1 m c (Proc.devRef .tc main_v25)
    = shapeCast S1x2048 (W0 m c (Proc.devRef .tc main_arg5)) shapeCasts_S2048_S1x2048 := by
  after_results_simp <;> rfl
theorem W1_main_v26 (c : Dev nD) : W1 m c (Proc.devRef .tc main_v26)
    = shapeCast S1x2048 (W0 m c (Proc.devRef .tc main_arg9)) shapeCasts_S2048_S1x2048 := by
  after_results_simp <;> rfl
theorem W1_main_v27 (c : Dev nD) : W1 m c (Proc.devRef .tc main_v27)
    = shapeCast S1x2048 (W0 m c (Proc.devRef .tc main_arg11)) shapeCasts_S2048_S1x2048 := by
  after_results_simp <;> rfl
theorem W1_main_v28 (c : Dev nD) : W1 m c (Proc.devRef .tc main_v28)
    = shapeCast S1x2048 (W0 m c (Proc.devRef .tc main_arg7)) shapeCasts_S2048_S1x2048 := by
  after_results_simp <;> rfl

/-- Before the classifier: its weight narrowed, its bias as a row; neither argument was touched by the cell kernel. -/
theorem W3_main_v30 (c : Dev nD) : W3 m aft c (Proc.devRef .tc main_v30)
    = truncf .bf16 (W0 m c (Proc.devRef .tc main_arg12)) bitsLt_bf16_f32 := by
  have e : W2 m aft c (Proc.devRef .tc main_arg12) = W0 m c (Proc.devRef .tc main_arg12) :=
    (W2_of_ne m aft c main_arg12 (by decide)).trans (W1_of m c main_arg12 (by decide))
  rw [← e]; after_results_simp <;> rfl
theorem W3_main_v31 (c : Dev nD) : W3 m aft c (Proc.devRef .tc main_v31)
    = shapeCast S1x50257 (W0 m c (Proc.devRef .tc main_arg13)) shapeCasts_S50257_S1x50257 := by
  have e : W2 m aft c (Proc.devRef .tc main_arg13) = W0 m c (Proc.devRef .tc main_arg13) :=
    (W2_of_ne m aft c main_arg13 (by decide)).trans (W1_of m c main_arg13 (by decide))
  rw [← e]; after_results_simp <;> rfl

end Cert.KernelIdeal.Hand

end
-- ==== Proof.Spec.lean ====
/-
  The LSTM-style cell and its classifier head as functions of the argument arrays, index by index, on the extended reals.

  With `x` the embedding rows the token indices select ([2048, 2048]), `h` and `c` the state, each gate's weight a
  [4096, 2048] matrix whose first 2048 rows meet `x` and whose last 2048 rows meet `h`, and each bias a length-2048 vector:

    pre W b (p, q)  = (∑ k, x(p,k) · W(k,q)) + (∑ k, h(p,k) · W(2048+k,q)) + b(q)
    c'   (p, q)     = σ(pre Wf bf) · c(p,q) + σ(pre Wig big) · tanh(pre Wi bi)
    h'   (p, q)     = σ(pre Wog bog) · tanh(c'(p,q))
    y    (p, v)     = (∑ k, h'(p,k) · Wcls(k,v)) + bcls(v)

  where σ is the logistic function. One law is proved here: a sum over 4096 positions whose first 2048 terms come from one
  family and whose last 2048 from another is the sum of the two sums — on the extended reals this needs only that
  addition is commutative and associative, no finiteness.
-/
import Idealize.ShloMosaic.PureOps.Ideal
import Idealize.ShloMosaic.Lib.ValueIdx

noncomputable section

open scoped BigOperators

namespace Cert.Lstm

open Idealize.ShloMosaic Idealize.ShloMosaic.ValueIdx

/-- Row `k` of a gate weight's upper half (the rows that meet the embedding). -/
abbrev up (k : Fin 2048) : Fin 4096 := ⟨k.val, by omega⟩
/-- Row `k` of a gate weight's lower half (the rows that meet the hidden state). -/
abbrev lo (k : Fin 2048) : Fin 4096 := ⟨2048 + k.val, by omega⟩

/-- A gate's pre-activation at batch row `p` and feature `q`. -/
def pre (x h : (⟨2, ![2048, 2048]⟩ : Shape).Idx → EReal) (W : (⟨2, ![4096, 2048]⟩ : Shape).Idx → EReal)
    (b : (⟨1, ![2048]⟩ : Shape).Idx → EReal) (p q : Fin 2048) : EReal :=
  ((∑ k : Fin 2048, x (ix2 p k) * W (ix2 (up k) q)) + (∑ k : Fin 2048, h (ix2 p k) * W (ix2 (lo k) q))) + b (ix1 q)

/-- The new cell state. -/
def cNew (x h c : (⟨2, ![2048, 2048]⟩ : Shape).Idx → EReal)
    (Wf : (⟨2, ![4096, 2048]⟩ : Shape).Idx → EReal) (bf : (⟨1, ![2048]⟩ : Shape).Idx → EReal)
    (Wi : (⟨2, ![4096, 2048]⟩ : Shape).Idx → EReal) (bi : (⟨1, ![2048]⟩ : Shape).Idx → EReal)
    (Wig : (⟨2, ![4096, 2048]⟩ : Shape).Idx → EReal) (big : (⟨1, ![2048]⟩ : Shape).Idx → EReal)
    (p q : Fin 2048) : EReal :=
  Ideal.logistic (pre x h Wf bf p q) * c (ix2 p q) + Ideal.logistic (pre x h Wig big p q) * Ideal.tanh (pre x h Wi bi p q)

/-- The new hidden state. -/
def hNew (x h c : (⟨2, ![2048, 2048]⟩ : Shape).Idx → EReal)
    (Wf : (⟨2, ![4096, 2048]⟩ : Shape).Idx → EReal) (bf : (⟨1, ![2048]⟩ : Shape).Idx → EReal)
    (Wi : (⟨2, ![4096, 2048]⟩ : Shape).Idx → EReal) (bi : (⟨1, ![2048]⟩ : Shape).Idx → EReal)
    (Wig : (⟨2, ![4096, 2048]⟩ : Shape).Idx → EReal) (big : (⟨1, ![2048]⟩ : Shape).Idx → EReal)
    (Wog : (⟨2, ![4096, 2048]⟩ : Shape).Idx → EReal) (bog : (⟨1, ![2048]⟩ : Shape).Idx → EReal)
    (p q : Fin 2048) : EReal :=
  Ideal.logistic (pre x h Wog bog p q) * Ideal.tanh (cNew x h c Wf bf Wi bi Wig big p q)

/-- The classifier's logits, from any hidden state `hn`. -/
def logits (hn : Fin 2048 → Fin 2048 → EReal) (Wcls : (⟨2, ![2048, 50257]⟩ : Shape).Idx → EReal)
    (bcls : (⟨1, ![50257]⟩ : Shape).Idx → EReal) (p : Fin 2048) (v : Fin 50257) : EReal :=
  (∑ k : Fin 2048, hn p k * Wcls (ix2 k v)) + bcls (ix1 v)

/-- A sum over 4096 positions splits at 2048: the first half read through `up`, the second through `lo`. -/
theorem sum_split (f : Fin 4096 → EReal) :
    ∑ k : Fin 4096, f k = (∑ k : Fin 2048, f (up k)) + (∑ k : Fin 2048, f (lo k)) := by
  exact Fin.sum_univ_add (M := EReal) (a := 2048) (b := 2048) f

end Cert.Lstm

end
-- ==== Proof.CellIndex.lean ====
/-
  The cell kernel's input blocks, read at an index, in terms of the argument arrays (at the extended reals, where a
  change of float format is the identity). At grid point `t` the result block is rows `rowOf t ·` and columns
  `colOf t ·` of the [2048, 2048] results; the embedding and hidden-state blocks are those rows, all 2048 columns;
  the cell-state block is those rows and columns; each half-weight block is all 2048 rows and those columns of the
  upper or lower half of its gate's weight; each bias block is those entries of its gate's bias.
-/
import proofs.«135622_j82282983457014_2_alg».proof.Proof.Region0
import proofs.«135622_j82282983457014_2_alg».proof.Proof.HostReads
import Idealize.ShloMosaic.Lib.Pipeline.Value
import Idealize.ShloMosaic.Lib.ValueIdx
import proofs.«135622_j82282983457014_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx

variable (m : (ℓ : Loc nD τ sig) → Buf (Elt Ideal) ℓ)

/-- The result blocks' indices stay in range over the grid. -/
theorem bnd16 : ∀ t : Fin cfg0.N, win0_16.index t (0 : Fin 2) ≤ 3 ∧ win0_16.index t (1 : Fin 2) ≤ 7 :=
  (by decide +kernel : ∀ t : Fin grid0.N, _)

/-- The array row of row `i` of the result block at point `t`, -/
def rowOf (t : Fin cfg0.N) (i : Fin 512) : Fin 2048 :=
  ⟨win0_16.index t (0 : Fin 2) * 512 + i.val, by have h := (bnd16 t).1; have hi := i.isLt; omega⟩
/-- and the array column of its column `j`. -/
def colOf (t : Fin cfg0.N) (j : Fin 256) : Fin 2048 :=
  ⟨win0_16.index t (1 : Fin 2) * 256 + j.val, by have h := (bnd16 t).2; have hj := j.isLt; omega⟩

theorem idx_0 : ∀ t : Fin cfg0.N, win0_0.index t (0 : Fin 2) = win0_16.index t (0 : Fin 2) ∧ win0_0.index t (1 : Fin 2) = 0 :=
  (by decide +kernel : ∀ t : Fin grid0.N, _)
theorem idx_1 : ∀ t : Fin cfg0.N, win0_1.index t (0 : Fin 2) = win0_16.index t (0 : Fin 2) ∧ win0_1.index t (1 : Fin 2) = 0 :=
  (by decide +kernel : ∀ t : Fin grid0.N, _)
theorem idx_2 : ∀ t : Fin cfg0.N, win0_2.index t (0 : Fin 2) = win0_16.index t (0 : Fin 2) ∧ win0_2.index t (1 : Fin 2) = win0_16.index t (1 : Fin 2) :=
  (by decide +kernel : ∀ t : Fin grid0.N, _)
theorem idx_15 : ∀ t : Fin cfg0.N, win0_15.index t (0 : Fin 2) = win0_16.index t (0 : Fin 2) ∧ win0_15.index t (1 : Fin 2) = win0_16.index t (1 : Fin 2) :=
  (by decide +kernel : ∀ t : Fin grid0.N, _)
theorem idx_17 : ∀ t : Fin cfg0.N, win0_17.index t (0 : Fin 2) = win0_16.index t (0 : Fin 2) ∧ win0_17.index t (1 : Fin 2) = win0_16.index t (1 : Fin 2) :=
  (by decide +kernel : ∀ t : Fin grid0.N, _)
theorem idx_3 : ∀ t : Fin cfg0.N, win0_3.index t (0 : Fin 2) = 0 ∧ win0_3.index t (1 : Fin 2) = win0_16.index t (1 : Fin 2) :=
  (by decide +kernel : ∀ t : Fin grid0.N, _)
theorem idx_4 : ∀ t : Fin cfg0.N, win0_4.index t (0 : Fin 2) = 0 ∧ win0_4.index t (1 : Fin 2) = win0_16.index t (1 : Fin 2) :=
  (by decide +kernel : ∀ t : Fin grid0.N, _)
theorem idx_5 : ∀ t : Fin cfg0.N, win0_5.index t (0 : Fin 2) = 0 ∧ win0_5.index t (1 : Fin 2) = win0_16.index t (1 : Fin 2) :=
  (by decide +kernel : ∀ t : Fin grid0.N, _)
theorem idx_6 : ∀ t : Fin cfg0.N, win0_6.index t (0 : Fin 2) = 0 ∧ win0_6.index t (1 : Fin 2) = win0_16.index t (1 : Fin 2) :=
  (by decide +kernel : ∀ t : Fin grid0.N, _)
theorem idx_7 : ∀ t : Fin cfg0.N, win0_7.index t (0 : Fin 2) = 0 ∧ win0_7.index t (1 : Fin 2) = win0_16.index t (1 : Fin 2) :=
  (by decide +kernel : ∀ t : Fin grid0.N, _)
theorem idx_8 : ∀ t : Fin cfg0.N, win0_8.index t (0 : Fin 2) = 0 ∧ win0_8.index t (1 : Fin 2) = win0_16.index t (1 : Fin 2) :=
  (by decide +kernel : ∀ t : Fin grid0.N, _)
theorem idx_9 : ∀ t : Fin cfg0.N, win0_9.index t (0 : Fin 2) = 0 ∧ win0_9.index t (1 : Fin 2) = win0_16.index t (1 : Fin 2) :=
  (by decide +kernel : ∀ t : Fin grid0.N, _)
theorem idx_10 : ∀ t : Fin cfg0.N, win0_10.index t (0 : Fin 2) = 0 ∧ win0_10.index t (1 : Fin 2) = win0_16.index t (1 : Fin 2) :=
  (by decide +kernel : ∀ t : Fin grid0.N, _)
theorem idx_11 : ∀ t : Fin cfg0.N, win0_11.index t (0 : Fin 2) = 0 ∧ win0_11.index t (1 : Fin 2) = win0_16.index t (1 : Fin 2) :=
  (by decide +kernel : ∀ t : Fin grid0.N, _)
theorem idx_12 : ∀ t : Fin cfg0.N, win0_12.index t (0 : Fin 2) = 0 ∧ win0_12.index t (1 : Fin 2) = win0_16.index t (1 : Fin 2) :=
  (by decide +kernel : ∀ t : Fin grid0.N, _)
theorem idx_13 : ∀ t : Fin cfg0.N, win0_13.index t (0 : Fin 2) = 0 ∧ win0_13.index t (1 : Fin 2) = win0_16.index t (1 : Fin 2) :=
  (by decide +kernel : ∀ t : Fin grid0.N, _)
theorem idx_14 : ∀ t : Fin cfg0.N, win0_14.index t (0 : Fin 2) = 0 ∧ win0_14.index t (1 : Fin 2) = win0_16.index t (1 : Fin 2) :=
  (by decide +kernel : ∀ t : Fin grid0.N, _)

/-- The embedding block: rows `rowOf t ·` of the gathered embedding rows. -/
theorem blk0_at (c : Dev nD) (t : Fin cfg0.N) (i : Fin 512) (k : Fin 2048) :
    iblk0 (V1 m) c 0 t (ix2 i k) = xEmb (W0 m c (Proc.devRef .tc main_arg0)) (W0 m c (Proc.devRef .tc main_arg3)) (ix2 (rowOf t i) k) := by
  unfold iblk0
  rw [View.read_apply]
  have e : ((cfg0.win 0).blk t).view.emb (ix2 i k) = ix2 (rowOf t i) k := by
    funext a; apply Fin.ext
    obtain ⟨e0, e1⟩ := idx_0 t
    match a with
    | ⟨0, _⟩ => show win0_0.index t (0 : Fin 2) * 512 + 1 * i.val = win0_16.index t (0 : Fin 2) * 512 + i.val; omega
    | ⟨1, _⟩ => show win0_0.index t (1 : Fin 2) * 2048 + 1 * k.val = k.val; omega
  rw [e]
  show W1 m c (Proc.devRef .tc main_v7) (ix2 (rowOf t i) k) = _
  rw [W1_main_v7]; rfl

/-- The hidden-state block: rows `rowOf t ·` of `h`. -/
theorem blk1_at (c : Dev nD) (t : Fin cfg0.N) (i : Fin 512) (k : Fin 2048) :
    iblk0 (V1 m) c 1 t (ix2 i k) = W0 m c (Proc.devRef .tc main_arg1) (ix2 (rowOf t i) k) := by
  unfold iblk0
  rw [View.read_apply]
  have e : ((cfg0.win 1).blk t).view.emb (ix2 i k) = ix2 (rowOf t i) k := by
    funext a; apply Fin.ext
    obtain ⟨e0, e1⟩ := idx_1 t
    match a with
    | ⟨0, _⟩ => show win0_1.index t (0 : Fin 2) * 512 + 1 * i.val = win0_16.index t (0 : Fin 2) * 512 + i.val; omega
    | ⟨1, _⟩ => show win0_1.index t (1 : Fin 2) * 2048 + 1 * k.val = k.val; omega
  rw [e]
  show W1 m c (Proc.devRef .tc main_v8) (ix2 (rowOf t i) k) = _
  rw [W1_main_v8]; rfl

/-- The cell-state block: rows `rowOf t ·`, columns `colOf t ·` of `c`. -/
theorem blk2_at (c : Dev nD) (t : Fin cfg0.N) (i : Fin 512) (j : Fin 256) :
    iblk0 (V1 m) c 2 t (ix2 i j) = W0 m c (Proc.devRef .tc main_arg2) (ix2 (rowOf t i) (colOf t j)) := by
  unfold iblk0
  rw [View.read_apply]
  have e : ((cfg0.win 2).blk t).view.emb (ix2 i j) = ix2 (rowOf t i) (colOf t j) := by
    funext a; apply Fin.ext
    obtain ⟨e0, e1⟩ := idx_2 t
    match a with
    | ⟨0, _⟩ => show win0_2.index t (0 : Fin 2) * 512 + 1 * i.val = win0_16.index t (0 : Fin 2) * 512 + i.val; omega
    | ⟨1, _⟩ => show win0_2.index t (1 : Fin 2) * 256 + 1 * j.val = win0_16.index t (1 : Fin 2) * 256 + j.val; omega
  rw [e]
  show W1 m c (Proc.devRef .tc main_arg2) (ix2 (rowOf t i) (colOf t j)) = _
  rw [W1_of m c main_arg2 (by decide)]

/-- Window 3's block: all rows, columns `colOf t ·` of the upper half of argument 4. -/
theorem blk3_at (c : Dev nD) (t : Fin cfg0.N) (k : Fin 2048) (j : Fin 256) :
    iblk0 (V1 m) c 3 t (ix2 k j) = W0 m c (Proc.devRef .tc main_arg4) (ix2 (Cert.Lstm.up k) (colOf t j)) := by
  unfold iblk0
  rw [View.read_apply]
  have e : ((cfg0.win 3).blk t).view.emb (ix2 k j) = ix2 k (colOf t j) := by
    funext a; apply Fin.ext
    obtain ⟨e0, e1⟩ := idx_3 t
    match a with
    | ⟨0, _⟩ => show win0_3.index t (0 : Fin 2) * 2048 + 1 * k.val = k.val; omega
    | ⟨1, _⟩ => show win0_3.index t (1 : Fin 2) * 256 + 1 * j.val = win0_16.index t (1 : Fin 2) * 256 + j.val; omega
  rw [e]
  show W1 m c (Proc.devRef .tc main_v10) (ix2 k (colOf t j)) = _
  rw [W1_main_v10]
  exact extractStridedSlice_apply (s := S4096x2048) (t := S2048x2048) ![0, 0] _ slices_S4096x2048_S2048x2048_0_0 (ix2 k (colOf t j)) (ix2 (Cert.Lstm.up k) (colOf t j)) (fun a => by
    match a with
    | ⟨0, _⟩ => show k.val = 0 + k.val; omega
    | ⟨1, _⟩ => show (colOf t j).val = 0 + (colOf t j).val; omega)

/-- Window 4's block: all rows, columns `colOf t ·` of the lower half of argument 4. -/
theorem blk4_at (c : Dev nD) (t : Fin cfg0.N) (k : Fin 2048) (j : Fin 256) :
    iblk0 (V1 m) c 4 t (ix2 k j) = W0 m c (Proc.devRef .tc main_arg4) (ix2 (Cert.Lstm.lo k) (colOf t j)) := by
  unfold iblk0
  rw [View.read_apply]
  have e : ((cfg0.win 4).blk t).view.emb (ix2 k j) = ix2 k (colOf t j) := by
    funext a; apply Fin.ext
    obtain ⟨e0, e1⟩ := idx_4 t
    match a with
    | ⟨0, _⟩ => show win0_4.index t (0 : Fin 2) * 2048 + 1 * k.val = k.val; omega
    | ⟨1, _⟩ => show win0_4.index t (1 : Fin 2) * 256 + 1 * j.val = win0_16.index t (1 : Fin 2) * 256 + j.val; omega
  rw [e]
  show W1 m c (Proc.devRef .tc main_v12) (ix2 k (colOf t j)) = _
  rw [W1_main_v12]
  exact extractStridedSlice_apply (s := S4096x2048) (t := S2048x2048) ![2048, 0] _ slices_S4096x2048_S2048x2048_2048_0 (ix2 k (colOf t j)) (ix2 (Cert.Lstm.lo k) (colOf t j)) (fun a => by
    match a with
    | ⟨0, _⟩ => show 2048 + k.val = 2048 + k.val; omega
    | ⟨1, _⟩ => show (colOf t j).val = 0 + (colOf t j).val; omega)

/-- Window 6's block: all rows, columns `colOf t ·` of the upper half of argument 8. -/
theorem blk6_at (c : Dev nD) (t : Fin cfg0.N) (k : Fin 2048) (j : Fin 256) :
    iblk0 (V1 m) c 6 t (ix2 k j) = W0 m c (Proc.devRef .tc main_arg8) (ix2 (Cert.Lstm.up k) (colOf t j)) := by
  unfold iblk0
  rw [View.read_apply]
  have e : ((cfg0.win 6).blk t).view.emb (ix2 k j) = ix2 k (colOf t j) := by
    funext a; apply Fin.ext
    obtain ⟨e0, e1⟩ := idx_6 t
    match a with
    | ⟨0, _⟩ => show win0_6.index t (0 : Fin 2) * 2048 + 1 * k.val = k.val; omega
    | ⟨1, _⟩ => show win0_6.index t (1 : Fin 2) * 256 + 1 * j.val = win0_16.index t (1 : Fin 2) * 256 + j.val; omega
  rw [e]
  show W1 m c (Proc.devRef .tc main_v14) (ix2 k (colOf t j)) = _
  rw [W1_main_v14]
  exact extractStridedSlice_apply (s := S4096x2048) (t := S2048x2048) ![0, 0] _ slices_S4096x2048_S2048x2048_0_0 (ix2 k (colOf t j)) (ix2 (Cert.Lstm.up k) (colOf t j)) (fun a => by
    match a with
    | ⟨0, _⟩ => show k.val = 0 + k.val; omega
    | ⟨1, _⟩ => show (colOf t j).val = 0 + (colOf t j).val; omega)

/-- Window 7's block: all rows, columns `colOf t ·` of the lower half of argument 8. -/
theorem blk7_at (c : Dev nD) (t : Fin cfg0.N) (k : Fin 2048) (j : Fin 256) :
    iblk0 (V1 m) c 7 t (ix2 k j) = W0 m c (Proc.devRef .tc main_arg8) (ix2 (Cert.Lstm.lo k) (colOf t j)) := by
  unfold iblk0
  rw [View.read_apply]
  have e : ((cfg0.win 7).blk t).view.emb (ix2 k j) = ix2 k (colOf t j) := by
    funext a; apply Fin.ext
    obtain ⟨e0, e1⟩ := idx_7 t
    match a with
    | ⟨0, _⟩ => show win0_7.index t (0 : Fin 2) * 2048 + 1 * k.val = k.val; omega
    | ⟨1, _⟩ => show win0_7.index t (1 : Fin 2) * 256 + 1 * j.val = win0_16.index t (1 : Fin 2) * 256 + j.val; omega
  rw [e]
  show W1 m c (Proc.devRef .tc main_v16) (ix2 k (colOf t j)) = _
  rw [W1_main_v16]
  exact extractStridedSlice_apply (s := S4096x2048) (t := S2048x2048) ![2048, 0] _ slices_S4096x2048_S2048x2048_2048_0 (ix2 k (colOf t j)) (ix2 (Cert.Lstm.lo k) (colOf t j)) (fun a => by
    match a with
    | ⟨0, _⟩ => show 2048 + k.val = 2048 + k.val; omega
    | ⟨1, _⟩ => show (colOf t j).val = 0 + (colOf t j).val; omega)

/-- Window 9's block: all rows, columns `colOf t ·` of the upper half of argument 10. -/
theorem blk9_at (c : Dev nD) (t : Fin cfg0.N) (k : Fin 2048) (j : Fin 256) :
    iblk0 (V1 m) c 9 t (ix2 k j) = W0 m c (Proc.devRef .tc main_arg10) (ix2 (Cert.Lstm.up k) (colOf t j)) := by
  unfold iblk0
  rw [View.read_apply]
  have e : ((cfg0.win 9).blk t).view.emb (ix2 k j) = ix2 k (colOf t j) := by
    funext a; apply Fin.ext
    obtain ⟨e0, e1⟩ := idx_9 t
    match a with
    | ⟨0, _⟩ => show win0_9.index t (0 : Fin 2) * 2048 + 1 * k.val = k.val; omega
    | ⟨1, _⟩ => show win0_9.index t (1 : Fin 2) * 256 + 1 * j.val = win0_16.index t (1 : Fin 2) * 256 + j.val; omega
  rw [e]
  show W1 m c (Proc.devRef .tc main_v18) (ix2 k (colOf t j)) = _
  rw [W1_main_v18]
  exact extractStridedSlice_apply (s := S4096x2048) (t := S2048x2048) ![0, 0] _ slices_S4096x2048_S2048x2048_0_0 (ix2 k (colOf t j)) (ix2 (Cert.Lstm.up k) (colOf t j)) (fun a => by
    match a with
    | ⟨0, _⟩ => show k.val = 0 + k.val; omega
    | ⟨1, _⟩ => show (colOf t j).val = 0 + (colOf t j).val; omega)

/-- Window 10's block: all rows, columns `colOf t ·` of the lower half of argument 10. -/
theorem blk10_at (c : Dev nD) (t : Fin cfg0.N) (k : Fin 2048) (j : Fin 256) :
    iblk0 (V1 m) c 10 t (ix2 k j) = W0 m c (Proc.devRef .tc main_arg10) (ix2 (Cert.Lstm.lo k) (colOf t j)) := by
  unfold iblk0
  rw [View.read_apply]
  have e : ((cfg0.win 10).blk t).view.emb (ix2 k j) = ix2 k (colOf t j) := by
    funext a; apply Fin.ext
    obtain ⟨e0, e1⟩ := idx_10 t
    match a with
    | ⟨0, _⟩ => show win0_10.index t (0 : Fin 2) * 2048 + 1 * k.val = k.val; omega
    | ⟨1, _⟩ => show win0_10.index t (1 : Fin 2) * 256 + 1 * j.val = win0_16.index t (1 : Fin 2) * 256 + j.val; omega
  rw [e]
  show W1 m c (Proc.devRef .tc main_v20) (ix2 k (colOf t j)) = _
  rw [W1_main_v20]
  exact extractStridedSlice_apply (s := S4096x2048) (t := S2048x2048) ![2048, 0] _ slices_S4096x2048_S2048x2048_2048_0 (ix2 k (colOf t j)) (ix2 (Cert.Lstm.lo k) (colOf t j)) (fun a => by
    match a with
    | ⟨0, _⟩ => show 2048 + k.val = 2048 + k.val; omega
    | ⟨1, _⟩ => show (colOf t j).val = 0 + (colOf t j).val; omega)

/-- Window 12's block: all rows, columns `colOf t ·` of the upper half of argument 6. -/
theorem blk12_at (c : Dev nD) (t : Fin cfg0.N) (k : Fin 2048) (j : Fin 256) :
    iblk0 (V1 m) c 12 t (ix2 k j) = W0 m c (Proc.devRef .tc main_arg6) (ix2 (Cert.Lstm.up k) (colOf t j)) := by
  unfold iblk0
  rw [View.read_apply]
  have e : ((cfg0.win 12).blk t).view.emb (ix2 k j) = ix2 k (colOf t j) := by
    funext a; apply Fin.ext
    obtain ⟨e0, e1⟩ := idx_12 t
    match a with
    | ⟨0, _⟩ => show win0_12.index t (0 : Fin 2) * 2048 + 1 * k.val = k.val; omega
    | ⟨1, _⟩ => show win0_12.index t (1 : Fin 2) * 256 + 1 * j.val = win0_16.index t (1 : Fin 2) * 256 + j.val; omega
  rw [e]
  show W1 m c (Proc.devRef .tc main_v22) (ix2 k (colOf t j)) = _
  rw [W1_main_v22]
  exact extractStridedSlice_apply (s := S4096x2048) (t := S2048x2048) ![0, 0] _ slices_S4096x2048_S2048x2048_0_0 (ix2 k (colOf t j)) (ix2 (Cert.Lstm.up k) (colOf t j)) (fun a => by
    match a with
    | ⟨0, _⟩ => show k.val = 0 + k.val; omega
    | ⟨1, _⟩ => show (colOf t j).val = 0 + (colOf t j).val; omega)

/-- Window 13's block: all rows, columns `colOf t ·` of the lower half of argument 6. -/
theorem blk13_at (c : Dev nD) (t : Fin cfg0.N) (k : Fin 2048) (j : Fin 256) :
    iblk0 (V1 m) c 13 t (ix2 k j) = W0 m c (Proc.devRef .tc main_arg6) (ix2 (Cert.Lstm.lo k) (colOf t j)) := by
  unfold iblk0
  rw [View.read_apply]
  have e : ((cfg0.win 13).blk t).view.emb (ix2 k j) = ix2 k (colOf t j) := by
    funext a; apply Fin.ext
    obtain ⟨e0, e1⟩ := idx_13 t
    match a with
    | ⟨0, _⟩ => show win0_13.index t (0 : Fin 2) * 2048 + 1 * k.val = k.val; omega
    | ⟨1, _⟩ => show win0_13.index t (1 : Fin 2) * 256 + 1 * j.val = win0_16.index t (1 : Fin 2) * 256 + j.val; omega
  rw [e]
  show W1 m c (Proc.devRef .tc main_v24) (ix2 k (colOf t j)) = _
  rw [W1_main_v24]
  exact extractStridedSlice_apply (s := S4096x2048) (t := S2048x2048) ![2048, 0] _ slices_S4096x2048_S2048x2048_2048_0 (ix2 k (colOf t j)) (ix2 (Cert.Lstm.lo k) (colOf t j)) (fun a => by
    match a with
    | ⟨0, _⟩ => show 2048 + k.val = 2048 + k.val; omega
    | ⟨1, _⟩ => show (colOf t j).val = 0 + (colOf t j).val; omega)

/-- Window 5's block: entries `colOf t ·` of argument 5. -/
theorem blk5_at (c : Dev nD) (t : Fin cfg0.N) (j : Fin 256) :
    iblk0 (V1 m) c 5 t (ix2 0 j) = W0 m c (Proc.devRef .tc main_arg5) (ix1 (colOf t j)) := by
  unfold iblk0
  rw [View.read_apply]
  have e : ((cfg0.win 5).blk t).view.emb (ix2 0 j) = ix2 0 (colOf t j) := by
    funext a; apply Fin.ext
    obtain ⟨e0, e1⟩ := idx_5 t
    match a with
    | ⟨0, _⟩ => show win0_5.index t (0 : Fin 2) * 1 + 1 * 0 = 0; omega
    | ⟨1, _⟩ => show win0_5.index t (1 : Fin 2) * 256 + 1 * j.val = win0_16.index t (1 : Fin 2) * 256 + j.val; omega
  rw [e]
  show W1 m c (Proc.devRef .tc main_v25) (ix2 0 (colOf t j)) = _
  rw [W1_main_v25]
  refine (shapeCast_addUnit_apply ![2048] _ _ _).trans (congrArg _ ?_)
  funext a; match a with | ⟨0, _⟩ => rfl

/-- Window 8's block: entries `colOf t ·` of argument 9. -/
theorem blk8_at (c : Dev nD) (t : Fin cfg0.N) (j : Fin 256) :
    iblk0 (V1 m) c 8 t (ix2 0 j) = W0 m c (Proc.devRef .tc main_arg9) (ix1 (colOf t j)) := by
  unfold iblk0
  rw [View.read_apply]
  have e : ((cfg0.win 8).blk t).view.emb (ix2 0 j) = ix2 0 (colOf t j) := by
    funext a; apply Fin.ext
    obtain ⟨e0, e1⟩ := idx_8 t
    match a with
    | ⟨0, _⟩ => show win0_8.index t (0 : Fin 2) * 1 + 1 * 0 = 0; omega
    | ⟨1, _⟩ => show win0_8.index t (1 : Fin 2) * 256 + 1 * j.val = win0_16.index t (1 : Fin 2) * 256 + j.val; omega
  rw [e]
  show W1 m c (Proc.devRef .tc main_v26) (ix2 0 (colOf t j)) = _
  rw [W1_main_v26]
  refine (shapeCast_addUnit_apply ![2048] _ _ _).trans (congrArg _ ?_)
  funext a; match a with | ⟨0, _⟩ => rfl

/-- Window 11's block: entries `colOf t ·` of argument 11. -/
theorem blk11_at (c : Dev nD) (t : Fin cfg0.N) (j : Fin 256) :
    iblk0 (V1 m) c 11 t (ix2 0 j) = W0 m c (Proc.devRef .tc main_arg11) (ix1 (colOf t j)) := by
  unfold iblk0
  rw [View.read_apply]
  have e : ((cfg0.win 11).blk t).view.emb (ix2 0 j) = ix2 0 (colOf t j) := by
    funext a; apply Fin.ext
    obtain ⟨e0, e1⟩ := idx_11 t
    match a with
    | ⟨0, _⟩ => show win0_11.index t (0 : Fin 2) * 1 + 1 * 0 = 0; omega
    | ⟨1, _⟩ => show win0_11.index t (1 : Fin 2) * 256 + 1 * j.val = win0_16.index t (1 : Fin 2) * 256 + j.val; omega
  rw [e]
  show W1 m c (Proc.devRef .tc main_v27) (ix2 0 (colOf t j)) = _
  rw [W1_main_v27]
  refine (shapeCast_addUnit_apply ![2048] _ _ _).trans (congrArg _ ?_)
  funext a; match a with | ⟨0, _⟩ => rfl

/-- Window 14's block: entries `colOf t ·` of argument 7. -/
theorem blk14_at (c : Dev nD) (t : Fin cfg0.N) (j : Fin 256) :
    iblk0 (V1 m) c 14 t (ix2 0 j) = W0 m c (Proc.devRef .tc main_arg7) (ix1 (colOf t j)) := by
  unfold iblk0
  rw [View.read_apply]
  have e : ((cfg0.win 14).blk t).view.emb (ix2 0 j) = ix2 0 (colOf t j) := by
    funext a; apply Fin.ext
    obtain ⟨e0, e1⟩ := idx_14 t
    match a with
    | ⟨0, _⟩ => show win0_14.index t (0 : Fin 2) * 1 + 1 * 0 = 0; omega
    | ⟨1, _⟩ => show win0_14.index t (1 : Fin 2) * 256 + 1 * j.val = win0_16.index t (1 : Fin 2) * 256 + j.val; omega
  rw [e]
  show W1 m c (Proc.devRef .tc main_v28) (ix2 0 (colOf t j)) = _
  rw [W1_main_v28]
  refine (shapeCast_addUnit_apply ![2048] _ _ _).trans (congrArg _ ?_)
  funext a; match a with | ⟨0, _⟩ => rfl

end Cert.KernelIdeal.Hand

end
-- ==== Proof.CellBlock.lean ====
/- The recurrent cell's block arithmetic on the extended reals. With a, b the two 512 × 2048 activation blocks, each gate's
   pre-activation on the block is a·W + b·W' + bias for its pair of 2048 × 256 weight blocks and its 1 × 256 bias row; at a
   block position (i, j) that is (∑ k, a(i,k)·W(k,j)) + (∑ k, b(i,k)·W'(k,j)) + bias(0,j), grouped exactly so. When the
   blocks are the rows ρ(i) and columns γ(j) of the whole arrays — the weight blocks the upper and the lower 2048 rows of a
   4096-row matrix — the three stored blocks are the new cell state, the new hidden state and the new hidden state again
   (narrowing a float format is the identity on extended reals) at (ρ i, γ j). No finiteness is used. -/
import proofs.«135622_j82282983457014_2_alg».proof.Proof.Region0B
import proofs.«135622_j82282983457014_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

/-! ## The two operations that are not pointwise -/

/-- The zero offsets of a whole-buffer access, however spelt. -/
theorem offsets_zero : (![0, 0] : Fin 2 → Nat) = fun _ => 0 := by
  funext a
  match a with
  | ⟨0, _⟩ => rfl
  | ⟨1, _⟩ => rfl

/-- The left operand's row coordinate at output position `p` is `p`'s row. -/
theorem lhs_row (p : S512x256.Idx) (q : dot_S512x2048_S2048x256_S512x256_1_0_0_1_n_n.contr.Idx) :
    (dot_S512x2048_S2048x256_S512x256_1_0_0_1_n_n.lhsIdx p q 0).val = (p 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl

/-- The right operand's column coordinate at output position `p` is `p`'s column. -/
theorem rhs_col (p : S512x256.Idx) (q : dot_S512x2048_S2048x256_S512x256_1_0_0_1_n_n.contr.Idx) :
    (dot_S512x2048_S2048x256_S512x256_1_0_0_1_n_n.rhsIdx p q 1).val = (p 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- A 512 × 2048 by 2048 × 256 product accumulated into the zero splat, at block position (i, j): the sum over the 2048
    contraction positions. -/
theorem mm_at (a : FVec Ideal S512x2048 .bf16) (b : FVec Ideal S2048x256 .bf16) (i : Fin 512) (j : Fin 256) :
    matmul dot_S512x2048_S2048x256_S512x256_1_0_0_1_n_n none a b (constant (F := Ideal) S512x256 .f32 0x00000000#32) (ix2 i j)
      = ∑ k : Fin 2048, a (ix2 i k) * b (ix2 k j) := by
  show FloatOps.matmul dot_S512x2048_S2048x256_S512x256_1_0_0_1_n_n none a b (constant (F := Ideal) S512x256 .f32 0x00000000#32) (ix2 i j) = _
  rw [Ideal.matmul_constant_zero_apply, ← Equiv.sum_comp (contrEquiv1 dot_S512x2048_S2048x256_S512x256_1_0_0_1_n_n 2048 rfl rfl).symm]
  refine Finset.sum_congr rfl fun k _ => ?_
  have hk := contrEquiv1_symm_val dot_S512x2048_S2048x256_S512x256_1_0_0_1_n_n 2048 rfl rfl k
  have el : dot_S512x2048_S2048x256_S512x256_1_0_0_1_n_n.lhsIdx (ix2 i j) ((contrEquiv1 dot_S512x2048_S2048x256_S512x256_1_0_0_1_n_n 2048 rfl rfl).symm k) = ix2 i k := funext fun c => Fin.ext (by
    match c with
    | ⟨0, _⟩ => exact lhs_row _ _
    | ⟨1, _⟩ => exact (dot_S512x2048_S2048x256_S512x256_1_0_0_1_n_n.lhsIdx_val_of_single rfl (ix2 i j) _).trans hk)
  have er : dot_S512x2048_S2048x256_S512x256_1_0_0_1_n_n.rhsIdx (ix2 i j) ((contrEquiv1 dot_S512x2048_S2048x256_S512x256_1_0_0_1_n_n 2048 rfl rfl).symm k) = ix2 k j := funext fun c => Fin.ext (by
    match c with
    | ⟨0, _⟩ => exact (dot_S512x2048_S2048x256_S512x256_1_0_0_1_n_n.rhsIdx_val_of_single rfl (ix2 i j) _).trans hk
    | ⟨1, _⟩ => exact rhs_col _ _)
  rw [el, er]

/-- A 1 × 256 bias row laid along the 512 rows of the block, at block position (i, j): the row's entry j. -/
theorem bias_at (v : Vec Ideal S1x256 .f32) (i : Fin 512) (j : Fin 256) :
    broadcastTo S512x256 (shapeCast S1x256 v shapeCasts_S1x256_S1x256) broadcasts_S1x256_S512x256 (ix2 i j) = v (ix2 0 j) := by
  rw [shapeCast_self]
  refine broadcastTo_apply v broadcasts_S1x256_S512x256 (ix2 i j) (ix2 0 j) (fun c => ?_)
  match c with
  | ⟨0, _⟩ => rfl
  | ⟨1, _⟩ => rfl

/-! ## A gate's pre-activation on the block -/

/-- a·W + b·W' + bias on the block, grouped as the body groups it: (a·W + b·W') + bias. -/
noncomputable def gateSum (a b : FVec Ideal S512x2048 .bf16) (w1 w2 : Vec Ideal S2048x256 .bf16) (bs : Vec Ideal S1x256 .f32) :
    FVec Ideal S512x256 .f32 :=
  addf (addf (matmul dot_S512x2048_S2048x256_S512x256_1_0_0_1_n_n none a (shapeCast S2048x256 w1 shapeCasts_S2048x256_S2048x256 : FVec Ideal S2048x256 .bf16) (constant (F := Ideal) S512x256 .f32 0x00000000#32))
      (matmul dot_S512x2048_S2048x256_S512x256_1_0_0_1_n_n none b (shapeCast S2048x256 w2 shapeCasts_S2048x256_S2048x256 : FVec Ideal S2048x256 .bf16) (constant (F := Ideal) S512x256 .f32 0x00000000#32)))
    (broadcastTo S512x256 (shapeCast S1x256 bs shapeCasts_S1x256_S1x256 : FVec Ideal S1x256 .f32) broadcasts_S1x256_S512x256)

/-- At block position (i, j) it is (∑ k, a(i,k)·W(k,j)) + (∑ k, b(i,k)·W'(k,j)) + bias(0,j); when a, b are rows ρ(i) of `x`, `h`,
    the weight blocks columns γ(j) of the upper and lower halves of `W` and the bias row entries γ(j) of `bv`, that is the
    gate's pre-activation at (ρ i, γ j), term for term. -/
theorem gateSum_at (a b : FVec Ideal S512x2048 .bf16) (w1 w2 : Vec Ideal S2048x256 .bf16) (bs : Vec Ideal S1x256 .f32)
    (x h : (⟨2, ![2048, 2048]⟩ : Shape).Idx → EReal) (W : (⟨2, ![4096, 2048]⟩ : Shape).Idx → EReal) (bv : (⟨1, ![2048]⟩ : Shape).Idx → EReal) (ρ : Fin 512 → Fin 2048) (γ : Fin 256 → Fin 2048)
    (ha : ∀ i k, a (ix2 i k) = x (ix2 (ρ i) k)) (hb : ∀ i k, b (ix2 i k) = h (ix2 (ρ i) k))
    (hw1 : ∀ k j, w1 (ix2 k j) = W (ix2 (Cert.Lstm.up k) (γ j))) (hw2 : ∀ k j, w2 (ix2 k j) = W (ix2 (Cert.Lstm.lo k) (γ j)))
    (hbs : ∀ j, bs (ix2 0 j) = bv (ix1 (γ j))) (i : Fin 512) (j : Fin 256) :
    gateSum a b w1 w2 bs (ix2 i j) = Cert.Lstm.pre x h W bv (ρ i) (γ j) := by
  have e : gateSum a b w1 w2 bs (ix2 i j)
      = ((∑ k : Fin 2048, a (ix2 i k) * w1 (ix2 k j)) + (∑ k : Fin 2048, b (ix2 i k) * w2 (ix2 k j))) + bs (ix2 0 j) := by
    unfold gateSum
    rw [addf_apply, addf_apply, shapeCast_self, shapeCast_self, mm_at, mm_at, bias_at]
  rw [e]
  unfold Cert.Lstm.pre
  exact congrArg₂ (· + ·)
    (congrArg₂ (· + ·) (Finset.sum_congr rfl fun k _ => by rw [ha i k, hw1 k j])
      (Finset.sum_congr rfl fun k _ => by rw [hb i k, hw2 k j]))
    (hbs j)

/-! ## The payloads read at a position (every step below is pointwise) -/

/-- A cast of a block to its own shape is the block. -/
theorem pay4_eq (v : Vec Ideal S512x2048 .bf16) : k0_pay4 v = v := shapeCast_self _ _
theorem pay5_eq (v : Vec Ideal S512x2048 .bf16) : k0_pay5 v = v := shapeCast_self _ _

/-- The first two gates' pre-activations are gate sums … -/
theorem pay6_eq (v0 v2 : Vec Ideal S512x2048 .bf16) (v4 v7 : Vec Ideal S2048x256 .bf16) (v11 : Vec Ideal S1x256 .f32) :
    k0_pay6 v0 v2 v4 v7 v11 = gateSum (k0_pay4 v0) (k0_pay5 v2) v4 v7 v11 := rfl
theorem pay7_eq (v0 v2 : Vec Ideal S512x2048 .bf16) (v15 v18 : Vec Ideal S2048x256 .bf16) (v22 : Vec Ideal S1x256 .f32) :
    k0_pay7 v0 v2 v15 v18 v22 = gateSum (k0_pay4 v0) (k0_pay5 v2) v15 v18 v22 := rfl
/-- … and so is the third's, whose two products the body computes apart. -/
theorem pay89_eq (v0 v2 : Vec Ideal S512x2048 .bf16) (v26 v29 : Vec Ideal S2048x256 .bf16) (v33 : Vec Ideal S1x256 .f32) :
    addf (addf (k0_pay8 v0 v26) (k0_pay9 v2 v29)) (broadcastTo S512x256 (shapeCast S1x256 v33 shapeCasts_S1x256_S1x256 : FVec Ideal S1x256 .f32) broadcasts_S1x256_S512x256) = gateSum (k0_pay4 v0) (k0_pay5 v2) v26 v29 v33 := rfl

/-- The stored cell state at a position: σ(p)·c + σ(q)·tanh(s), s the fourth gate sum. -/
theorem pay1_at (v1 v3 : FVec Ideal S512x2048 .bf16) (v14 v25 : FVec Ideal S512x256 .f32) (v37 v40 : Vec Ideal S2048x256 .bf16) (v44 : Vec Ideal S1x256 .f32) (v52 : Vec Ideal S512x256 .f32) (p : S512x256.Idx) :
    k0_pay1 v1 v3 v14 v25 v37 v40 v44 v52 p = Ideal.logistic (v14 p) * v52 p + Ideal.logistic (v25 p) * Ideal.tanh (gateSum v1 v3 v37 v40 v44 p) := rfl

/-- The stored hidden state at a position: σ(r)·tanh(c'), r the third gate sum. -/
theorem pay2_at (v1 v3 : FVec Ideal S512x2048 .bf16) (v14 v25 : FVec Ideal S512x256 .f32) (v28 v31 : FVec Ideal S512x256 .f32) (v33 : Vec Ideal S1x256 .f32) (v37 v40 : Vec Ideal S2048x256 .bf16) (v44 : Vec Ideal S1x256 .f32) (v52 : Vec Ideal S512x256 .f32) (p : S512x256.Idx) :
    k0_pay2 v1 v3 v14 v25 v28 v31 v33 v37 v40 v44 v52 p = Ideal.logistic (addf (addf v28 v31) (broadcastTo S512x256 (shapeCast S1x256 v33 shapeCasts_S1x256_S1x256 : FVec Ideal S1x256 .f32) broadcasts_S1x256_S512x256) p) * Ideal.tanh (k0_pay1 v1 v3 v14 v25 v37 v40 v44 v52 p) := rfl

/-- Its narrowing to 16 bits is the identity on extended reals. -/
theorem pay3_at (v1 v3 : FVec Ideal S512x2048 .bf16) (v14 v25 : FVec Ideal S512x256 .f32) (v28 v31 : FVec Ideal S512x256 .f32) (v33 : Vec Ideal S1x256 .f32) (v37 v40 : Vec Ideal S2048x256 .bf16) (v44 : Vec Ideal S1x256 .f32) (v52 : Vec Ideal S512x256 .f32) (p : S512x256.Idx) :
    k0_pay3 v1 v3 v14 v25 v28 v31 v33 v37 v40 v44 v52 p = k0_pay2 v1 v3 v14 v25 v28 v31 v33 v37 v40 v44 v52 p := rfl

/-! ## The three stored blocks -/

/-- The new cell state at block position (i, j), over the payloads. -/
theorem cell_at (x0 x1 : Vec Ideal S512x2048 .bf16) (x2 : Vec Ideal S512x256 .f32) (x3 x4 : Vec Ideal S2048x256 .bf16) (x5 : Vec Ideal S1x256 .f32) (x6 x7 : Vec Ideal S2048x256 .bf16) (x8 : Vec Ideal S1x256 .f32) (x9 x10 : Vec Ideal S2048x256 .bf16) (x11 : Vec Ideal S1x256 .f32) (x12 x13 : Vec Ideal S2048x256 .bf16) (x14 : Vec Ideal S1x256 .f32)
    (x h c : (⟨2, ![2048, 2048]⟩ : Shape).Idx → EReal) (Wf Wi Wig : (⟨2, ![4096, 2048]⟩ : Shape).Idx → EReal) (bf bi big : (⟨1, ![2048]⟩ : Shape).Idx → EReal) (ρ : Fin 512 → Fin 2048) (γ : Fin 256 → Fin 2048)
    (h0 : ∀ i k, x0 (ix2 i k) = x (ix2 (ρ i) k)) (h1 : ∀ i k, x1 (ix2 i k) = h (ix2 (ρ i) k)) (h2 : ∀ i j, x2 (ix2 i j) = c (ix2 (ρ i) (γ j)))
    (h3 : ∀ k j, x3 (ix2 k j) = Wf (ix2 (Cert.Lstm.up k) (γ j))) (h4 : ∀ k j, x4 (ix2 k j) = Wf (ix2 (Cert.Lstm.lo k) (γ j))) (h5 : ∀ j, x5 (ix2 0 j) = bf (ix1 (γ j)))
    (h6 : ∀ k j, x6 (ix2 k j) = Wig (ix2 (Cert.Lstm.up k) (γ j))) (h7 : ∀ k j, x7 (ix2 k j) = Wig (ix2 (Cert.Lstm.lo k) (γ j))) (h8 : ∀ j, x8 (ix2 0 j) = big (ix1 (γ j)))
    (h12 : ∀ k j, x12 (ix2 k j) = Wi (ix2 (Cert.Lstm.up k) (γ j))) (h13 : ∀ k j, x13 (ix2 k j) = Wi (ix2 (Cert.Lstm.lo k) (γ j))) (h14 : ∀ j, x14 (ix2 0 j) = bi (ix1 (γ j)))
    (i : Fin 512) (j : Fin 256) :
    k0_pay1 (k0_pay4 x0) (k0_pay5 x1) (k0_pay6 x0 x1 x3 x4 x5) (k0_pay7 x0 x1 x6 x7 x8) x12 x13 x14 x2 (ix2 i j) = Cert.Lstm.cNew x h c Wf bf Wi bi Wig big (ρ i) (γ j) := by
  have ha : ∀ i k, k0_pay4 x0 (ix2 i k) = x (ix2 (ρ i) k) := fun i k => by rw [pay4_eq]; exact h0 i k
  have hb : ∀ i k, k0_pay5 x1 (ix2 i k) = h (ix2 (ρ i) k) := fun i k => by rw [pay5_eq]; exact h1 i k
  rw [pay1_at, pay6_eq, pay7_eq,
    gateSum_at _ _ x3 x4 x5 x h Wf bf ρ γ ha hb h3 h4 h5 i j,
    gateSum_at _ _ x6 x7 x8 x h Wig big ρ γ ha hb h6 h7 h8 i j,
    gateSum_at _ _ x12 x13 x14 x h Wi bi ρ γ ha hb h12 h13 h14 i j, h2 i j]
  rfl

/-- The new hidden state at block position (i, j), over the payloads. -/
theorem hidden_at (x0 x1 : Vec Ideal S512x2048 .bf16) (x2 : Vec Ideal S512x256 .f32) (x3 x4 : Vec Ideal S2048x256 .bf16) (x5 : Vec Ideal S1x256 .f32) (x6 x7 : Vec Ideal S2048x256 .bf16) (x8 : Vec Ideal S1x256 .f32) (x9 x10 : Vec Ideal S2048x256 .bf16) (x11 : Vec Ideal S1x256 .f32) (x12 x13 : Vec Ideal S2048x256 .bf16) (x14 : Vec Ideal S1x256 .f32)
    (x h c : (⟨2, ![2048, 2048]⟩ : Shape).Idx → EReal) (Wf Wi Wig Wog : (⟨2, ![4096, 2048]⟩ : Shape).Idx → EReal) (bf bi big bog : (⟨1, ![2048]⟩ : Shape).Idx → EReal) (ρ : Fin 512 → Fin 2048) (γ : Fin 256 → Fin 2048)
    (h0 : ∀ i k, x0 (ix2 i k) = x (ix2 (ρ i) k)) (h1 : ∀ i k, x1 (ix2 i k) = h (ix2 (ρ i) k)) (h2 : ∀ i j, x2 (ix2 i j) = c (ix2 (ρ i) (γ j)))
    (h3 : ∀ k j, x3 (ix2 k j) = Wf (ix2 (Cert.Lstm.up k) (γ j))) (h4 : ∀ k j, x4 (ix2 k j) = Wf (ix2 (Cert.Lstm.lo k) (γ j))) (h5 : ∀ j, x5 (ix2 0 j) = bf (ix1 (γ j)))
    (h6 : ∀ k j, x6 (ix2 k j) = Wig (ix2 (Cert.Lstm.up k) (γ j))) (h7 : ∀ k j, x7 (ix2 k j) = Wig (ix2 (Cert.Lstm.lo k) (γ j))) (h8 : ∀ j, x8 (ix2 0 j) = big (ix1 (γ j)))
    (h9 : ∀ k j, x9 (ix2 k j) = Wog (ix2 (Cert.Lstm.up k) (γ j))) (h10 : ∀ k j, x10 (ix2 k j) = Wog (ix2 (Cert.Lstm.lo k) (γ j))) (h11 : ∀ j, x11 (ix2 0 j) = bog (ix1 (γ j)))
    (h12 : ∀ k j, x12 (ix2 k j) = Wi (ix2 (Cert.Lstm.up k) (γ j))) (h13 : ∀ k j, x13 (ix2 k j) = Wi (ix2 (Cert.Lstm.lo k) (γ j))) (h14 : ∀ j, x14 (ix2 0 j) = bi (ix1 (γ j)))
    (i : Fin 512) (j : Fin 256) :
    k0_pay2 (k0_pay4 x0) (k0_pay5 x1) (k0_pay6 x0 x1 x3 x4 x5) (k0_pay7 x0 x1 x6 x7 x8) (k0_pay8 x0 x9) (k0_pay9 x1 x10) x11 x12 x13 x14 x2 (ix2 i j) = Cert.Lstm.hNew x h c Wf bf Wi bi Wig big Wog bog (ρ i) (γ j) := by
  have ha : ∀ i k, k0_pay4 x0 (ix2 i k) = x (ix2 (ρ i) k) := fun i k => by rw [pay4_eq]; exact h0 i k
  have hb : ∀ i k, k0_pay5 x1 (ix2 i k) = h (ix2 (ρ i) k) := fun i k => by rw [pay5_eq]; exact h1 i k
  rw [pay2_at, pay89_eq,
    gateSum_at _ _ x9 x10 x11 x h Wog bog ρ γ ha hb h9 h10 h11 i j,
    cell_at x0 x1 x2 x3 x4 x5 x6 x7 x8 x9 x10 x11 x12 x13 x14 x h c Wf Wi Wig bf bi big ρ γ h0 h1 h2 h3 h4 h5 h6 h7 h8 h12 h13 h14 i j]
  rfl

/-- Window 16's block after the body is the new cell state. -/
theorem out0_16_at (x0 x1 : Vec Ideal S512x2048 .bf16) (x2 : Vec Ideal S512x256 .f32) (x3 x4 : Vec Ideal S2048x256 .bf16) (x5 : Vec Ideal S1x256 .f32) (x6 x7 : Vec Ideal S2048x256 .bf16) (x8 : Vec Ideal S1x256 .f32) (x9 x10 : Vec Ideal S2048x256 .bf16) (x11 : Vec Ideal S1x256 .f32) (x12 x13 : Vec Ideal S2048x256 .bf16) (x14 : Vec Ideal S1x256 .f32)
    (x h c : (⟨2, ![2048, 2048]⟩ : Shape).Idx → EReal) (Wf Wi Wig : (⟨2, ![4096, 2048]⟩ : Shape).Idx → EReal) (bf bi big : (⟨1, ![2048]⟩ : Shape).Idx → EReal) (ρ : Fin 512 → Fin 2048) (γ : Fin 256 → Fin 2048)
    (h0 : ∀ i k, x0 (ix2 i k) = x (ix2 (ρ i) k)) (h1 : ∀ i k, x1 (ix2 i k) = h (ix2 (ρ i) k)) (h2 : ∀ i j, x2 (ix2 i j) = c (ix2 (ρ i) (γ j)))
    (h3 : ∀ k j, x3 (ix2 k j) = Wf (ix2 (Cert.Lstm.up k) (γ j))) (h4 : ∀ k j, x4 (ix2 k j) = Wf (ix2 (Cert.Lstm.lo k) (γ j))) (h5 : ∀ j, x5 (ix2 0 j) = bf (ix1 (γ j)))
    (h6 : ∀ k j, x6 (ix2 k j) = Wig (ix2 (Cert.Lstm.up k) (γ j))) (h7 : ∀ k j, x7 (ix2 k j) = Wig (ix2 (Cert.Lstm.lo k) (γ j))) (h8 : ∀ j, x8 (ix2 0 j) = big (ix1 (γ j)))
    (h12 : ∀ k j, x12 (ix2 k j) = Wi (ix2 (Cert.Lstm.up k) (γ j))) (h13 : ∀ k j, x13 (ix2 k j) = Wi (ix2 (Cert.Lstm.lo k) (γ j))) (h14 : ∀ j, x14 (ix2 0 j) = bi (ix1 (γ j)))
    (i : Fin 512) (j : Fin 256) :
    out0_16 x0 x1 x2 x3 x4 x5 x6 x7 x8 x9 x10 x11 x12 x13 x14 (ix2 i j) = Cert.Lstm.cNew x h c Wf bf Wi bi Wig big (ρ i) (γ j) := by
  unfold out0_16
  rw [View.canon_unit_zero offsets_zero]
  simp only [View.ld_unit_zero (S := S512x2048) offsets_zero, View.ld_unit_zero (S := S2048x256) offsets_zero,
    View.ld_unit_zero (S := S1x256) offsets_zero, View.ld_unit_zero (S := S512x256) offsets_zero]
  exact cell_at x0 x1 x2 x3 x4 x5 x6 x7 x8 x9 x10 x11 x12 x13 x14 x h c Wf Wi Wig bf bi big ρ γ h0 h1 h2 h3 h4 h5 h6 h7 h8 h12 h13 h14 i j

/-- Window 15's block after the body is the new hidden state. -/
theorem out0_15_at (x0 x1 : Vec Ideal S512x2048 .bf16) (x2 : Vec Ideal S512x256 .f32) (x3 x4 : Vec Ideal S2048x256 .bf16) (x5 : Vec Ideal S1x256 .f32) (x6 x7 : Vec Ideal S2048x256 .bf16) (x8 : Vec Ideal S1x256 .f32) (x9 x10 : Vec Ideal S2048x256 .bf16) (x11 : Vec Ideal S1x256 .f32) (x12 x13 : Vec Ideal S2048x256 .bf16) (x14 : Vec Ideal S1x256 .f32)
    (x h c : (⟨2, ![2048, 2048]⟩ : Shape).Idx → EReal) (Wf Wi Wig Wog : (⟨2, ![4096, 2048]⟩ : Shape).Idx → EReal) (bf bi big bog : (⟨1, ![2048]⟩ : Shape).Idx → EReal) (ρ : Fin 512 → Fin 2048) (γ : Fin 256 → Fin 2048)
    (h0 : ∀ i k, x0 (ix2 i k) = x (ix2 (ρ i) k)) (h1 : ∀ i k, x1 (ix2 i k) = h (ix2 (ρ i) k)) (h2 : ∀ i j, x2 (ix2 i j) = c (ix2 (ρ i) (γ j)))
    (h3 : ∀ k j, x3 (ix2 k j) = Wf (ix2 (Cert.Lstm.up k) (γ j))) (h4 : ∀ k j, x4 (ix2 k j) = Wf (ix2 (Cert.Lstm.lo k) (γ j))) (h5 : ∀ j, x5 (ix2 0 j) = bf (ix1 (γ j)))
    (h6 : ∀ k j, x6 (ix2 k j) = Wig (ix2 (Cert.Lstm.up k) (γ j))) (h7 : ∀ k j, x7 (ix2 k j) = Wig (ix2 (Cert.Lstm.lo k) (γ j))) (h8 : ∀ j, x8 (ix2 0 j) = big (ix1 (γ j)))
    (h9 : ∀ k j, x9 (ix2 k j) = Wog (ix2 (Cert.Lstm.up k) (γ j))) (h10 : ∀ k j, x10 (ix2 k j) = Wog (ix2 (Cert.Lstm.lo k) (γ j))) (h11 : ∀ j, x11 (ix2 0 j) = bog (ix1 (γ j)))
    (h12 : ∀ k j, x12 (ix2 k j) = Wi (ix2 (Cert.Lstm.up k) (γ j))) (h13 : ∀ k j, x13 (ix2 k j) = Wi (ix2 (Cert.Lstm.lo k) (γ j))) (h14 : ∀ j, x14 (ix2 0 j) = bi (ix1 (γ j)))
    (i : Fin 512) (j : Fin 256) :
    out0_15 x0 x1 x2 x3 x4 x5 x6 x7 x8 x9 x10 x11 x12 x13 x14 (ix2 i j) = Cert.Lstm.hNew x h c Wf bf Wi bi Wig big Wog bog (ρ i) (γ j) := by
  unfold out0_15
  rw [View.canon_unit_zero offsets_zero]
  simp only [View.ld_unit_zero (S := S512x2048) offsets_zero, View.ld_unit_zero (S := S2048x256) offsets_zero,
    View.ld_unit_zero (S := S1x256) offsets_zero, View.ld_unit_zero (S := S512x256) offsets_zero]
  exact hidden_at x0 x1 x2 x3 x4 x5 x6 x7 x8 x9 x10 x11 x12 x13 x14 x h c Wf Wi Wig Wog bf bi big bog ρ γ h0 h1 h2 h3 h4 h5 h6 h7 h8 h9 h10 h11 h12 h13 h14 i j

/-- Window 17's block after the body is the new hidden state too: the narrowing to 16 bits is the identity here. -/
theorem out0_17_at (x0 x1 : Vec Ideal S512x2048 .bf16) (x2 : Vec Ideal S512x256 .f32) (x3 x4 : Vec Ideal S2048x256 .bf16) (x5 : Vec Ideal S1x256 .f32) (x6 x7 : Vec Ideal S2048x256 .bf16) (x8 : Vec Ideal S1x256 .f32) (x9 x10 : Vec Ideal S2048x256 .bf16) (x11 : Vec Ideal S1x256 .f32) (x12 x13 : Vec Ideal S2048x256 .bf16) (x14 : Vec Ideal S1x256 .f32)
    (x h c : (⟨2, ![2048, 2048]⟩ : Shape).Idx → EReal) (Wf Wi Wig Wog : (⟨2, ![4096, 2048]⟩ : Shape).Idx → EReal) (bf bi big bog : (⟨1, ![2048]⟩ : Shape).Idx → EReal) (ρ : Fin 512 → Fin 2048) (γ : Fin 256 → Fin 2048)
    (h0 : ∀ i k, x0 (ix2 i k) = x (ix2 (ρ i) k)) (h1 : ∀ i k, x1 (ix2 i k) = h (ix2 (ρ i) k)) (h2 : ∀ i j, x2 (ix2 i j) = c (ix2 (ρ i) (γ j)))
    (h3 : ∀ k j, x3 (ix2 k j) = Wf (ix2 (Cert.Lstm.up k) (γ j))) (h4 : ∀ k j, x4 (ix2 k j) = Wf (ix2 (Cert.Lstm.lo k) (γ j))) (h5 : ∀ j, x5 (ix2 0 j) = bf (ix1 (γ j)))
    (h6 : ∀ k j, x6 (ix2 k j) = Wig (ix2 (Cert.Lstm.up k) (γ j))) (h7 : ∀ k j, x7 (ix2 k j) = Wig (ix2 (Cert.Lstm.lo k) (γ j))) (h8 : ∀ j, x8 (ix2 0 j) = big (ix1 (γ j)))
    (h9 : ∀ k j, x9 (ix2 k j) = Wog (ix2 (Cert.Lstm.up k) (γ j))) (h10 : ∀ k j, x10 (ix2 k j) = Wog (ix2 (Cert.Lstm.lo k) (γ j))) (h11 : ∀ j, x11 (ix2 0 j) = bog (ix1 (γ j)))
    (h12 : ∀ k j, x12 (ix2 k j) = Wi (ix2 (Cert.Lstm.up k) (γ j))) (h13 : ∀ k j, x13 (ix2 k j) = Wi (ix2 (Cert.Lstm.lo k) (γ j))) (h14 : ∀ j, x14 (ix2 0 j) = bi (ix1 (γ j)))
    (i : Fin 512) (j : Fin 256) :
    out0_17 x0 x1 x2 x3 x4 x5 x6 x7 x8 x9 x10 x11 x12 x13 x14 (ix2 i j) = Cert.Lstm.hNew x h c Wf bf Wi bi Wig big Wog bog (ρ i) (γ j) := by
  unfold out0_17
  rw [View.canon_unit_zero offsets_zero]
  simp only [View.ld_unit_zero (S := S512x2048) offsets_zero, View.ld_unit_zero (S := S2048x256) offsets_zero,
    View.ld_unit_zero (S := S1x256) offsets_zero, View.ld_unit_zero (S := S512x256) offsets_zero]
  rw [pay3_at]
  exact hidden_at x0 x1 x2 x3 x4 x5 x6 x7 x8 x9 x10 x11 x12 x13 x14 x h c Wf Wi Wig Wog bf bi big bog ρ γ h0 h1 h2 h3 h4 h5 h6 h7 h8 h9 h10 h11 h12 h13 h14 i j

end Cert.KernelIdeal.Hand

end
-- ==== Proof.CellValue.lean ====
/-
  The cell kernel's three result arrays after the run, in closed form. Each grid point writes back one [512, 256]
  block; what it writes is that block of ONE function of the argument arrays — the new cell state for the second
  result, the new hidden state for the first and (narrowed to bf16, which changes nothing on the extended reals) the
  third — and the 32 blocks tile the [2048, 2048] arrays, so each array ends holding that function.
-/
import proofs.«135622_j82282983457014_2_alg».proof.Proof.CellIndex
import proofs.«135622_j82282983457014_2_alg».proof.Proof.CellBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx

variable (m : (ℓ : Loc nD τ sig) → Buf (Elt Ideal) ℓ)

/-- The embedding rows the token indices select, from the launch memory. -/
abbrev aX (c : Dev nD) : (⟨S2048x2048, .f32⟩ : BufTy).Contents (Elt Ideal) :=
  xEmb (W0 m c (Proc.devRef .tc main_arg0)) (W0 m c (Proc.devRef .tc main_arg3))

/-- The new cell state as a whole array, -/
def gC (c : Dev nD) : S2048x2048.Idx → EReal := fun i => Cert.Lstm.cNew (aX m c) (W0 m c (Proc.devRef .tc main_arg1)) (W0 m c (Proc.devRef .tc main_arg2)) (W0 m c (Proc.devRef .tc main_arg4)) (W0 m c (Proc.devRef .tc main_arg5)) (W0 m c (Proc.devRef .tc main_arg6)) (W0 m c (Proc.devRef .tc main_arg7)) (W0 m c (Proc.devRef .tc main_arg8)) (W0 m c (Proc.devRef .tc main_arg9)) (i 0) (i 1)
/-- and the new hidden state. -/
def gH (c : Dev nD) : S2048x2048.Idx → EReal := fun i => Cert.Lstm.hNew (aX m c) (W0 m c (Proc.devRef .tc main_arg1)) (W0 m c (Proc.devRef .tc main_arg2)) (W0 m c (Proc.devRef .tc main_arg4)) (W0 m c (Proc.devRef .tc main_arg5)) (W0 m c (Proc.devRef .tc main_arg6)) (W0 m c (Proc.devRef .tc main_arg7)) (W0 m c (Proc.devRef .tc main_arg8)) (W0 m c (Proc.devRef .tc main_arg9)) (W0 m c (Proc.devRef .tc main_arg10)) (W0 m c (Proc.devRef .tc main_arg11)) (i 0) (i 1)

/-! ## Result window 15 -/

/-- An element of the block at point `t` sits at row `rowOf t i`, column `colOf t j` of the array. -/
theorem emb15 (t : Fin cfg0.N) (i : Fin 512) (j : Fin 256) :
    ((cfg0.win 15).blk t).view.emb (ix2 i j) = ix2 (rowOf t i) (colOf t j) := by
  funext a; apply Fin.ext
  obtain ⟨e0, e1⟩ := idx_15 t

  match a with
  | ⟨0, _⟩ => show win0_15.index t (0 : Fin 2) * 512 + 1 * i.val = win0_16.index t (0 : Fin 2) * 512 + i.val; omega
  | ⟨1, _⟩ => show win0_15.index t (1 : Fin 2) * 256 + 1 * j.val = win0_16.index t (1 : Fin 2) * 256 + j.val; omega

/-- What point `t` writes back is block `t` of the closed form. -/
theorem flushed15_eq (c : Dev nD) (t : Fin cfg0.N) :
    (dat0 (V1 m) c).flushed 15 t = ((cfg0.win 15).blk t).view.read (Elt Ideal) (gH m c) := by
  show (cfg0.win 15).cut (grid0.coords t) ((dat0 (V1 m) c).after 15 t) = _
  rw [after0_15]
  funext y
  obtain ⟨i, j, rfl⟩ : ∃ (i : Fin 512) (j : Fin 256), y = ix2 i j := ⟨y 0, y 1, eq_ix2 y⟩
  rw [View.read_apply, emb15 t i j]
  exact out0_15_at (iblk0 (V1 m) c 0 t) (iblk0 (V1 m) c 1 t) (iblk0 (V1 m) c 2 t) (iblk0 (V1 m) c 3 t) (iblk0 (V1 m) c 4 t) (iblk0 (V1 m) c 5 t) (iblk0 (V1 m) c 6 t) (iblk0 (V1 m) c 7 t) (iblk0 (V1 m) c 8 t) (iblk0 (V1 m) c 9 t) (iblk0 (V1 m) c 10 t) (iblk0 (V1 m) c 11 t) (iblk0 (V1 m) c 12 t) (iblk0 (V1 m) c 13 t) (iblk0 (V1 m) c 14 t) (x := aX m c) (h := (W0 m c (Proc.devRef .tc main_arg1))) (c := (W0 m c (Proc.devRef .tc main_arg2))) (Wf := (W0 m c (Proc.devRef .tc main_arg4))) (bf := (W0 m c (Proc.devRef .tc main_arg5))) (Wi := (W0 m c (Proc.devRef .tc main_arg6))) (bi := (W0 m c (Proc.devRef .tc main_arg7))) (Wig := (W0 m c (Proc.devRef .tc main_arg8))) (big := (W0 m c (Proc.devRef .tc main_arg9))) (Wog := (W0 m c (Proc.devRef .tc main_arg10))) (bog := (W0 m c (Proc.devRef .tc main_arg11))) (ρ := rowOf t) (γ := colOf t) (blk0_at m c t) (blk1_at m c t) (blk2_at m c t) (blk3_at m c t) (blk4_at m c t) (blk5_at m c t) (blk6_at m c t) (blk7_at m c t) (blk8_at m c t) (blk9_at m c t) (blk10_at m c t) (blk11_at m c t) (blk12_at m c t) (blk13_at m c t) (blk14_at m c t) i j

/-- An index is in point `t`'s block iff each coordinate is in the block's range. -/
theorem mem_blk15 (t : Fin cfg0.N) (i : S2048x2048.Idx) :
    i ∈ ((cfg0.win 15).blk t).view.set ↔ ∀ a : Fin 2, win0_15.index t a * S512x256.size a ≤ (i a).val ∧ (i a).val < win0_15.index t a * S512x256.size a + S512x256.size a := by
  show i ∈ ((View.whole main_v29_0).slice (win0_15.rect t)).set ↔ _
  rw [View.set_slice_whole, Rect.mem_set_unit]
  exact Iff.rfl

/-- Every block of the array is some point's. -/
theorem onto15 : ∀ (q0 : Fin 4) (q1 : Fin 8), ∃ t : Fin cfg0.N, win0_15.index t = ![q0.val, q1.val] :=
  (by decide +kernel : ∀ (q0 : Fin 4) (q1 : Fin 8), ∃ t : Fin grid0.N, win0_15.index t = ![q0.val, q1.val])

/-- The 32 blocks cover the array: row `r`, column `s` lies in block (r / 512, s / 256). -/
theorem cover15 (i : S2048x2048.Idx) : ∃ t : Fin cfg0.N, (cfg0.win 15).flush t = true ∧ i ∈ ((cfg0.win 15).blk t).view.set := by
  have hi0 : (i 0).val < 2048 := (i 0).isLt
  have hi1 : (i 1).val < 2048 := (i 1).isLt
  obtain ⟨t, ht⟩ := onto15 ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  refine ⟨t, flush0_15 t, ?_⟩
  rw [mem_blk15]
  intro a
  match a with
  | ⟨0, _⟩ => show win0_15.index t (0 : Fin 2) * 512 ≤ (i 0).val ∧ (i 0).val < win0_15.index t (0 : Fin 2) * 512 + 512; omega
  | ⟨1, _⟩ => show win0_15.index t (1 : Fin 2) * 256 ≤ (i 1).val ∧ (i 1).val < win0_15.index t (1 : Fin 2) * 256 + 256; omega

/-- The array after the run. -/
theorem final15 (c : Dev nD) : (dat0 (V1 m) c).arrAt 15 cfg0.N = gH m c :=
  (dat0 (V1 m) c).arrAt_eq_of_cover 15 (gH m c) (fun t _ => flushed15_eq m c t) cover15

/-! ## Result window 16 -/

/-- An element of the block at point `t` sits at row `rowOf t i`, column `colOf t j` of the array. -/
theorem emb16 (t : Fin cfg0.N) (i : Fin 512) (j : Fin 256) :
    ((cfg0.win 16).blk t).view.emb (ix2 i j) = ix2 (rowOf t i) (colOf t j) := by
  funext a; apply Fin.ext
  match a with
  | ⟨0, _⟩ => show win0_16.index t (0 : Fin 2) * 512 + 1 * i.val = win0_16.index t (0 : Fin 2) * 512 + i.val; omega
  | ⟨1, _⟩ => show win0_16.index t (1 : Fin 2) * 256 + 1 * j.val = win0_16.index t (1 : Fin 2) * 256 + j.val; omega

/-- What point `t` writes back is block `t` of the closed form. -/
theorem flushed16_eq (c : Dev nD) (t : Fin cfg0.N) :
    (dat0 (V1 m) c).flushed 16 t = ((cfg0.win 16).blk t).view.read (Elt Ideal) (gC m c) := by
  show (cfg0.win 16).cut (grid0.coords t) ((dat0 (V1 m) c).after 16 t) = _
  rw [after0_16]
  funext y
  obtain ⟨i, j, rfl⟩ : ∃ (i : Fin 512) (j : Fin 256), y = ix2 i j := ⟨y 0, y 1, eq_ix2 y⟩
  rw [View.read_apply, emb16 t i j]
  exact out0_16_at (iblk0 (V1 m) c 0 t) (iblk0 (V1 m) c 1 t) (iblk0 (V1 m) c 2 t) (iblk0 (V1 m) c 3 t) (iblk0 (V1 m) c 4 t) (iblk0 (V1 m) c 5 t) (iblk0 (V1 m) c 6 t) (iblk0 (V1 m) c 7 t) (iblk0 (V1 m) c 8 t) (iblk0 (V1 m) c 9 t) (iblk0 (V1 m) c 10 t) (iblk0 (V1 m) c 11 t) (iblk0 (V1 m) c 12 t) (iblk0 (V1 m) c 13 t) (iblk0 (V1 m) c 14 t) (x := aX m c) (h := (W0 m c (Proc.devRef .tc main_arg1))) (c := (W0 m c (Proc.devRef .tc main_arg2))) (Wf := (W0 m c (Proc.devRef .tc main_arg4))) (bf := (W0 m c (Proc.devRef .tc main_arg5))) (Wi := (W0 m c (Proc.devRef .tc main_arg6))) (bi := (W0 m c (Proc.devRef .tc main_arg7))) (Wig := (W0 m c (Proc.devRef .tc main_arg8))) (big := (W0 m c (Proc.devRef .tc main_arg9))) (ρ := rowOf t) (γ := colOf t) (blk0_at m c t) (blk1_at m c t) (blk2_at m c t) (blk3_at m c t) (blk4_at m c t) (blk5_at m c t) (blk6_at m c t) (blk7_at m c t) (blk8_at m c t) (blk12_at m c t) (blk13_at m c t) (blk14_at m c t) i j

/-- An index is in point `t`'s block iff each coordinate is in the block's range. -/
theorem mem_blk16 (t : Fin cfg0.N) (i : S2048x2048.Idx) :
    i ∈ ((cfg0.win 16).blk t).view.set ↔ ∀ a : Fin 2, win0_16.index t a * S512x256.size a ≤ (i a).val ∧ (i a).val < win0_16.index t a * S512x256.size a + S512x256.size a := by
  show i ∈ ((View.whole main_v29_1).slice (win0_16.rect t)).set ↔ _
  rw [View.set_slice_whole, Rect.mem_set_unit]
  exact Iff.rfl

/-- Every block of the array is some point's. -/
theorem onto16 : ∀ (q0 : Fin 4) (q1 : Fin 8), ∃ t : Fin cfg0.N, win0_16.index t = ![q0.val, q1.val] :=
  (by decide +kernel : ∀ (q0 : Fin 4) (q1 : Fin 8), ∃ t : Fin grid0.N, win0_16.index t = ![q0.val, q1.val])

/-- The 32 blocks cover the array: row `r`, column `s` lies in block (r / 512, s / 256). -/
theorem cover16 (i : S2048x2048.Idx) : ∃ t : Fin cfg0.N, (cfg0.win 16).flush t = true ∧ i ∈ ((cfg0.win 16).blk t).view.set := by
  have hi0 : (i 0).val < 2048 := (i 0).isLt
  have hi1 : (i 1).val < 2048 := (i 1).isLt
  obtain ⟨t, ht⟩ := onto16 ⟨(i 0).val / 512, by omega⟩ ⟨(i 1).val / 256, by omega⟩
  have q0 : win0_16.index t (0 : Fin 2) = (i 0).val / 512 := congrFun ht 0
  have q1 : win0_16.index t (1 : Fin 2) = (i 1).val / 256 := congrFun ht 1
  refine ⟨t, flush0_16 t, ?_⟩
  rw [mem_blk16]
  intro a
  match a with
  | ⟨0, _⟩ => show win0_16.index t (0 : Fin 2) * 512 ≤ (i 0).val ∧ (i 0).val < win0_16.index t (0 : Fin 2) * 512 + 512; omega
  | ⟨1, _⟩ => show win0_16.index t (1 : Fin 2) * 256 ≤ (i 1).val ∧ (i 1).val < win0_16.index t (1 : Fin 2) * 256 + 256; omega

/-- The array after the run. -/
theorem final16 (c : Dev nD) : (dat0 (V1 m) c).arrAt 16 cfg0.N = gC m c :=
  (dat0 (V1 m) c).arrAt_eq_of_cover 16 (gC m c) (fun t _ => flushed16_eq m c t) cover16

/-! ## Result window 17 -/

/-- An element of the block at point `t` sits at row `rowOf t i`, column `colOf t j` of the array. -/
theorem emb17 (t : Fin cfg0.N) (i : Fin 512) (j : Fin 256) :
    ((cfg0.win 17).blk t).view.emb (ix2 i j) = ix2 (rowOf t i) (colOf t j) := by
  funext a; apply Fin.ext
  obtain ⟨e0, e1⟩ := idx_17 t

  match a with
  | ⟨0, _⟩ => show win0_17.index t (0 : Fin 2) * 512 + 1 * i.val = win0_16.index t (0 : Fin 2) * 512 + i.val; omega
  | ⟨1, _⟩ => show win0_17.index t (1 : Fin 2) * 256 + 1 * j.val = win0_16.index t (1 : Fin 2) * 256 + j.val; omega

/-- What point `t` writes back is block `t` of the closed form. -/
theorem flushed17_eq (c : Dev nD) (t : Fin cfg0.N) :
    (dat0 (V1 m) c).flushed 17 t = ((cfg0.win 17).blk t).view.read (Elt Ideal) (gH m c) := by
  show (cfg0.win 17).cut (grid0.coords t) ((dat0 (V1 m) c).after 17 t) = _
  rw [after0_17]
  funext y
  obtain ⟨i, j, rfl⟩ : ∃ (i : Fin 512) (j : Fin 256), y = ix2 i j := ⟨y 0, y 1, eq_ix2 y⟩
  rw [View.read_apply, emb17 t i j]
  exact out0_17_at (iblk0 (V1 m) c 0 t) (iblk0 (V1 m) c 1 t) (iblk0 (V1 m) c 2 t) (iblk0 (V1 m) c 3 t) (iblk0 (V1 m) c 4 t) (iblk0 (V1 m) c 5 t) (iblk0 (V1 m) c 6 t) (iblk0 (V1 m) c 7 t) (iblk0 (V1 m) c 8 t) (iblk0 (V1 m) c 9 t) (iblk0 (V1 m) c 10 t) (iblk0 (V1 m) c 11 t) (iblk0 (V1 m) c 12 t) (iblk0 (V1 m) c 13 t) (iblk0 (V1 m) c 14 t) (x := aX m c) (h := (W0 m c (Proc.devRef .tc main_arg1))) (c := (W0 m c (Proc.devRef .tc main_arg2))) (Wf := (W0 m c (Proc.devRef .tc main_arg4))) (bf := (W0 m c (Proc.devRef .tc main_arg5))) (Wi := (W0 m c (Proc.devRef .tc main_arg6))) (bi := (W0 m c (Proc.devRef .tc main_arg7))) (Wig := (W0 m c (Proc.devRef .tc main_arg8))) (big := (W0 m c (Proc.devRef .tc main_arg9))) (Wog := (W0 m c (Proc.devRef .tc main_arg10))) (bog := (W0 m c (Proc.devRef .tc main_arg11))) (ρ := rowOf t) (γ := colOf t) (blk0_at m c t) (blk1_at m c t) (blk2_at m c t) (blk3_at m c t) (blk4_at m c t) (blk5_at m c t) (blk6_at m c t) (blk7_at m c t) (blk8_at m c t) (blk9_at m c t) (blk10_at m c t) (blk11_at m c t) (blk12_at m c t) (blk13_at m c t) (blk14_at m c t) i j

/-- An index is in point `t`'s block iff each coordinate is in the block's range. -/
theorem mem_blk17 (t : Fin cfg0.N) (i : S2048x2048.Idx) :
    i ∈ ((cfg0.win 17).blk t).view.set ↔ ∀ a : Fin 2, win0_17.index t a * S512x256.size a ≤ (i a).val ∧ (i a).val < win0_17.index t a * S512x256.size a + S512x256.size a := by
  show i ∈ ((View.whole main_v29_2).slice (win0_17.rect t)).set ↔ _
  rw [View.set_slice_whole, Rect.mem_set_unit]
  exact Iff.rfl

/-- Every block of the array is some point's. -/
theorem onto17 : ∀ (q0 : Fin 4) (q1 : Fin 8), ∃ t : Fin cfg0.N, win0_17.index t = ![q0.val, q1.val] :=
  (by decide +kernel : ∀ (q0 : Fin 4) (q1 : Fin 8), ∃ t : Fin grid0.N, win0_17.index t = ![q0.val, q1.val])

/-- The 32 blocks cover the array: row `r`, column `s` lies in block (r / 512, s / 256). -/
theorem cover17 (i : S2048x2048.Idx) : ∃ t : Fin cfg0.N, (cfg0.win 17).flush t = true ∧ i ∈ ((cfg0.win 17).blk t).view.set := by
  have hi0 : (i 0).val < 2048 := (i 0).isLt
  have hi1 : (i 1).val < 2048 := (i 1).isLt
  obtain ⟨t, ht⟩ := onto17 ⟨(i 0).val / 512, by omega⟩ ⟨(i 1).val / 256, by omega⟩
  have q0 : win0_17.index t (0 : Fin 2) = (i 0).val / 512 := congrFun ht 0
  have q1 : win0_17.index t (1 : Fin 2) = (i 1).val / 256 := congrFun ht 1
  refine ⟨t, flush0_17 t, ?_⟩
  rw [mem_blk17]
  intro a
  match a with
  | ⟨0, _⟩ => show win0_17.index t (0 : Fin 2) * 512 ≤ (i 0).val ∧ (i 0).val < win0_17.index t (0 : Fin 2) * 512 + 512; omega
  | ⟨1, _⟩ => show win0_17.index t (1 : Fin 2) * 256 ≤ (i 1).val ∧ (i 1).val < win0_17.index t (1 : Fin 2) * 256 + 256; omega

/-- The array after the run. -/
theorem final17 (c : Dev nD) : (dat0 (V1 m) c).arrAt 17 cfg0.N = gH m c :=
  (dat0 (V1 m) c).arrAt_eq_of_cover 17 (gH m c) (fun t _ => flushed17_eq m c t) cover17

end Cert.KernelIdeal.Hand

end
-- ==== Proof.LogitsFinds.lean ====
/-
  What the classifier pipeline's three input buffers may hold when the body runs, on any float instance.

  The grid has 99 points, one per block of 512 columns; the last block overhangs the 50257-wide arrays, 81 of its
  columns lying inside. The hidden state's one block is its whole array: it is fetched at the first point, and the
  body leaves it as found, so at every point its buffer holds the whole hidden-state array. The weight's and the
  bias's blocks are fetched at every point: on the columns a fetch moves — all 512 before the last point, 81 at it —
  the buffer holds the array's block, column q of the buffer being column 512·t + q of the array; past them it holds
  words nothing names.
-/
import proofs.«135622_j82282983457014_2_alg».proof.Proof.Region1
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat RDat Cfg Window)

/-! ## The schedule's index arithmetic, decided once over the 99 points -/

/-- Where each window's block sits at point `t`: the hidden state's at the origin; the weight's, the bias's and the
    result's at column block `t`, row block 0. -/
theorem index_facts : ∀ t : Fin grid1.N,
    (cfg1.win 0).index t 0 = 0 ∧ (cfg1.win 0).index t 1 = 0 ∧
    (cfg1.win 1).index t 0 = 0 ∧ (cfg1.win 1).index t 1 = t.val ∧
    (cfg1.win 2).index t 0 = 0 ∧ (cfg1.win 2).index t 1 = t.val ∧
    (cfg1.win 3).index t 0 = 0 ∧ (cfg1.win 3).index t 1 = t.val := by decide +kernel

/-- How much of each block a transfer moves at point `t`: all rows; all 512 columns before the last point, 81 at it. -/
theorem xsize_facts : ∀ t : Fin grid1.N,
    (cfg1.win 0).xsize (grid1.coords t) 0 = 2048 ∧ (cfg1.win 0).xsize (grid1.coords t) 1 = 2048 ∧
    (cfg1.win 1).xsize (grid1.coords t) 0 = 2048 ∧ (cfg1.win 1).xsize (grid1.coords t) 1 = (if t.val < 98 then 512 else 81) ∧
    (cfg1.win 2).xsize (grid1.coords t) 0 = 1 ∧ (cfg1.win 2).xsize (grid1.coords t) 1 = (if t.val < 98 then 512 else 81) ∧
    (cfg1.win 3).xsize (grid1.coords t) 0 = 2048 ∧ (cfg1.win 3).xsize (grid1.coords t) 1 = (if t.val < 98 then 512 else 81) := by
  decide +kernel

/-! ## What a fetched buffer holds where the fetch filled it -/

variable {F : FTy → Type} [FloatOps F]
variable (V : (c : Dev nD) → (b : Ref sig .tc) → Buf (Elt F) ((c : Thread nD τ).loc b))

/-- A buffer just fetched into, at an index the fetch moved, holds the element of the array's block the transfer
    read there — whatever the buffer held before. -/
theorem fetched_moved (c : Dev nD) (w : Fin cfg1.W) (t : Fin cfg1.N) (d : (cfg1.win w).block.Idx → Elt F (cfg1.win w).elt)
    (j : (cfg1.win w).block.Idx) (h : ∀ a, (j a).val < (cfg1.win w).xsize (cfg1.grid.coords t) a) :
    (rdat1in V c).fetched w t d j
      = ((cfg1.win w).blk t).view.read (Elt F) (V c (Pipeline.arrRef spec1 w)) (fun a => ⟨(j a).val, h a⟩) :=
  (congrArg ((rdat1in V c).fetched w t d)
    (funext fun a => Fin.ext rfl : j = (cfg1.win w).xinj (cfg1.grid.coords t) (fun a => ⟨(j a).val, h a⟩))).trans
    ((cfg1.win w).fill_xinj _ d _ _)

/-- The hidden state's buffer, fetched at point `t`: the whole hidden-state array. -/
theorem fetched_hidden (c : Dev nD) (t : Fin cfg1.N) (d : (cfg1.win 0).block.Idx → Elt F (cfg1.win 0).elt) (p k : Fin 2048) :
    (rdat1in V c).fetched 0 t d (ix2 p k) = V c main_v29_2 (ix2 p k) := by
  obtain ⟨hi0, hi1, -, -, -, -, -, -⟩ := index_facts t
  obtain ⟨hx0, hx1, -, -, -, -, -, -⟩ := xsize_facts t
  have h : ∀ a, ((ix2 p k : (cfg1.win 0).block.Idx) a).val < (cfg1.win 0).xsize (cfg1.grid.coords t) a := fun a => by
    match a with
    | ⟨0, _⟩ => show p.val < (cfg1.win 0).xsize (grid1.coords t) 0; rw [hx0]; exact p.isLt
    | ⟨1, _⟩ => show k.val < (cfg1.win 0).xsize (grid1.coords t) 1; rw [hx1]; exact k.isLt
  refine (fetched_moved V c 0 t d (ix2 p k) h).trans ?_
  show V c main_v29_2 (((cfg1.win 0).blk t).view.emb _) = V c main_v29_2 (ix2 p k)
  refine congrArg (V c main_v29_2) (funext fun a => Fin.ext ?_)
  match a with
  | ⟨0, _⟩ => show (cfg1.win 0).index t 0 * 2048 + 1 * p.val = p.val; rw [hi0]; omega
  | ⟨1, _⟩ => show (cfg1.win 0).index t 1 * 2048 + 1 * k.val = k.val; rw [hi1]; omega

/-- The weight's buffer, fetched at point `t`, at a column `q` the fetch moved: column `512·t + q` of the weight. -/
theorem fetched_weight (c : Dev nD) (t : Fin cfg1.N) (d : (cfg1.win 1).block.Idx → Elt F (cfg1.win 1).elt) (k : Fin 2048) (q : Fin 512)
    (v : Fin 50257) (hq : q.val < (if t.val < 98 then 512 else 81)) (hv : v.val = t.val * 512 + q.val) :
    (rdat1in V c).fetched 1 t d (ix2 k q) = V c main_v30 (ix2 k v) := by
  obtain ⟨-, -, hi0, hi1, -, -, -, -⟩ := index_facts t
  obtain ⟨-, -, hx0, hx1, -, -, -, -⟩ := xsize_facts t
  have h : ∀ a, ((ix2 k q : (cfg1.win 1).block.Idx) a).val < (cfg1.win 1).xsize (cfg1.grid.coords t) a := fun a => by
    match a with
    | ⟨0, _⟩ => show k.val < (cfg1.win 1).xsize (grid1.coords t) 0; rw [hx0]; exact k.isLt
    | ⟨1, _⟩ => show q.val < (cfg1.win 1).xsize (grid1.coords t) 1; rw [hx1]; exact hq
  refine (fetched_moved V c 1 t d (ix2 k q) h).trans ?_
  show V c main_v30 (((cfg1.win 1).blk t).view.emb _) = V c main_v30 (ix2 k v)
  refine congrArg (V c main_v30) (funext fun a => Fin.ext ?_)
  match a with
  | ⟨0, _⟩ => show (cfg1.win 1).index t 0 * 2048 + 1 * k.val = k.val; rw [hi0]; omega
  | ⟨1, _⟩ => show (cfg1.win 1).index t 1 * 512 + 1 * q.val = v.val; rw [hi1, hv]; omega

/-- The bias's buffer, fetched at point `t`, at a column `q` the fetch moved: entry `512·t + q` of the bias row. -/
theorem fetched_bias (c : Dev nD) (t : Fin cfg1.N) (d : (cfg1.win 2).block.Idx → Elt F (cfg1.win 2).elt) (q : Fin 512)
    (v : Fin 50257) (hq : q.val < (if t.val < 98 then 512 else 81)) (hv : v.val = t.val * 512 + q.val) :
    (rdat1in V c).fetched 2 t d (ix2 (0 : Fin 1) q) = V c main_v31 (ix2 (0 : Fin 1) v) := by
  obtain ⟨-, -, -, -, hi0, hi1, -, -⟩ := index_facts t
  obtain ⟨-, -, -, -, hx0, hx1, -, -⟩ := xsize_facts t
  have h : ∀ a, ((ix2 (0 : Fin 1) q : (cfg1.win 2).block.Idx) a).val < (cfg1.win 2).xsize (cfg1.grid.coords t) a := fun a => by
    match a with
    | ⟨0, _⟩ => show 0 < (cfg1.win 2).xsize (grid1.coords t) 0; rw [hx0]; exact Nat.one_pos
    | ⟨1, _⟩ => show q.val < (cfg1.win 2).xsize (grid1.coords t) 1; rw [hx1]; exact hq
  refine (fetched_moved V c 2 t d (ix2 (0 : Fin 1) q) h).trans ?_
  show V c main_v31 (((cfg1.win 2).blk t).view.emb _) = V c main_v31 (ix2 (0 : Fin 1) v)
  refine congrArg (V c main_v31) (funext fun a => Fin.ext ?_)
  match a with
  | ⟨0, _⟩ => show (cfg1.win 2).index t 0 * 1 + 1 * 0 = 0; rw [hi0]
  | ⟨1, _⟩ => show (cfg1.win 2).index t 1 * 512 + 1 * q.val = v.val; rw [hi1, hv]; omega

/-! ## What the three input buffers may hold -/

/-- The hidden state's buffer holds the whole hidden-state array at every point: it is fetched at the first, never
    written back, and the body leaves it as found. By induction on the point. -/
theorem finds_hidden_aux (c : Dev nD) : ∀ (n : Nat) (hn : n < cfg1.N) (Y0 : (cfg1.win 0).block.Idx → Elt F (cfg1.win 0).elt),
    (rdat1in V c).Finds 0 ⟨n, hn⟩ Y0 → ∀ p k : Fin 2048, Y0 (ix2 p k) = V c main_v29_2 (ix2 p k)
  | 0, hn, Y0, h, p, k => by
    rw [(rdat1in V c).finds_of_fetch ((fetch1_0 ⟨0, hn⟩).mpr rfl)] at h
    obtain ⟨d, rfl⟩ := h
    exact fetched_hidden V c ⟨0, hn⟩ d p k
  | n + 1, hn, Y0, h, p, k => by
    have hn' : n + 1 < 99 := by have := hn; rw [show cfg1.N = 99 from N_1] at this; exact this
    have hf : (cfg1.win 0).fetch ⟨n + 1, hn⟩ = false := by
      cases hfe : (cfg1.win 0).fetch ⟨n + 1, hn⟩ with
      | false => rfl
      | true => exact absurd ((fetch1_0 ⟨n + 1, hn⟩).mp hfe) (by show ¬((n + 1) % 99 = 0); omega)
    rw [(rdat1in V c).finds_of_pos hf (by show n + 1 ≠ 0; omega)] at h
    rcases h with hfl | ⟨Y, hY, hafter⟩
    · exact absurd hfl (by rw [show (cfg1.win 0).flush _ = false from rfl]; exact Bool.false_ne_true)
    · have e : Y0 = Y := hafter.resolve_left (by decide)
      rw [e]
      exact finds_hidden_aux c n (by omega) Y hY p k

theorem finds_hidden (c : Dev nD) (t : Fin cfg1.N) (Y0 : (cfg1.win 0).block.Idx → Elt F (cfg1.win 0).elt)
    (h : (rdat1in V c).Finds 0 t Y0) (p k : Fin 2048) : Y0 (ix2 p k) = V c main_v29_2 (ix2 p k) :=
  finds_hidden_aux V c t.val t.isLt Y0 h p k

/-- The weight's buffer, at a column the fetch moved, holds the weight's column `512·t + q`. -/
theorem finds_weight (c : Dev nD) (t : Fin cfg1.N) (Y1 : (cfg1.win 1).block.Idx → Elt F (cfg1.win 1).elt)
    (h : (rdat1in V c).Finds 1 t Y1) (k : Fin 2048) (q : Fin 512) (v : Fin 50257)
    (hq : q.val < (if t.val < 98 then 512 else 81)) (hv : v.val = t.val * 512 + q.val) :
    Y1 (ix2 k q) = V c main_v30 (ix2 k v) := by
  rw [(rdat1in V c).finds_of_fetch (fetch1_1 t)] at h
  obtain ⟨d, rfl⟩ := h
  exact fetched_weight V c t d k q v hq hv

/-- The bias's buffer, at a column the fetch moved, holds the bias row's entry `512·t + q`. -/
theorem finds_bias (c : Dev nD) (t : Fin cfg1.N) (Y2 : (cfg1.win 2).block.Idx → Elt F (cfg1.win 2).elt)
    (h : (rdat1in V c).Finds 2 t Y2) (q : Fin 512) (v : Fin 50257)
    (hq : q.val < (if t.val < 98 then 512 else 81)) (hv : v.val = t.val * 512 + q.val) :
    Y2 (ix2 (0 : Fin 1) q) = V c main_v31 (ix2 (0 : Fin 1) v) := by
  rw [(rdat1in V c).finds_of_fetch (fetch1_2 t)] at h
  obtain ⟨d, rfl⟩ := h
  exact fetched_bias V c t d q v hq hv

end Cert.KernelIdeal.Hand

end
-- ==== Proof.LogitsBody.lean ====
/-
  The classifier kernel's body at an index, on the extended reals.

  The body multiplies the hidden block [2048, 2048] by the weight block [2048, 512] into a zero accumulator and adds
  the bias row [1, 512] repeated down the rows. Entry (p, q) of what it leaves in the result's staging buffer is
  therefore the sum over k of hidden(p, k) · weight(k, q), plus bias(0, q): it reads column q of the weight block and
  of the bias block and no other column.
-/
import proofs.«135622_j82282983457014_2_alg».proof.Proof.Region1Body
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-- The product's left element at position `k` of entry `i`: the row is the entry's. -/
theorem lhs_cls_0 (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl
/-- … and the column is the contracted position. -/
theorem lhs_cls_1 (i : S2048x512.Idx) (q : dot_S2048x2048_S2048x512_S2048x512_1_0_0_1_n_n.contr.Idx) :
    (dot_S2048x2048_S2048x512_S2048x512_1_0_0_1_n_n.lhsIdx i q 1).val = (q ⟨0, by decide⟩).val :=
  dot_S2048x2048_S2048x512_S2048x512_1_0_0_1_n_n.lhsIdx_val_of_single rfl i q
/-- The product's right element at position `k` of entry `i`: the row is the contracted position, -/
theorem rhs_cls_0 (i : S2048x512.Idx) (q : dot_S2048x2048_S2048x512_S2048x512_1_0_0_1_n_n.contr.Idx) :
    (dot_S2048x2048_S2048x512_S2048x512_1_0_0_1_n_n.rhsIdx i q 0).val = (q ⟨0, by decide⟩).val :=
  dot_S2048x2048_S2048x512_S2048x512_1_0_0_1_n_n.rhsIdx_val_of_single rfl i q
/-- … and the column is the entry's. -/
theorem rhs_cls_1 (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

/-- The product into the zero accumulator, at (p, q): the plain sum over the 2048 contracted positions. -/
theorem matmul_cls_apply (l : FVec Ideal S2048x2048 .bf16) (r : FVec Ideal S2048x512 .bf16) (p : Fin 2048) (q : Fin 512) :
    FloatOps.matmul dot_S2048x2048_S2048x512_S2048x512_1_0_0_1_n_n none l r (constant S2048x512 .f32 0x00000000#32) (ix2 p q)
      = ∑ k : Fin 2048, l (ix2 p k) * r (ix2 k q) := by
  refine (Ideal.matmul_constant_zero_apply dot_S2048x2048_S2048x512_S2048x512_1_0_0_1_n_n none l r (ix2 p q)).trans ?_
  rw [← Equiv.sum_comp (ValueIdx.contrEquiv1 dot_S2048x2048_S2048x512_S2048x512_1_0_0_1_n_n 2048 rfl rfl).symm]
  refine Finset.sum_congr rfl fun k _ => ?_
  have hk := ValueIdx.contrEquiv1_symm_val dot_S2048x2048_S2048x512_S2048x512_1_0_0_1_n_n 2048 rfl rfl k
  have el : dot_S2048x2048_S2048x512_S2048x512_1_0_0_1_n_n.lhsIdx (ix2 p q) ((ValueIdx.contrEquiv1 dot_S2048x2048_S2048x512_S2048x512_1_0_0_1_n_n 2048 rfl rfl).symm k) = ix2 p k := funext fun a => Fin.ext (by
    match a with
    | ⟨0, _⟩ => exact lhs_cls_0 _ _
    | ⟨1, _⟩ => exact (lhs_cls_1 _ _).trans hk)
  have er : dot_S2048x2048_S2048x512_S2048x512_1_0_0_1_n_n.rhsIdx (ix2 p q) ((ValueIdx.contrEquiv1 dot_S2048x2048_S2048x512_S2048x512_1_0_0_1_n_n 2048 rfl rfl).symm k) = ix2 k q := funext fun a => Fin.ext (by
    match a with
    | ⟨0, _⟩ => exact (rhs_cls_0 _ _).trans hk
    | ⟨1, _⟩ => exact rhs_cls_1 _ _)
  rw [el, er]

/-- The bias row repeated down the rows, at (p, q): the row's entry q. -/
theorem bias_row_apply {α : Type} (b : S1x512.Idx → α) (h : S1x512.Broadcasts S2048x512) (p : Fin 2048) (q : Fin 512) :
    broadcastTo S2048x512 b h (ix2 p q) = b (ix2 0 q) :=
  broadcastTo_apply b h (ix2 p q) (ix2 0 q) (fun a => by
    match a with
    | ⟨0, _⟩ => rfl
    | ⟨1, _⟩ => rfl)

/-- **The body's arithmetic at (p, q)**: the hidden row p against the weight column q, plus the bias at q. -/
theorem k1_pay1_apply (v0 : Vec Ideal S2048x2048 .bf16) (v2 : Vec Ideal S2048x512 .bf16) (v5 : Vec Ideal S1x512 .f32)
    (p : Fin 2048) (q : Fin 512) :
    k1_pay1 (F := Ideal) v0 v2 v5 (ix2 p q) = (∑ k : Fin 2048, v0 (ix2 p k) * v2 (ix2 k q)) + v5 (ix2 0 q) := by
  unfold k1_pay1
  refine (ValueIdx.addf_apply _ _ (ix2 p q)).trans ?_
  refine congrArg₂ (· + ·) ?_ ?_
  · refine (matmul_cls_apply _ _ p q).trans ?_
    refine Finset.sum_congr rfl fun k _ => ?_
    exact congrArg₂ (· * ·) (congrFun (shapeCast_self v0 _) _) (congrFun (shapeCast_self v2 _) _)
  · refine (bias_row_apply _ _ p q).trans ?_
    exact congrFun (shapeCast_self v5 _) _

/-- **What the body leaves in the result's staging buffer, at (p, q)**, from what the three input buffers hold. -/
theorem out1_3_apply (Y0 : Vec Ideal S2048x2048 .bf16) (Y1 : Vec Ideal S2048x512 .bf16) (Y2 : Vec Ideal S1x512 .f32)
    (p : Fin 2048) (q : Fin 512) :
    out1_3 (F := Ideal) Y0 Y1 Y2 (ix2 p q) = (∑ k : Fin 2048, Y0 (ix2 p k) * Y1 (ix2 k q)) + Y2 (ix2 0 q) := by
  have hz : (![0, 0] : Fin 2 → Nat) = fun _ => 0 := funext fun a => by
    match a with
    | ⟨0, _⟩ => rfl
    | ⟨1, _⟩ => rfl
  unfold out1_3
  rw [View.canon_unit_zero hz]
  rw [View.ld_unit_zero (S := S2048x2048) hz, View.ld_unit_zero (S := S2048x512) hz, View.ld_unit_zero (S := S1x512) hz]
  exact k1_pay1_apply Y0 Y1 Y2 p q

end Cert.KernelIdeal.Hand

end
-- ==== Proof.LibArrCut.lean ====
/-
  Relational proof data whose relation pins the MOVED PART of what the body leaves determine the array.

  Relational proof data (`RDat`) say of each window's staging buffer only which contents the body may leave there.
  What the window's array may hold after the write-backs below a point (`RDat.ArrAt`) is then a predicate: the entry
  contents, each flushed block overwritten in point order by the moved part — the block cut at the array's end
  (`Window.cut`) — of SOME contents the body may have left.

  A window whose last block overhangs its array leaves, past the array's end, words no argument determines, so no
  relation can pin the whole staging buffer. But only the moved part ever reaches the array. If at every point that
  writes back, whatever the body may leave has as its moved part the point's block of ONE whole-array contents `G`,
  then every index some flushed block below `n` covers reads `G` after the write-backs below `n` — a later point
  covering it again writes the same value, an earlier one is overwritten — and when the flushed blocks cover the
  array, the array can only be `G`. (The exact-data forms are `Dat.arrAt_apply_of_mem` and `Dat.arrAt_eq_of_cover`.)
-/
import Idealize.ShloMosaic.Lib.Pipeline.Value

noncomputable section

namespace Idealize.ShloMosaic

open Idealize.SL
open Idealize.SL.BI (sProp)
open scoped Idealize.SL.BI
open Idealize.SL.BI.BIBase Idealize.SL.BI.Laws Idealize.SL.Sem Idealize.SL.ProofMode
open Idealize.SL.RA

namespace Pipeline

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD}

/-- POINTWISE. If at every point that writes window `w`'s block back the moved part of whatever the relation lets the
    body leave is that point's block of `G` (`hG`), then an index in a flushed block below `n` reads `G` in every
    contents the array may hold after the write-backs below `n`. By induction on `n`: at a write-back the index is
    either in the block just written, where the moved part is `G`'s block, or keeps what it held. -/
theorem RDat.arrAt_apply_of_cut (rd : RDat τ Val Ix Name U Lvl cfg c) (w : Fin cfg.W)
    (G : Buf Val ((cfg.win w).arr.view.loc (c.tc : Thread nD τ)))
    (hG : ∀ (t : Fin cfg.N) (X : (cfg.win w).block.Idx → Val (cfg.win w).elt), (cfg.win w).flush t = true → rd.Leaves w t X →
      (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, h, t, i, ht, hf, hi => by
    by_cases hn : n < cfg.N
    swap
    · -- past the grid nothing changes, and `t` is below `n`
      have e : rd.ArrAt w (n + 1) = rd.ArrAt w n :=
        (rd.ArrAt_stable w (n + 1) (by omega)).trans (rd.ArrAt_stable w n (by omega)).symm
      rw [e] at h
      exact RDat.arrAt_apply_of_cut rd w G hG n F h t i (by have := t.isLt; omega) hf hi
    have hR := rd.ArrAt_succ w ⟨n, hn⟩
    dsimp only at hR
    rw [hR] at h
    by_cases hfn : (cfg.win w).flush ⟨n, hn⟩ = true
    · rw [if_pos hfn] at h
      obtain ⟨F₀, X, hF₀, hL, rfl⟩ := h
      rw [hG _ X hfn hL, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        -- not in point `n`'s block: then `t` is an earlier point
        have htn : t.val ≠ n := fun e => hin (by rw [View.setOn_univ]; have : t = ⟨n, hn⟩ := Fin.ext e; exact this ▸ hi)
        exact RDat.arrAt_apply_of_cut rd w G hG n F₀ hF₀ t i (by omega) hf hi
    · rw [if_neg hfn] at h
      have htn : t.val ≠ n := fun e => hfn (by have : t = ⟨n, hn⟩ := Fin.ext e; exact this ▸ hf)
      exact RDat.arrAt_apply_of_cut rd w G hG n F h t i (by omega) hf hi

/-- THE WHOLE ARRAY. When moreover every index of the array is in some flushing point's block (`hcover`), the one
    contents the array may hold after all the write-backs is `G`. -/
theorem RDat.arrAt_eq_of_cut_cover (rd : RDat τ Val Ix Name U Lvl cfg c) (w : Fin cfg.W)
    (G : Buf Val ((cfg.win w).arr.view.loc (c.tc : Thread nD τ)))
    (hG : ∀ (t : Fin cfg.N) (X : (cfg.win w).block.Idx → Val (cfg.win w).elt), (cfg.win w).flush t = true → rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (h : rd.ArrAt w cfg.N F) : F = G :=
  funext fun i => by
    obtain ⟨t, hf, hi⟩ := hcover i
    exact RDat.arrAt_apply_of_cut rd w G hG cfg.N F h t i t.isLt hf hi

end Pipeline

end Idealize.ShloMosaic

end
-- ==== Proof.LogitsValue.lean ====
/-
  The classifier pipeline's result array, in closed form, on the extended reals.

  Entry (p, q) of what the body leaves in the result's staging buffer reads only column q of the weight's and the
  bias's buffers. For a column q the write-back moves — one inside the array — those buffers hold the arrays' own
  column 512·t + q, and the hidden state's buffer holds the whole hidden-state array, so the entry is
      Σ_k hidden(p, k) · weight(k, 512·t + q) + bias(0, 512·t + q)
  whatever words lay past the array's end. Only such columns are written back; the 99 blocks cover every column
  below 50257 (column v lies in block v / 512, and in the last block only 81 columns are inside); so after all the
  write-backs the result array can only be that closed form.
-/
import proofs.«135622_j82282983457014_2_alg».proof.Proof.LogitsFinds
import proofs.«135622_j82282983457014_2_alg».proof.Proof.LogitsBody
import proofs.«135622_j82282983457014_2_alg».proof.Proof.LibArrCut

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.ShloMosaic.Pipeline (Dat RDat Cfg Window)

variable (V : (c : Dev nD) → (b : Ref sig .tc) → Buf (Elt Ideal) ((c : Thread nD τ).loc b))

/-- The hidden-state array as the classifier finds it, -/
abbrev clsHidden (c : Dev nD) : S2048x2048.Idx → EReal := V c main_v29_2
/-- the weight, -/
abbrev clsWeight (c : Dev nD) : S2048x50257.Idx → EReal := V c main_v30
/-- and the bias row. -/
abbrev clsBias (c : Dev nD) : S1x50257.Idx → EReal := V c main_v31

/-- The logit at row `p`, column `v`: hidden row p against weight column v, plus the bias at v. -/
def clsEntry (c : Dev nD) (p : Fin 2048) (v : Fin 50257) : EReal :=
  (∑ k : Fin 2048, clsHidden V c (ix2 p k) * clsWeight V c (ix2 k v)) + clsBias V c (ix2 (0 : Fin 1) v)

/-- The logits as a whole array. -/
def clsArr (c : Dev nD) : S2048x50257.Idx → EReal := fun i => clsEntry V c (i 0) (i 1)

/-- **The moved part of anything the body may leave at point `t` is the point's block of the closed form.** -/
theorem cut_leaves (c : Dev nD) (t : Fin cfg1.N) (X : (cfg1.win 3).block.Idx → Elt Ideal (cfg1.win 3).elt)
    (hL : (rdat1 V c).Leaves 3 t X) :
    (cfg1.win 3).cut (cfg1.grid.coords t) X = ((cfg1.win 3).blk t).view.read (Elt Ideal) (clsArr V c) := by
  obtain ⟨Y, -, hafter⟩ := hL
  obtain ⟨Y0, Y1, Y2, h0, h1, h2, rfl⟩ := (after1_3 V c t Y X).mp hafter
  obtain ⟨-, -, -, -, -, -, hi0, hi1⟩ := index_facts t
  obtain ⟨-, -, -, -, -, -, hx0, hx1⟩ := xsize_facts t
  have hN : t.val < 99 := Nat.lt_of_lt_of_eq t.isLt N_1
  funext j
  -- the coordinates of an index of the moved part: a row, and a column inside the array
  have hj0 : (j 0).val < 2048 := by
    have := (j 0).isLt; change (j 0).val < (cfg1.win 3).xsize (grid1.coords t) 0 at this; rw [hx0] at this; exact this
  have hj1 : (j 1).val < (if t.val < 98 then 512 else 81) := by
    have := (j 1).isLt; change (j 1).val < (cfg1.win 3).xsize (grid1.coords t) 1 at this; rw [hx1] at this; exact this
  have hq : (j 1).val < 512 := by split at hj1 <;> omega
  have hv : t.val * 512 + (j 1).val < 50257 := by split at hj1 <;> omega
  -- where the index sits in the staging buffer, and where in the array
  have eb : (cfg1.win 3).xinj (cfg1.grid.coords t) j = ix2 (⟨(j 0).val, hj0⟩ : Fin 2048) (⟨(j 1).val, hq⟩ : Fin 512) :=
    funext fun a => Fin.ext (by
      match a with
      | ⟨0, _⟩ => rfl
      | ⟨1, _⟩ => rfl)
  have ea : ((cfg1.win 3).blk t).view.emb j = ix2 (⟨(j 0).val, hj0⟩ : Fin 2048) (⟨t.val * 512 + (j 1).val, hv⟩ : Fin 50257) :=
    funext fun a => Fin.ext (by
      match a with
      | ⟨0, _⟩ => show (cfg1.win 3).index t 0 * 2048 + 1 * (j 0).val = (j 0).val; rw [hi0]; omega
      | ⟨1, _⟩ => show (cfg1.win 3).index t 1 * 512 + 1 * (j 1).val = t.val * 512 + (j 1).val; rw [hi1]; omega)
  show out1_3 (F := Ideal) Y0 Y1 Y2 ((cfg1.win 3).xinj (cfg1.grid.coords t) j) = clsArr V c (((cfg1.win 3).blk t).view.emb j)
  rw [eb, ea, out1_3_apply]
  show _ = clsEntry V c ⟨(j 0).val, hj0⟩ ⟨t.val * 512 + (j 1).val, hv⟩
  unfold clsEntry
  refine congrArg₂ (· + ·) (Finset.sum_congr rfl fun k _ => congrArg₂ (· * ·) ?_ ?_) ?_
  · exact finds_hidden V c t Y0 h0 _ k
  · exact finds_weight V c t Y1 h1 k _ _ hj1 rfl
  · exact finds_bias V c t Y2 h2 _ _ hj1 rfl

/-- Every entry of the result array is in some block: column `v` in block `v / 512`. -/
theorem cls_cover (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0).val < 2048 := (i 0).isLt
  have h1 : (i 1).val < 50257 := (i 1).isLt
  obtain ⟨t, ht⟩ : ∃ t : Fin cfg1.N, t.val = (i 1).val / 512 :=
    ⟨⟨(i 1).val / 512, Nat.lt_of_lt_of_eq (show (i 1).val / 512 < 99 by omega) N_1.symm⟩, rfl⟩
  refine ⟨t, flush1_3 t, ?_⟩
  obtain ⟨-, -, -, -, -, -, hi0, hi1⟩ := index_facts t
  obtain ⟨-, -, -, -, -, -, hx0, hx1⟩ := xsize_facts t
  show i ∈ ((View.whole main_v32).slice ((cfg1.win 3).rect t)).set
  rw [View.set_slice_whole, Rect.mem_set_unit]
  intro a
  match a with
  | ⟨0, _⟩ =>
    show (cfg1.win 3).index t 0 * 2048 ≤ (i 0).val ∧ (i 0).val < (cfg1.win 3).index t 0 * 2048 + (cfg1.win 3).xsize (grid1.coords t) 0
    rw [hi0, hx0]; omega
  | ⟨1, _⟩ =>
    show (cfg1.win 3).index t 1 * 512 ≤ (i 1).val ∧ (i 1).val < (cfg1.win 3).index t 1 * 512 + (cfg1.win 3).xsize (grid1.coords t) 1
    rw [hi1, hx1, ht]; split <;> omega

/-- **The result array after the run is the closed form**: the one contents it may hold after all the write-backs. -/
theorem logits_arr_unique (c : Dev nD) (Fa : Buf (Elt Ideal) ((cfg1.win 3).arr.view.loc (c.tc : Thread nD τ)))
    (h : (rdat1 (F := Ideal) V c).ArrAt 3 cfg1.N Fa) : Fa = clsArr V c :=
  Pipeline.RDat.arrAt_eq_of_cut_cover (rdat1 (F := Ideal) V c) 3 (clsArr V c)
    (fun t X _ hL => cut_leaves V c t X hL) (cls_cover c) Fa h

/-- **The logits, entry by entry.** -/
theorem logits_unique (c : Dev nD) (Fa : Buf (Elt Ideal) ((cfg1.win 3).arr.view.loc (c.tc : Thread nD τ)))
    (h : (rdat1 (F := Ideal) V c).ArrAt 3 cfg1.N Fa) (p : Fin 2048) (v : Fin 50257) :
    Fa (ix2 p v)
      = (∑ k : Fin 2048, clsHidden V c (ix2 p k) * clsWeight V c (ix2 k v)) + clsBias V c (ix2 (0 : Fin 1) v) := by
  rw [logits_arr_unique V c Fa h]
  rfl

end Cert.KernelIdeal.Hand

end
-- ==== Proof.KernelValue.lean ====
/-
  The kernel's three results at the extended reals, as functions of the launch memory. The two float results of the cell
  kernel are its closed forms. The logits: the classifier's array can only end at the hidden state (the cell kernel's
  third result, as its write-backs left it) times the classifier's weight plus its bias — each read back through the
  host lines to the arguments.
-/
import proofs.«135622_j82282983457014_2_alg».proof.Proof.CellValue
import proofs.«135622_j82282983457014_2_alg».proof.Proof.LogitsValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx

variable (m : (ℓ : Loc nD τ sig) → Buf (Elt Ideal) ℓ) (ρ : Dev nD → PrngReg)

/-- What the cell kernel's body leaves in each staging buffer, as the run's parameter. -/
abbrev aft0 : ((c : Dev nD) → (b : Ref sig .tc) → Buf (Elt Ideal) ((c : Thread nD τ).loc b)) → (c : Dev nD) →
    (w : Fin cfg0.W) → Fin cfg0.N → (cfg0.win w).block.Idx → Elt Ideal (cfg0.win w).elt :=
  fun V c => (dat0 V c).after

/-- The logits as a whole array. -/
def gY (c : Dev nD) : S2048x50257.Idx → EReal := fun i =>
  Cert.Lstm.logits (fun p k => Cert.Lstm.hNew (aX m c) (W0 m c (Proc.devRef .tc main_arg1)) (W0 m c (Proc.devRef .tc main_arg2)) (W0 m c (Proc.devRef .tc main_arg4)) (W0 m c (Proc.devRef .tc main_arg5)) (W0 m c (Proc.devRef .tc main_arg6)) (W0 m c (Proc.devRef .tc main_arg7)) (W0 m c (Proc.devRef .tc main_arg8)) (W0 m c (Proc.devRef .tc main_arg9)) (W0 m c (Proc.devRef .tc main_arg10)) (W0 m c (Proc.devRef .tc main_arg11)) p k) (W0 m c (Proc.devRef .tc main_arg12)) (W0 m c (Proc.devRef .tc main_arg13)) (i 0) (i 1)

/-- The classifier's array can only end at the logits. -/
theorem logits_final (c : Dev nD) (Fa : Buf (Elt Ideal) ((cfg1.win 3).arr.view.loc (c.tc : Thread nD τ)))
    (h : (rdat1 (F := Ideal) (V3 m aft0) c).ArrAt 3 cfg1.N Fa) : Fa = gY m c := by
  funext i
  obtain ⟨p, v, rfl⟩ : ∃ (p : Fin 2048) (v : Fin 50257), i = ix2 p v := ⟨i 0, i 1, eq_ix2 i⟩
  rw [logits_unique (V3 m aft0) c Fa h p v]
  show _ = Cert.Lstm.logits _ _ _ p v
  unfold Cert.Lstm.logits
  have hH : ∀ k : Fin 2048, clsHidden (V3 m aft0) c (ix2 p k) = Cert.Lstm.hNew (aX m c) (W0 m c (Proc.devRef .tc main_arg1)) (W0 m c (Proc.devRef .tc main_arg2)) (W0 m c (Proc.devRef .tc main_arg4)) (W0 m c (Proc.devRef .tc main_arg5)) (W0 m c (Proc.devRef .tc main_arg6)) (W0 m c (Proc.devRef .tc main_arg7)) (W0 m c (Proc.devRef .tc main_arg8)) (W0 m c (Proc.devRef .tc main_arg9)) (W0 m c (Proc.devRef .tc main_arg10)) (W0 m c (Proc.devRef .tc main_arg11)) p k := fun k => by
    show W3 m aft0 c (Proc.devRef .tc main_v29_2) (ix2 p k) = _
    rw [W3_main_v29_2]
    show (dat0 (V1 m) c).arrAt 17 cfg0.N (ix2 p k) = _
    rw [final17]; rfl
  have hW : ∀ k : Fin 2048, clsWeight (V3 m aft0) c (ix2 k v) = (W0 m c (Proc.devRef .tc main_arg12)) (ix2 k v) := fun k => by
    show W3 m aft0 c (Proc.devRef .tc main_v30) (ix2 k v) = _
    rw [W3_main_v30]; rfl
  have hB : clsBias (V3 m aft0) c (ix2 (0 : Fin 1) v) = (W0 m c (Proc.devRef .tc main_arg13)) (ix1 v) := by
    show W3 m aft0 c (Proc.devRef .tc main_v31) (ix2 (0 : Fin 1) v) = _
    rw [W3_main_v31]
    refine (shapeCast_addUnit_apply ![50257] _ _ _).trans (congrArg _ ?_)
    funext a; match a with | ⟨0, _⟩ => rfl
  rw [hB]
  congr 1
  exact Finset.sum_congr rfl fun k _ => by rw [hH k, hW k]

/-- THE KERNEL'S RUN at the extended reals: it terminates, the logits end at `gY`, the new hidden state at `gH`, the new
    cell state at `gC`, every argument as launched. -/
theorem kernel_run : θ_run defs (onTc (τ := τ) (main (F := Ideal))) ⟨m, fun _ => 0, ρ⟩ (fun r => ∀ c : Dev nD,
      r.2.mem ((c.tc : Thread nD τ).loc main_v32) = gY m c
      ∧ r.2.mem ((c.tc : Thread nD τ).loc main_v29_0) = gH m c
      ∧ r.2.mem ((c.tc : Thread nD τ).loc main_v29_1) = gC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨logits_final m c _ (h c).1, (h c).2.1.trans (final15 m c), (h c).2.2.1.trans (final16 m c), (h c).2.2.2⟩)
    (run_read (F := Ideal) m ρ aft0 (fun V c => body_obligation0 V c))

end Cert.KernelIdeal.Hand

end
-- ==== Proof.RefValueA.lean ====
/-
  The reference joins its operands before its one large product: the embedding rows beside the hidden state
  ([2048, 4096]), the four gate weights side by side ([4096, 8192]) and the four gate biases end to end ([8192]).
  Read at an index, a joined array is one of its pieces: the coordinate on the joined axis says which piece, and
  the piece is read at that coordinate less the extents of the pieces before it.

  Columns of the fused product fall in four bands of 2048; `band0 … band3` name column `q` of each band. With the
  joined operands read piece by piece, one entry of the fused product plus the fused bias is a gate's
  pre-activation: the sum over the 4096 joined positions splits into the 2048 that meet the embedding and the 2048
  that meet the hidden state.

  Last, the logistic function as the reference spells it: one over one plus the exponential of the negation, the
  two ones being the float literal whose value is the real number one.
-/
import proofs.«135622_j82282983457014_2_alg».proof.Proof.Spec
import proofs.«135622_j82282983457014_2_alg».proof.ReferenceIdeal
import Idealize.ShloMosaic.Lib.Pipeline.Value
import Idealize.ShloMosaic.Lib.IdealHost

noncomputable section

open scoped BigOperators

namespace Cert.ReferenceIdeal.RefValue

open Cert.ReferenceIdeal Cert.Lstm Idealize.ShloMosaic Idealize.ShloMosaic.ValueIdx

/-- Column `q` of the first band of the fused product (the forget gate's). -/
abbrev band0 (q : Fin 2048) : Fin 8192 := ⟨q.val, by omega⟩
/-- Column `q` of the second band (the input gate's). -/
abbrev band1 (q : Fin 2048) : Fin 8192 := ⟨2048 + q.val, by omega⟩
/-- Column `q` of the third band (the output gate's). -/
abbrev band2 (q : Fin 2048) : Fin 8192 := ⟨4096 + q.val, by omega⟩
/-- Column `q` of the fourth band (the candidate's). -/
abbrev band3 (q : Fin 2048) : Fin 8192 := ⟨6144 + q.val, by omega⟩

section Joined
variable {α : Type}

/-- The first 2048 columns of the embedding rows joined with the hidden state are the embedding rows. -/
theorem joined_rows_up (a b : S2048x2048.Idx → α) (h : Shape.Concatenates [S2048x2048, S2048x2048] S2048x4096 1)
    (p k : Fin 2048) :
    concatenate S2048x4096 1 [⟨S2048x2048, a⟩, ⟨S2048x2048, b⟩] h (ix2 p (up k)) = a (ix2 p k) :=
  concatenate_pair_apply_left 1 a b h (ix2 p (up k)) rfl (ix2 p k)
    (fun d => match d with | ⟨0, _⟩ => rfl | ⟨1, _⟩ => rfl)

/-- The last 2048 columns of the embedding rows joined with the hidden state are the hidden state. -/
theorem joined_rows_lo (a b : S2048x2048.Idx → α) (h : Shape.Concatenates [S2048x2048, S2048x2048] S2048x4096 1)
    (p k : Fin 2048) :
    concatenate S2048x4096 1 [⟨S2048x2048, a⟩, ⟨S2048x2048, b⟩] h (ix2 p (lo k)) = b (ix2 p k) :=
  concatenate_pair_apply_right 1 a b h (ix2 p (lo k)) rfl rfl (ix2 p k)
    (fun d hd => match d, hd with | ⟨0, _⟩, _ => rfl | ⟨1, _⟩, hd => absurd rfl hd)
    (by show k.val + 2048 = 2048 + k.val; omega)

/-- The four weights side by side, read in the first band: the first weight. -/
theorem joined_weights_band0 (w0 w1 w2 w3 : S4096x2048.Idx → α)
    (h : Shape.Concatenates [S4096x2048, S4096x2048, S4096x2048, S4096x2048] S4096x8192 1) (r : Fin 4096) (q : Fin 2048) :
    concatenate S4096x8192 1 [⟨S4096x2048, w0⟩, ⟨S4096x2048, w1⟩, ⟨S4096x2048, w2⟩, ⟨S4096x2048, w3⟩] h (ix2 r (band0 q))
      = w0 (ix2 r q) :=
  concatenate_apply_piece 1 [⟨S4096x2048, w0⟩, ⟨S4096x2048, w1⟩, ⟨S4096x2048, w2⟩, ⟨S4096x2048, w3⟩] h (ix2 r (band0 q)) 0 (by show (0 : Nat) < 4; omega) S4096x2048 w0 rfl rfl 0 rfl (ix2 r q)
    (fun d hd => match d, hd with | ⟨0, _⟩, _ => rfl | ⟨1, _⟩, hd => absurd rfl hd)
    (by show 0 + q.val = q.val; omega)

/-- The four weights side by side, read in the second band: the second weight. -/
theorem joined_weights_band1 (w0 w1 w2 w3 : S4096x2048.Idx → α)
    (h : Shape.Concatenates [S4096x2048, S4096x2048, S4096x2048, S4096x2048] S4096x8192 1) (r : Fin 4096) (q : Fin 2048) :
    concatenate S4096x8192 1 [⟨S4096x2048, w0⟩, ⟨S4096x2048, w1⟩, ⟨S4096x2048, w2⟩, ⟨S4096x2048, w3⟩] h (ix2 r (band1 q))
      = w1 (ix2 r q) :=
  concatenate_apply_piece 1 [⟨S4096x2048, w0⟩, ⟨S4096x2048, w1⟩, ⟨S4096x2048, w2⟩, ⟨S4096x2048, w3⟩] h (ix2 r (band1 q)) 1 (by show (1 : Nat) < 4; omega) S4096x2048 w1 rfl rfl 2048 rfl (ix2 r q)
    (fun d hd => match d, hd with | ⟨0, _⟩, _ => rfl | ⟨1, _⟩, hd => absurd rfl hd)
    (by show 2048 + q.val = 2048 + q.val; rfl)

/-- The four weights side by side, read in the third band: the third weight. -/
theorem joined_weights_band2 (w0 w1 w2 w3 : S4096x2048.Idx → α)
    (h : Shape.Concatenates [S4096x2048, S4096x2048, S4096x2048, S4096x2048] S4096x8192 1) (r : Fin 4096) (q : Fin 2048) :
    concatenate S4096x8192 1 [⟨S4096x2048, w0⟩, ⟨S4096x2048, w1⟩, ⟨S4096x2048, w2⟩, ⟨S4096x2048, w3⟩] h (ix2 r (band2 q))
      = w2 (ix2 r q) :=
  concatenate_apply_piece 1 [⟨S4096x2048, w0⟩, ⟨S4096x2048, w1⟩, ⟨S4096x2048, w2⟩, ⟨S4096x2048, w3⟩] h (ix2 r (band2 q)) 2 (by show (2 : Nat) < 4; omega) S4096x2048 w2 rfl rfl 4096 rfl (ix2 r q)
    (fun d hd => match d, hd with | ⟨0, _⟩, _ => rfl | ⟨1, _⟩, hd => absurd rfl hd)
    (by show 4096 + q.val = 4096 + q.val; rfl)

/-- The four weights side by side, read in the fourth band: the fourth weight. -/
theorem joined_weights_band3 (w0 w1 w2 w3 : S4096x2048.Idx → α)
    (h : Shape.Concatenates [S4096x2048, S4096x2048, S4096x2048, S4096x2048] S4096x8192 1) (r : Fin 4096) (q : Fin 2048) :
    concatenate S4096x8192 1 [⟨S4096x2048, w0⟩, ⟨S4096x2048, w1⟩, ⟨S4096x2048, w2⟩, ⟨S4096x2048, w3⟩] h (ix2 r (band3 q))
      = w3 (ix2 r q) :=
  concatenate_apply_piece 1 [⟨S4096x2048, w0⟩, ⟨S4096x2048, w1⟩, ⟨S4096x2048, w2⟩, ⟨S4096x2048, w3⟩] h (ix2 r (band3 q)) 3 (by show (3 : Nat) < 4; omega) S4096x2048 w3 rfl rfl 6144 rfl (ix2 r q)
    (fun d hd => match d, hd with | ⟨0, _⟩, _ => rfl | ⟨1, _⟩, hd => absurd rfl hd)
    (by show 6144 + q.val = 6144 + q.val; rfl)

/-- The four biases end to end, read in the first band: the first bias. -/
theorem joined_biases_band0 (b0 b1 b2 b3 : S2048.Idx → α)
    (h : Shape.Concatenates [S2048, S2048, S2048, S2048] S8192 0) (q : Fin 2048) :
    concatenate S8192 0 [⟨S2048, b0⟩, ⟨S2048, b1⟩, ⟨S2048, b2⟩, ⟨S2048, b3⟩] h (ix1 (band0 q)) = b0 (ix1 q) :=
  concatenate_apply_piece 0 [⟨S2048, b0⟩, ⟨S2048, b1⟩, ⟨S2048, b2⟩, ⟨S2048, b3⟩] h (ix1 (band0 q)) 0 (by show (0 : Nat) < 4; omega) S2048 b0 rfl rfl 0 rfl (ix1 q)
    (fun d hd => match d, hd with | ⟨0, _⟩, hd => absurd rfl hd)
    (by show 0 + q.val = q.val; omega)

/-- The four biases end to end, read in the second band: the second bias. -/
theorem joined_biases_band1 (b0 b1 b2 b3 : S2048.Idx → α)
    (h : Shape.Concatenates [S2048, S2048, S2048, S2048] S8192 0) (q : Fin 2048) :
    concatenate S8192 0 [⟨S2048, b0⟩, ⟨S2048, b1⟩, ⟨S2048, b2⟩, ⟨S2048, b3⟩] h (ix1 (band1 q)) = b1 (ix1 q) :=
  concatenate_apply_piece 0 [⟨S2048, b0⟩, ⟨S2048, b1⟩, ⟨S2048, b2⟩, ⟨S2048, b3⟩] h (ix1 (band1 q)) 1 (by show (1 : Nat) < 4; omega) S2048 b1 rfl rfl 2048 rfl (ix1 q)
    (fun d hd => match d, hd with | ⟨0, _⟩, hd => absurd rfl hd)
    (by show 2048 + q.val = 2048 + q.val; rfl)

/-- The four biases end to end, read in the third band: the third bias. -/
theorem joined_biases_band2 (b0 b1 b2 b3 : S2048.Idx → α)
    (h : Shape.Concatenates [S2048, S2048, S2048, S2048] S8192 0) (q : Fin 2048) :
    concatenate S8192 0 [⟨S2048, b0⟩, ⟨S2048, b1⟩, ⟨S2048, b2⟩, ⟨S2048, b3⟩] h (ix1 (band2 q)) = b2 (ix1 q) :=
  concatenate_apply_piece 0 [⟨S2048, b0⟩, ⟨S2048, b1⟩, ⟨S2048, b2⟩, ⟨S2048, b3⟩] h (ix1 (band2 q)) 2 (by show (2 : Nat) < 4; omega) S2048 b2 rfl rfl 4096 rfl (ix1 q)
    (fun d hd => match d, hd with | ⟨0, _⟩, hd => absurd rfl hd)
    (by show 4096 + q.val = 4096 + q.val; rfl)

/-- The four biases end to end, read in the fourth band: the fourth bias. -/
theorem joined_biases_band3 (b0 b1 b2 b3 : S2048.Idx → α)
    (h : Shape.Concatenates [S2048, S2048, S2048, S2048] S8192 0) (q : Fin 2048) :
    concatenate S8192 0 [⟨S2048, b0⟩, ⟨S2048, b1⟩, ⟨S2048, b2⟩, ⟨S2048, b3⟩] h (ix1 (band3 q)) = b3 (ix1 q) :=
  concatenate_apply_piece 0 [⟨S2048, b0⟩, ⟨S2048, b1⟩, ⟨S2048, b2⟩, ⟨S2048, b3⟩] h (ix1 (band3 q)) 3 (by show (3 : Nat) < 4; omega) S2048 b3 rfl rfl 6144 rfl (ix1 q)
    (fun d hd => match d, hd with | ⟨0, _⟩, hd => absurd rfl hd)
    (by show 6144 + q.val = 6144 + q.val; rfl)

end Joined

/-- One entry of the fused product plus the fused bias is a gate's pre-activation, once the joined operands are
    known piece by piece at the positions the entry reads: the left operand's row is the embedding row followed by
    the hidden row, and the right operand's column and the bias entry are the gate's own. -/
theorem fused_entry (xh : S2048x4096.Idx → EReal) (W : S4096x8192.Idx → EReal) (bb : S8192.Idx → EReal)
    (x h : S2048x2048.Idx → EReal) (Wg : S4096x2048.Idx → EReal) (bg : S2048.Idx → EReal)
    (p : Fin 2048) (c : Fin 8192) (q : Fin 2048)
    (hx : ∀ k : Fin 2048, xh (ix2 p (up k)) = x (ix2 p k)) (hh : ∀ k : Fin 2048, xh (ix2 p (lo k)) = h (ix2 p k))
    (hW : ∀ r : Fin 4096, W (ix2 r c) = Wg (ix2 r q)) (hb : bb (ix1 c) = bg (ix1 q)) :
    (∑ k : Fin 4096, xh (ix2 p k) * W (ix2 k c)) + bb (ix1 c) = pre x h Wg bg p q := by
  unfold pre
  rw [sum_split (fun k => xh (ix2 p k) * W (ix2 k c)), hb]
  simp only [hx, hh, hW]

/-- The logistic function as the reference computes it. -/
theorem logistic_expanded (z : EReal) :
    Ideal.div (Ideal.ofBits .f32 0x3F800000#32) (Ideal.ofBits .f32 0x3F800000#32 + Ideal.exp (-z)) = Ideal.logistic z := by
  rw [Ideal.ofBits_one_f32]; rfl

end Cert.ReferenceIdeal.RefValue

end
-- ==== Proof.RefValueB.lean ====
/-
  The reference's fused pre-activation array, read at an index.

  Entry (p, c) of the [2048, 8192] array is the product of row p of the joined left operand with column c of the
  joined weights, plus entry c of the joined bias (the bias is laid along the columns and repeated down the rows).
  In band g of the columns the joined weights and bias are gate g's own, and row p of the left operand is the
  embedding row followed by the hidden row, so the entry is gate g's pre-activation. The bands, in the order the
  reference joins them: forget, input, output, candidate.
-/
import proofs.«135622_j82282983457014_2_alg».proof.Proof.RefValueA
import proofs.«135622_j82282983457014_2_alg».proof.Proof.Gen.ReferenceIdeal.Read

noncomputable section

open scoped BigOperators

namespace Cert.ReferenceIdeal.RefValue

open Cert.ReferenceIdeal Cert.ReferenceIdeal.Gen Cert.Lstm Idealize.ShloMosaic Idealize.ShloMosaic.ValueIdx

/-- The left operand's element the product reads at position `k` of entry (p, c): row p, column k. -/
theorem lidx_fused (p : Fin 2048) (c : Fin 8192) (k : Fin 4096) : Read.lidx_main_v10 (ix2 p c) k = ix2 p k :=
  funext fun a => Fin.ext (by match a with | ⟨0, _⟩ => rfl | ⟨1, _⟩ => rfl)

/-- The right operand's element the product reads at position `k` of entry (p, c): row k, column c. -/
theorem ridx_fused (p : Fin 2048) (c : Fin 8192) (k : Fin 4096) : Read.ridx_main_v10 (ix2 p c) k = ix2 k c :=
  funext fun a => Fin.ext (by match a with | ⟨0, _⟩ => rfl | ⟨1, _⟩ => rfl)

/-- The bias entry that lands on entry (p, c): entry c. -/
theorem idx_bias (p : Fin 2048) (c : Fin 8192) : Read.idx_main_v11 (Read.idx_main_v12 (ix2 p c)) = ix1 c :=
  funext fun a => Fin.ext (by match a with | ⟨0, _⟩ => rfl)

variable (x0 : (⟨S2048, .i32⟩ : BufTy).Contents (Elt Ideal))
  (x1 x2 : (⟨S2048x2048, .f32⟩ : BufTy).Contents (Elt Ideal))
  (x3 : (⟨S50257x2048, .f32⟩ : BufTy).Contents (Elt Ideal))
  (x4 : (⟨S4096x2048, .f32⟩ : BufTy).Contents (Elt Ideal)) (x5 : (⟨S2048, .f32⟩ : BufTy).Contents (Elt Ideal))
  (x6 : (⟨S4096x2048, .f32⟩ : BufTy).Contents (Elt Ideal)) (x7 : (⟨S2048, .f32⟩ : BufTy).Contents (Elt Ideal))
  (x8 : (⟨S4096x2048, .f32⟩ : BufTy).Contents (Elt Ideal)) (x9 : (⟨S2048, .f32⟩ : BufTy).Contents (Elt Ideal))
  (x10 : (⟨S4096x2048, .f32⟩ : BufTy).Contents (Elt Ideal)) (x11 : (⟨S2048, .f32⟩ : BufTy).Contents (Elt Ideal))

/-- Entry (p, c) of the fused pre-activation: the sum over the 4096 joined positions, plus the joined bias at c. -/
theorem fused_at (p : Fin 2048) (c : Fin 8192) :
    Read.val_main_v13 (F := Ideal) x0 x1 x3 x4 x5 x6 x7 x8 x9 x10 x11 (ix2 p c)
      = (∑ k : Fin 4096, Read.val_main_v7 (F := Ideal) x0 x1 x3 (ix2 p k) * Read.val_main_v8 (F := Ideal) x4 x6 x8 x10 (ix2 k c))
        + Read.val_main_v9 (F := Ideal) x5 x7 x9 x11 (ix1 c) := by
  rw [Read.val_main_v13_apply, Read.val_main_v10_apply, Read.val_main_v12_apply, Read.val_main_v11_apply]
  simp only [lidx_fused, ridx_fused, idx_bias]
  rfl

/-- Row p of the joined left operand, first half: the embedding row. -/
theorem left_up (p k : Fin 2048) :
    Read.val_main_v7 (F := Ideal) x0 x1 x3 (ix2 p (up k)) = Read.val_main_v6 (F := Ideal) x0 x3 (ix2 p k) := by
  unfold Read.val_main_v7
  exact joined_rows_up _ _ _ p k

/-- Row p of the joined left operand, second half: the hidden row. -/
theorem left_lo (p k : Fin 2048) :
    Read.val_main_v7 (F := Ideal) x0 x1 x3 (ix2 p (lo k)) = x1 (ix2 p k) := by
  unfold Read.val_main_v7
  exact joined_rows_lo _ _ _ p k

/-- Band 0 of the joined weights is the forget gate's weight. -/
theorem weights_band0 (r : Fin 4096) (q : Fin 2048) :
    Read.val_main_v8 (F := Ideal) x4 x6 x8 x10 (ix2 r (band0 q)) = x4 (ix2 r q) := by
  unfold Read.val_main_v8
  exact joined_weights_band0 _ _ _ _ _ r q

/-- Band 0 of the joined bias is the forget gate's bias. -/
theorem biases_band0 (q : Fin 2048) :
    Read.val_main_v9 (F := Ideal) x5 x7 x9 x11 (ix1 (band0 q)) = x5 (ix1 q) := by
  unfold Read.val_main_v9
  exact joined_biases_band0 _ _ _ _ _ q

/-- Band 0 of the fused pre-activation is the forget gate's pre-activation. -/
theorem pre_forget (p q : Fin 2048) :
    Read.val_main_v13 (F := Ideal) x0 x1 x3 x4 x5 x6 x7 x8 x9 x10 x11 (ix2 p (band0 q))
      = pre (Read.val_main_v6 (F := Ideal) x0 x3) x1 x4 x5 p q := by
  rw [fused_at]
  exact fused_entry _ _ _ _ _ _ _ p (band0 q) q (fun k => left_up x0 x1 x3 p k) (fun k => left_lo x0 x1 x3 p k)
    (fun r => weights_band0 x4 x6 x8 x10 r q) (biases_band0 x5 x7 x9 x11 q)

/-- Band 1 of the joined weights is the input gate's weight. -/
theorem weights_band1 (r : Fin 4096) (q : Fin 2048) :
    Read.val_main_v8 (F := Ideal) x4 x6 x8 x10 (ix2 r (band1 q)) = x8 (ix2 r q) := by
  unfold Read.val_main_v8
  exact joined_weights_band1 _ _ _ _ _ r q

/-- Band 1 of the joined bias is the input gate's bias. -/
theorem biases_band1 (q : Fin 2048) :
    Read.val_main_v9 (F := Ideal) x5 x7 x9 x11 (ix1 (band1 q)) = x9 (ix1 q) := by
  unfold Read.val_main_v9
  exact joined_biases_band1 _ _ _ _ _ q

/-- Band 1 of the fused pre-activation is the input gate's pre-activation. -/
theorem pre_input (p q : Fin 2048) :
    Read.val_main_v13 (F := Ideal) x0 x1 x3 x4 x5 x6 x7 x8 x9 x10 x11 (ix2 p (band1 q))
      = pre (Read.val_main_v6 (F := Ideal) x0 x3) x1 x8 x9 p q := by
  rw [fused_at]
  exact fused_entry _ _ _ _ _ _ _ p (band1 q) q (fun k => left_up x0 x1 x3 p k) (fun k => left_lo x0 x1 x3 p k)
    (fun r => weights_band1 x4 x6 x8 x10 r q) (biases_band1 x5 x7 x9 x11 q)

/-- Band 2 of the joined weights is the output gate's weight. -/
theorem weights_band2 (r : Fin 4096) (q : Fin 2048) :
    Read.val_main_v8 (F := Ideal) x4 x6 x8 x10 (ix2 r (band2 q)) = x10 (ix2 r q) := by
  unfold Read.val_main_v8
  exact joined_weights_band2 _ _ _ _ _ r q

/-- Band 2 of the joined bias is the output gate's bias. -/
theorem biases_band2 (q : Fin 2048) :
    Read.val_main_v9 (F := Ideal) x5 x7 x9 x11 (ix1 (band2 q)) = x11 (ix1 q) := by
  unfold Read.val_main_v9
  exact joined_biases_band2 _ _ _ _ _ q

/-- Band 2 of the fused pre-activation is the output gate's pre-activation. -/
theorem pre_output (p q : Fin 2048) :
    Read.val_main_v13 (F := Ideal) x0 x1 x3 x4 x5 x6 x7 x8 x9 x10 x11 (ix2 p (band2 q))
      = pre (Read.val_main_v6 (F := Ideal) x0 x3) x1 x10 x11 p q := by
  rw [fused_at]
  exact fused_entry _ _ _ _ _ _ _ p (band2 q) q (fun k => left_up x0 x1 x3 p k) (fun k => left_lo x0 x1 x3 p k)
    (fun r => weights_band2 x4 x6 x8 x10 r q) (biases_band2 x5 x7 x9 x11 q)

/-- Band 3 of the joined weights is the candidate's weight. -/
theorem weights_band3 (r : Fin 4096) (q : Fin 2048) :
    Read.val_main_v8 (F := Ideal) x4 x6 x8 x10 (ix2 r (band3 q)) = x6 (ix2 r q) := by
  unfold Read.val_main_v8
  exact joined_weights_band3 _ _ _ _ _ r q

/-- Band 3 of the joined bias is the candidate's bias. -/
theorem biases_band3 (q : Fin 2048) :
    Read.val_main_v9 (F := Ideal) x5 x7 x9 x11 (ix1 (band3 q)) = x7 (ix1 q) := by
  unfold Read.val_main_v9
  exact joined_biases_band3 _ _ _ _ _ q

/-- Band 3 of the fused pre-activation is the candidate's pre-activation. -/
theorem pre_candidate (p q : Fin 2048) :
    Read.val_main_v13 (F := Ideal) x0 x1 x3 x4 x5 x6 x7 x8 x9 x10 x11 (ix2 p (band3 q))
      = pre (Read.val_main_v6 (F := Ideal) x0 x3) x1 x6 x7 p q := by
  rw [fused_at]
  exact fused_entry _ _ _ _ _ _ _ p (band3 q) q (fun k => left_up x0 x1 x3 p k) (fun k => left_lo x0 x1 x3 p k)
    (fun r => weights_band3 x4 x6 x8 x10 r q) (biases_band3 x5 x7 x9 x11 q)

end Cert.ReferenceIdeal.RefValue

end
-- ==== Proof.RefValue.lean ====
/-
  The reference's three results, read at an index, are the cell's new state, its new hidden state and the
  classifier's logits as functions of the arguments.

  The fused pre-activation is cut into its four column bands. The first three go through the logistic function —
  which the reference spells as one over one plus the exponential of the negation — and are the forget, input and
  output gates; the fourth goes through tanh and is the candidate. Then
    c' = forget · c + input · candidate,   h' = output · tanh c',   y = h' · Wcls + bcls,
  the classifier's bias laid along the columns and repeated down the rows. The embedding rows the token indices
  select enter only as one array, never opened.
-/
import proofs.«135622_j82282983457014_2_alg».proof.Proof.Spec
import proofs.«135622_j82282983457014_2_alg».proof.Proof.Gen.ReferenceIdeal.Read
import proofs.«135622_j82282983457014_2_alg».proof.Proof.RefValueB

noncomputable section

open scoped BigOperators

namespace Cert.ReferenceIdeal.RefValue

open Cert.ReferenceIdeal Cert.ReferenceIdeal.Gen Cert.Lstm Idealize.ShloMosaic Idealize.ShloMosaic.ValueIdx

/-- Band 0's column window of the fused pre-activation, at (p, q): column q of band 0. -/
theorem idx_band0 (p q : Fin 2048) : Read.idx_main_v14 (ix2 p q) = ix2 p (band0 q) :=
  funext fun a => Fin.ext (by match a with | ⟨0, _⟩ => rfl | ⟨1, _⟩ => rfl)

/-- Band 1's column window of the fused pre-activation, at (p, q): column q of band 1. -/
theorem idx_band1 (p q : Fin 2048) : Read.idx_main_v15 (ix2 p q) = ix2 p (band1 q) :=
  funext fun a => Fin.ext (by match a with | ⟨0, _⟩ => rfl | ⟨1, _⟩ => rfl)

/-- Band 2's column window of the fused pre-activation, at (p, q): column q of band 2. -/
theorem idx_band2 (p q : Fin 2048) : Read.idx_main_v16 (ix2 p q) = ix2 p (band2 q) :=
  funext fun a => Fin.ext (by match a with | ⟨0, _⟩ => rfl | ⟨1, _⟩ => rfl)

/-- Band 3's column window of the fused pre-activation, at (p, q): column q of band 3. -/
theorem idx_band3 (p q : Fin 2048) : Read.idx_main_v17 (ix2 p q) = ix2 p (band3 q) :=
  funext fun a => Fin.ext (by match a with | ⟨0, _⟩ => rfl | ⟨1, _⟩ => rfl)

/-- The hidden state's element the classifier's product reads at position `k` of entry (p, v): row p, column k. -/
theorem lidx_cls (p : Fin 2048) (v : Fin 50257) (k : Fin 2048) : Read.lidx_main_v42 (ix2 p v) k = ix2 p k :=
  funext fun a => Fin.ext (by match a with | ⟨0, _⟩ => rfl | ⟨1, _⟩ => rfl)

/-- The classifier weight's element read at position `k` of entry (p, v): row k, column v. -/
theorem ridx_cls (p : Fin 2048) (v : Fin 50257) (k : Fin 2048) : Read.ridx_main_v42 (ix2 p v) k = ix2 k v :=
  funext fun a => Fin.ext (by match a with | ⟨0, _⟩ => rfl | ⟨1, _⟩ => rfl)

/-- The classifier bias entry that lands on entry (p, v): entry v. -/
theorem idx_cls_bias (p : Fin 2048) (v : Fin 50257) : Read.idx_main_v43 (Read.idx_main_v44 (ix2 p v)) = ix1 v :=
  funext fun a => Fin.ext (by match a with | ⟨0, _⟩ => rfl)

variable (x0 : (⟨S2048, .i32⟩ : BufTy).Contents (Elt Ideal))
  (x1 x2 : (⟨S2048x2048, .f32⟩ : BufTy).Contents (Elt Ideal))
  (x3 : (⟨S50257x2048, .f32⟩ : BufTy).Contents (Elt Ideal))
  (x4 : (⟨S4096x2048, .f32⟩ : BufTy).Contents (Elt Ideal)) (x5 : (⟨S2048, .f32⟩ : BufTy).Contents (Elt Ideal))
  (x6 : (⟨S4096x2048, .f32⟩ : BufTy).Contents (Elt Ideal)) (x7 : (⟨S2048, .f32⟩ : BufTy).Contents (Elt Ideal))
  (x8 : (⟨S4096x2048, .f32⟩ : BufTy).Contents (Elt Ideal)) (x9 : (⟨S2048, .f32⟩ : BufTy).Contents (Elt Ideal))
  (x10 : (⟨S4096x2048, .f32⟩ : BufTy).Contents (Elt Ideal)) (x11 : (⟨S2048, .f32⟩ : BufTy).Contents (Elt Ideal))
  (x12 : (⟨S2048x50257, .f32⟩ : BufTy).Contents (Elt Ideal)) (x13 : (⟨S50257, .f32⟩ : BufTy).Contents (Elt Ideal))

/-- The forget gate: the logistic function of the first band's pre-activation. -/
theorem gate_forget (p q : Fin 2048) :
    Read.val_main_v23 (F := Ideal) x0 x1 x3 x4 x5 x6 x7 x8 x9 x10 x11 (ix2 p q) = Ideal.logistic (pre (Read.val_main_v6 (F := Ideal) x0 x3) x1 x4 x5 p q) := by
  rw [Read.val_main_v23_apply, Read.val_main_v22_apply, Read.val_main_cst_1_apply, Read.val_main_v21_apply,
    Read.val_main_v20_apply, Read.val_main_cst_apply, Read.val_main_v19_apply, Read.val_main_v18_apply,
    Read.val_main_v14_apply, idx_band0, pre_forget]
  exact logistic_expanded _

/-- The input gate: the logistic function of the second band's pre-activation. -/
theorem gate_input (p q : Fin 2048) :
    Read.val_main_v29 (F := Ideal) x0 x1 x3 x4 x5 x6 x7 x8 x9 x10 x11 (ix2 p q) = Ideal.logistic (pre (Read.val_main_v6 (F := Ideal) x0 x3) x1 x8 x9 p q) := by
  rw [Read.val_main_v29_apply, Read.val_main_v28_apply, Read.val_main_cst_3_apply, Read.val_main_v27_apply,
    Read.val_main_v26_apply, Read.val_main_cst_2_apply, Read.val_main_v25_apply, Read.val_main_v24_apply,
    Read.val_main_v15_apply, idx_band1, pre_input]
  exact logistic_expanded _

/-- The output gate: the logistic function of the third band's pre-activation. -/
theorem gate_output (p q : Fin 2048) :
    Read.val_main_v35 (F := Ideal) x0 x1 x3 x4 x5 x6 x7 x8 x9 x10 x11 (ix2 p q) = Ideal.logistic (pre (Read.val_main_v6 (F := Ideal) x0 x3) x1 x10 x11 p q) := by
  rw [Read.val_main_v35_apply, Read.val_main_v34_apply, Read.val_main_cst_5_apply, Read.val_main_v33_apply,
    Read.val_main_v32_apply, Read.val_main_cst_4_apply, Read.val_main_v31_apply, Read.val_main_v30_apply,
    Read.val_main_v16_apply, idx_band2, pre_output]
  exact logistic_expanded _

/-- The candidate: tanh of the fourth band's pre-activation. -/
theorem candidate (p q : Fin 2048) :
    Read.val_main_v36 (F := Ideal) x0 x1 x3 x4 x5 x6 x7 x8 x9 x10 x11 (ix2 p q) = Ideal.tanh (pre (Read.val_main_v6 (F := Ideal) x0 x3) x1 x6 x7 p q) := by
  rw [Read.val_main_v36_apply, Read.val_main_v17_apply, idx_band3, pre_candidate]
  rfl

/-- **The new cell state** at (p, q). -/
theorem c_new_at (p q : Fin 2048) :
    Read.val_main_v39 (F := Ideal) x0 x1 x2 x3 x4 x5 x6 x7 x8 x9 x10 x11 (ix2 p q) = cNew (Read.val_main_v6 (F := Ideal) x0 x3) x1 x2 x4 x5 x6 x7 x8 x9 p q := by
  rw [Read.val_main_v39_apply, Read.val_main_v37_apply, Read.val_main_v38_apply, gate_forget, gate_input, candidate]
  rfl

/-- **The new hidden state** at (p, q). -/
theorem h_new_at (p q : Fin 2048) :
    Read.val_main_v41 (F := Ideal) x0 x1 x2 x3 x4 x5 x6 x7 x8 x9 x10 x11 (ix2 p q) = hNew (Read.val_main_v6 (F := Ideal) x0 x3) x1 x2 x4 x5 x6 x7 x8 x9 x10 x11 p q := by
  rw [Read.val_main_v41_apply, Read.val_main_v40_apply, gate_output, c_new_at]
  rfl

/-- **The logits** at (p, v). -/
theorem y_at (p : Fin 2048) (v : Fin 50257) :
    Read.val_main_v45 (F := Ideal) x0 x1 x2 x3 x4 x5 x6 x7 x8 x9 x10 x11 x12 x13 (ix2 p v)
      = logits (fun p k => hNew (Read.val_main_v6 (F := Ideal) x0 x3) x1 x2 x4 x5 x6 x7 x8 x9 x10 x11 p k) x12 x13 p v := by
  rw [Read.val_main_v45_apply, Read.val_main_v42_apply, Read.val_main_v44_apply, Read.val_main_v43_apply]
  simp only [lidx_cls, ridx_cls, idx_cls_bias, h_new_at]
  rfl

/-- The new cell state as a whole array. -/
theorem c_new_eq :
    Read.val_main_v39 (F := Ideal) x0 x1 x2 x3 x4 x5 x6 x7 x8 x9 x10 x11
      = fun i => cNew (Read.val_main_v6 (F := Ideal) x0 x3) x1 x2 x4 x5 x6 x7 x8 x9 (i 0) (i 1) := by
  funext i
  obtain ⟨p, q, rfl⟩ : ∃ (p : Fin 2048) (q : Fin 2048), i = ix2 p q := ⟨i 0, i 1, eq_ix2 i⟩
  exact c_new_at x0 x1 x2 x3 x4 x5 x6 x7 x8 x9 x10 x11 p q

/-- The new hidden state as a whole array. -/
theorem h_new_eq :
    Read.val_main_v41 (F := Ideal) x0 x1 x2 x3 x4 x5 x6 x7 x8 x9 x10 x11
      = fun i => hNew (Read.val_main_v6 (F := Ideal) x0 x3) x1 x2 x4 x5 x6 x7 x8 x9 x10 x11 (i 0) (i 1) := by
  funext i
  obtain ⟨p, q, rfl⟩ : ∃ (p : Fin 2048) (q : Fin 2048), i = ix2 p q := ⟨i 0, i 1, eq_ix2 i⟩
  exact h_new_at x0 x1 x2 x3 x4 x5 x6 x7 x8 x9 x10 x11 p q

/-- The logits as a whole array. -/
theorem y_eq :
    Read.val_main_v45 (F := Ideal) x0 x1 x2 x3 x4 x5 x6 x7 x8 x9 x10 x11 x12 x13
      = fun i => logits (fun p k => hNew (Read.val_main_v6 (F := Ideal) x0 x3) x1 x2 x4 x5 x6 x7 x8 x9 x10 x11 p k) x12 x13 (i 0) (i 1) := by
  funext i
  obtain ⟨p, v, rfl⟩ : ∃ (p : Fin 2048) (v : Fin 50257), i = ix2 p v := ⟨i 0, i 1, eq_ix2 i⟩
  exact y_at x0 x1 x2 x3 x4 x5 x6 x7 x8 x9 x10 x11 x12 x13 p v

end Cert.ReferenceIdeal.RefValue

end
-- ==== Proof.Algebraic.lean ====
/-
  The value claim: at the extended reals the kernel's program and the reference, run from memories that agree on the
  arguments, both terminate and end with equal results. The witnesses are the specification's three functions of the
  kernel's launch memory; the kernel's run ends at them (the closed forms of its two pipelines), and the reference's
  run ends at them too: its fused product splits at the 2048-th contraction position into the kernel's two products
  per gate, its expanded sigmoid is the logistic function, and the gather of embedding rows is one value in both
  programs.
-/
import proofs.«135622_j82282983457014_2_alg».proof.Defs
import proofs.«135622_j82282983457014_2_alg».proof.Proof.KernelValue
import proofs.«135622_j82282983457014_2_alg».proof.Proof.RefValue
import proofs.«135622_j82282983457014_2_alg».proof.Proof.Frames

noncomputable section

namespace Cert.Proof.Claims

open Idealize.ShloMosaic Idealize.ShloMosaic.TcCoe Idealize.SL.Sem

/-- The embedding rows the token indices select are one value in both programs: the same host lines. -/
theorem gather_same (X : (⟨Cert.KernelIdeal.S2048, .i32⟩ : BufTy).Contents (Elt Ideal))
    (E : (⟨Cert.KernelIdeal.S50257x2048, .f32⟩ : BufTy).Contents (Elt Ideal)) :
    Cert.ReferenceIdeal.Read.val_main_v6 (F := Ideal) X E = Cert.KernelIdeal.Hand.xEmb X E := rfl

theorem algebraic : Cert.algebraic_KernelIdeal_ReferenceIdeal := by
  intro m ρ m' ρ' _ hagree
  refine ⟨fun c => Cert.KernelIdeal.Hand.gY m c, fun c => Cert.KernelIdeal.Hand.gH m c, fun c => Cert.KernelIdeal.Hand.gC m c,
    Cert.KernelIdeal.Hand.kernel_run m ρ, ?_⟩
  refine (θ_run Cert.ReferenceIdeal.defs _ _).mono (fun r h c => ?_) (Cert.ReferenceIdeal.Value.run (F := Ideal) m' ρ')
  obtain ⟨h45, h41, h39, hargs⟩ := h c
  obtain ⟨a0, a1, a2, a3, a4, a5, a6, a7, a8, a9, a10, a11, a12, a13⟩ := hagree c
  refine ⟨?_, ?_, ?_, hargs⟩
  · rw [h45, Cert.ReferenceIdeal.Read.val_main_v45_eq, Cert.ReferenceIdeal.RefValue.y_eq, a0, a1, a2, a3, a4, a5, a6, a7, a8, a9, a10, a11, a12, a13, gather_same]
    rfl
  · rw [h41, Cert.ReferenceIdeal.Read.val_main_v41_eq, Cert.ReferenceIdeal.RefValue.h_new_eq, a0, a1, a2, a3, a4, a5, a6, a7, a8, a9, a10, a11, gather_same]
    rfl
  · rw [h39, Cert.ReferenceIdeal.Read.val_main_v39_eq, Cert.ReferenceIdeal.RefValue.c_new_eq, a0, a1, a2, a3, a4, a5, a6, a7, a8, a9, gather_same]
    rfl

/-- The ideal pass rewrote nothing: there is no conjunct to restate. -/
theorem preserves : Cert.preserves_Kernel_KernelIdeal := trivial

end Cert.Proof.Claims

end
-- ==== Proof.lean ====
/-
  The certificate of a single-step LSTM-style cell with a linear classifier head: a Pallas kernel for the cell (four
  gates, each the sum of an embedding product and a hidden-state product plus a bias; sigmoid and tanh gating), a second
  Pallas kernel for the classifier product, against the plain jnp reference that fuses the four gates into one product.
  Proved: each of the three programs runs to the end, faults nowhere and leaves its arguments unchanged (Proof/Frames);
  the ideal pass rewrote nothing; and at the extended reals the kernel and the reference end with equal logits, hidden
  state and cell state (Proof/Algebraic) — the one law used is that a sum over 4096 positions is the sum of its two
  halves, which needs no finiteness.
-/
import proofs.«135622_j82282983457014_2_alg».proof.Defs
import proofs.«135622_j82282983457014_2_alg».proof.Proof.Gen.Kernel
import proofs.«135622_j82282983457014_2_alg».proof.Proof.Gen.KernelIdeal
import proofs.«135622_j82282983457014_2_alg».proof.Proof.Gen.ReferenceIdeal
import proofs.«135622_j82282983457014_2_alg».proof.Proof.Gen.Pre_finite_inputs
import proofs.«135622_j82282983457014_2_alg».proof.Proof.Frames
import proofs.«135622_j82282983457014_2_alg».proof.Proof.Algebraic

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
